-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16 : Shape := ⟨2, ![16384, 16]⟩
abbrev S8192x16384 : Shape := ⟨2, ![8192, 16384]⟩
abbrev S272x128 : Shape := ⟨2, ![272, 128]⟩
abbrev S128 : Shape := ⟨1, ![128]⟩
abbrev S144x1 : Shape := ⟨2, ![144, 1]⟩
abbrev S1 : Shape := ⟨1, ![1]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16 : S_.BroadcastsInDim S16384x16 (![] : Fin 0 → Fin S16384x16.rank)
  reducesTo_S16384x16_S_d0_1 : S16384x16.ReducesTo [0, 1] S_
  bcast_S_S8192x16384 : S_.BroadcastsInDim S8192x16384 (![] : Fin 0 → Fin S8192x16384.rank)
  reducesTo_S8192x16384_S_d0_1 : S8192x16384.ReducesTo [0, 1] S_
  bcast_S_S272x128 : S_.BroadcastsInDim S272x128 (![] : Fin 0 → Fin S272x128.rank)
  reducesTo_S272x128_S_d0_1 : S272x128.ReducesTo [0, 1] S_
  bcast_S_S128 : S_.BroadcastsInDim S128 (![] : Fin 0 → Fin S128.rank)
  reducesTo_S128_S_d0 : S128.ReducesTo [0] S_
  bcast_S_S144x1 : S_.BroadcastsInDim S144x1 (![] : Fin 0 → Fin S144x1.rank)
  reducesTo_S144x1_S_d0_1 : S144x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S144x1 .f32) (main_v50 : FVec F S144x1 .f32) : IVec S_ 1 :=
  let main_v51 : IVec S144x1 1 := cmpf .olt main_v49 main_v50
  let main_c_19 : IVec S_ 1 := constantI S_ 1 1#1
  let main_v52 : IVec S_ 1 := (fun x v => Host.reduce IntOp.andi x v reducesTo_S144x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S128 .f32) (main_arg8 : FVec F S272x128 .f32) (main_arg9 : FVec F S128 .f32) (main_arg10 : FVec F S144x1 .f32) (main_arg11 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S272x128 .f32 := Host.absf main_arg8
  let main_cst_14 : FVec F S_ .f32 := constant S_ .f32 0x7F800000#32
  let main_v40 : FVec F S272x128 .f32 := broadcastInDim S272x128 ![] bcast_S_S272x128 main_cst_14
  let main_v41 : IVec S272x128 1 := cmpf .olt main_v39 main_v40
  let main_c_15 : IVec S_ 1 := constantI S_ 1 1#1
  let main_v42 : IVec S_ 1 := (fun x v => Host.reduce IntOp.andi x v reducesTo_S272x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S144x1 .f32 := Host.absf main_arg10
  let main_cst_18 : FVec F S_ .f32 := constant S_ .f32 0x7F800000#32
  let main_v50 : FVec F S144x1 .f32 := broadcastInDim S144x1 ![] bcast_S_S144x1 main_cst_18
  fn_part3 (F := F) main_arg11 main_v48 main_v49 main_v50

def fn_part1 {F : FTy → Type} [FloatOps F] (main_arg4 : FVec F S8192x16384 .f32) (main_arg5 : FVec F S8192x16384 .f32) (main_arg6 : FVec F S272x128 .f32) (main_arg7 : FVec F S128 .f32) (main_arg8 : FVec F S272x128 .f32) (main_arg9 : FVec F S128 .f32) (main_arg10 : FVec F S144x1 .f32) (main_arg11 : FVec F S1 .f32) (main_v13 : IVec S_ 1) (main_v16 : IVec S16384x16 1) : IVec S_ 1 :=
  let main_c_5 : IVec S_ 1 := constantI S_ 1 1#1
  let main_v17 : IVec S_ 1 := (fun x v => Host.reduce IntOp.andi x v reducesTo_S16384x16_S_d0_1 h_S_) main_v16 main_c_5
  let main_v18 : IVec S_ 1 := andi main_v13 main_v17
  let main_v19 : FVec F S8192x16384 .f32 := Host.absf main_arg4
  let main_cst_6 : FVec F S_ .f32 := constant S_ .f32 0x7F800000#32
  let main_v20 : FVec F S8192x16384 .f32 := broadcastInDim S8192x16384 ![] bcast_S_S8192x16384 main_cst_6
  let main_v21 : IVec S8192x16384 1 := cmpf .olt main_v19 main_v20
  let main_c_7 : IVec S_ 1 := constantI S_ 1 1#1
  let main_v22 : IVec S_ 1 := (fun x v => Host.reduce IntOp.andi x v reducesTo_S8192x16384_S_d0_1 h_S_) main_v21 main_c_7
  let main_v23 : IVec S_ 1 := andi main_v18 main_v22
  let main_v24 : FVec F S8192x16384 .f32 := Host.absf main_arg5
  let main_cst_8 : FVec F S_ .f32 := constant S_ .f32 0x7F800000#32
  let main_v25 : FVec F S8192x16384 .f32 := broadcastInDim S8192x16384 ![] bcast_S_S8192x16384 main_cst_8
  let main_v26 : IVec S8192x16384 1 := cmpf .olt main_v24 main_v25
  let main_c_9 : IVec S_ 1 := constantI S_ 1 1#1
  let main_v27 : IVec S_ 1 := (fun x v => Host.reduce IntOp.andi x v reducesTo_S8192x16384_S_d0_1 h_S_) main_v26 main_c_9
  let main_v28 : IVec S_ 1 := andi main_v23 main_v27
  let main_v29 : FVec F S272x128 .f32 := Host.absf main_arg6
  let main_cst_10 : FVec F S_ .f32 := constant S_ .f32 0x7F800000#32
  let main_v30 : FVec F S272x128 .f32 := broadcastInDim S272x128 ![] bcast_S_S272x128 main_cst_10
  let main_v31 : IVec S272x128 1 := cmpf .olt main_v29 main_v30
  let main_c_11 : IVec S_ 1 := constantI S_ 1 1#1
  let main_v32 : IVec S_ 1 := (fun x v => Host.reduce IntOp.andi x v reducesTo_S272x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x128 .f32) (main_arg1 : FVec F S16384x128 .f32) (main_arg2 : FVec F S16384x128 .f32) (main_arg3 : FVec F S16384x16 .f32) (main_arg4 : FVec F S8192x16384 .f32) (main_arg5 : FVec F S8192x16384 .f32) (main_arg6 : FVec F S272x128 .f32) (main_arg7 : FVec F S128 .f32) (main_arg8 : FVec F S272x128 .f32) (main_arg9 : FVec F S128 .f32) (main_arg10 : FVec F S144x1 .f32) (main_arg11 : FVec F S1 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384x128 .f32 := Host.absf main_arg2
  let main_cst_2 : FVec F S_ .f32 := constant S_ .f32 0x7F800000#32
  let main_v10 : FVec F S16384x128 .f32 := broadcastInDim S16384x128 ![] bcast_S_S16384x128 main_cst_2
  let main_v11 : IVec S16384x128 1 := cmpf .olt main_v9 main_v10
  let main_c_3 : IVec S_ 1 := constantI S_ 1 1#1
  let main_v12 : IVec S_ 1 := (fun x v => Host.reduce IntOp.andi x v reducesTo_S16384x128_S_d0_1 h_S_) main_v11 main_c_3
  let main_v13 : IVec S_ 1 := andi main_v8 main_v12
  let main_v14 : FVec F S16384x16 .f32 := Host.absf main_arg3
  let main_cst_4 : FVec F S_ .f32 := constant S_ .f32 0x7F800000#32
  let main_v15 : FVec F S16384x16 .f32 := broadcastInDim S16384x16 ![] bcast_S_S16384x16 main_cst_4
  let main_v16 : IVec S16384x16 1 := cmpf .olt main_v14 main_v15
  fn_part1 (F := F) main_arg4 main_arg5 main_arg6 main_arg7 main_arg8 main_arg9 main_arg10 main_arg11 main_v13 main_v16
-- ==== Kernel.lean ====
abbrev S16384x128 : Shape := ⟨2, ![16384, 128]⟩
abbrev S16384x16 : Shape := ⟨2, ![16384, 16]⟩
abbrev S8192x16384 : Shape := ⟨2, ![8192, 16384]⟩
abbrev S272x128 : Shape := ⟨2, ![272, 128]⟩
abbrev S128 : Shape := ⟨1, ![128]⟩
abbrev S144x1 : Shape := ⟨2, ![144, 1]⟩
abbrev S1 : Shape := ⟨1, ![1]⟩
abbrev S16384x1 : Shape := ⟨2, ![16384, 1]⟩
abbrev S2048x128 : Shape := ⟨2, ![2048, 128]⟩
abbrev S2048x16 : Shape := ⟨2, ![2048, 16]⟩
abbrev S2048x1 : Shape := ⟨2, ![2048, 1]⟩
abbrev S128x128 : Shape := ⟨2, ![128, 128]⟩
abbrev S16x128 : Shape := ⟨2, ![16, 128]⟩
abbrev S1x128 : Shape := ⟨2, ![1, 128]⟩
abbrev S128x1 : Shape := ⟨2, ![128, 1]⟩
abbrev S16x1 : Shape := ⟨2, ![16, 1]⟩
abbrev S1x1 : Shape := ⟨2, ![1, 1]⟩
abbrev S1x16384 : Shape := ⟨2, ![1, 16384]⟩
abbrev S8192x128 : Shape := ⟨2, ![8192, 128]⟩
abbrev S512x2048 : Shape := ⟨2, ![512, 2048]⟩
abbrev S1x2048 : Shape := ⟨2, ![1, 2048]⟩
abbrev S512x128 : Shape := ⟨2, ![512, 128]⟩
abbrev S512x1 : Shape := ⟨2, ![512, 1]⟩
abbrev S512 : Shape := ⟨1, ![512]⟩

abbrev nBuf : Space → Nat
  | .hbm => 17
  | .vmem => 32
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S16384x16, .f32⟩
  | .hbm, ⟨4, _⟩ => ⟨S8192x16384, .f32⟩
  | .hbm, ⟨5, _⟩ => ⟨S8192x16384, .f32⟩
  | .hbm, ⟨6, _⟩ => ⟨S272x128, .f32⟩
  | .hbm, ⟨7, _⟩ => ⟨S128, .f32⟩
  | .hbm, ⟨8, _⟩ => ⟨S272x128, .f32⟩
  | .hbm, ⟨9, _⟩ => ⟨S128, .f32⟩
  | .hbm, ⟨10, _⟩ => ⟨S144x1, .f32⟩
  | .hbm, ⟨11, _⟩ => ⟨S1, .f32⟩
  | .hbm, ⟨12, _⟩ => ⟨S16384x128, .f32⟩
  | .hbm, ⟨13, _⟩ => ⟨S16384x128, .bf16⟩
  | .hbm, ⟨14, _⟩ => ⟨S16384x1, .f32⟩
  | .hbm, ⟨15, _⟩ => ⟨S1x16384, .f32⟩
  | .hbm, ⟨16, _⟩ => ⟨S8192x128, .f32⟩
  | .local _ .vmem, ⟨0, _⟩ => ⟨S2048x128, .f32⟩
  | .local _ .vmem, ⟨1, _⟩ => ⟨S2048x128, .f32⟩
  | .local _ .vmem, ⟨2, _⟩ => ⟨S2048x16, .f32⟩
  | .local _ .vmem, ⟨3, _⟩ => ⟨S2048x16, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S272x128, .f32⟩
  | .local _ .vmem, ⟨9, _⟩ => ⟨S128, .f32⟩
  | .local _ .vmem, ⟨10, _⟩ => ⟨S272x128, .f32⟩
  | .local _ .vmem, ⟨11, _⟩ => ⟨S128, .f32⟩
  | .local _ .vmem, ⟨12, _⟩ => ⟨S144x1, .f32⟩
  | .local _ .vmem, ⟨13, _⟩ => ⟨S1, .f32⟩
  | .local _ .vmem, ⟨14, _⟩ => ⟨S2048x128, .f32⟩
  | .local _ .vmem, ⟨15, _⟩ => ⟨S2048x128, .f32⟩
  | .local _ .vmem, ⟨16, _⟩ => ⟨S2048x128, .bf16⟩
  | .local _ .vmem, ⟨17, _⟩ => ⟨S2048x128, .bf16⟩
  | .local _ .vmem, ⟨18, _⟩ => ⟨S2048x1, .f32⟩
  | .local _ .vmem, ⟨19, _⟩ => ⟨S2048x1, .f32⟩
  | .local _ .vmem, ⟨20, _⟩ => ⟨S512x2048, .f32⟩
  | .local _ .vmem, ⟨21, _⟩ => ⟨S512x2048, .f32⟩
  | .local _ .vmem, ⟨22, _⟩ => ⟨S512x2048, .f32⟩
  | .local _ .vmem, ⟨23, _⟩ => ⟨S512x2048, .f32⟩
  | .local _ .vmem, ⟨24, _⟩ => ⟨S1x2048, .f32⟩
  | .local _ .vmem, ⟨25, _⟩ => ⟨S1x2048, .f32⟩
  | .local _ .vmem, ⟨26, _⟩ => ⟨S16384x128, .bf16⟩
  | .local _ .vmem, ⟨27, _⟩ => ⟨S512x128, .f32⟩
  | .local _ .vmem, ⟨28, _⟩ => ⟨S512x128, .f32⟩
  | .local _ .vmem, ⟨29, _⟩ => ⟨S512x1, .f32⟩
  | .local _ .vmem, ⟨30, _⟩ => ⟨S512x1, .f32⟩
  | .local _ .vmem, ⟨31, _⟩ => ⟨S512x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v1 : Ref sig .tc := ⟨.hbm, 15, rfl⟩
abbrev main_v2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg4_1 : Ref sig .tc := ⟨.vmem, 28, rfl⟩
abbrev cc1_scratch0 : Ref sig .tc := ⟨.vmem, 29, rfl⟩
abbrev cc1_scratch1 : Ref sig .tc := ⟨.vmem, 30, rfl⟩
abbrev cc1_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem4_0 : DmaSem sig := 27
abbrev cc1_sem4_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S272x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S272x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S144x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨2, ![16, 8], ![false, false]⟩

def k1_mult1 (i : grid1.Coords) : BitVec 32 :=
  let arg1 : BitVec 32 := BitVec.ofNat 32 (i 1).val
  let c2048_i32 : BitVec 32 := 2048#32
  let v28 : BitVec 32 := Scalar.muli arg1 c2048_i32
  v28
def k1_off1 (i : grid1.Coords) : Fin 2 → Nat :=
  let arg1 : BitVec 32 := BitVec.ofNat 32 (i 1).val
  let c2048_i32 : BitVec 32 := 2048#32
  let v28 : BitVec 32 := Scalar.muli arg1 c2048_i32
  let v29 : BitVec 32 := v28
  let v30 : Index := Scalar.indexCast v29
  let c0_15 : Index := 0#32
  ![v30.toNat, 0]
def k1_cond2 (i : grid1.Coords) : BitVec 1 :=
  let arg1 : BitVec 32 := BitVec.ofNat 32 (i 1).val
  let c7_i32 : BitVec 32 := 7#32
  let v45 : BitVec 1 := Scalar.cmpi .eq arg1 c7_i32
  let v46 : BitVec 32 := Scalar.extui v45
  let c0_i32_23 : BitVec 32 := 0#32
  let v47 : BitVec 1 := Scalar.cmpi .ne v46 c0_i32_23
  v47

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S16384x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S2048x16_S2048x16_0_0 : ∀ a, (![0, 0] : Fin 2 → Nat) a + S2048x16.size a ≤ S2048x16.size a
  h_S2048x16 : 0 < S2048x16.numel
  inb_S272x128_S128x128_0_0 : ∀ a, (![0, 0] : Fin 2 → Nat) a + S128x128.size a ≤ S272x128.size a
  h_S128x128 : 0 < S128x128.numel
  inb_S272x128_S16x128_128_0 : ∀ a, (![128, 0] : Fin 2 → Nat) a + S16x128.size a ≤ S272x128.size a
  h_S16x128 : 0 < S16x128.numel
  inb_S272x128_S128x128_144_0 : ∀ a, (![144, 0] : Fin 2 → Nat) a + S128x128.size a ≤ S272x128.size a
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  packedbf16_S2048x128_S2048x128_0_0 : (Rect.unit (s := S2048x128) ![0, 0] S2048x128.size inb_S2048x128_S2048x128_0_0).PackedRows (EltTy.packing .bf16)
  inb_S144x1_S128x1_0_0 : ∀ a, (![0, 0] : Fin 2 → Nat) a + S128x1.size a ≤ S144x1.size a
  h_S128x1 : 0 < S128x1.numel
  inb_S144x1_S16x1_128_0 : ∀ a, (![128, 0] : Fin 2 → Nat) a + S16x1.size a ≤ S144x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S16384x1_S1x16384 : S16384x1.ShapeCasts S1x16384
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  shapeCasts_S2048x128_S2048x128 : S2048x128.ShapeCasts S2048x128
  broadcasts_S512x1_S512x128 : S512x1.Broadcasts S512x128
  dot_S2048x128_S128x128_S2048x128_1_0_0_1_n_n_wf : DotDims.WF S2048x128 S128x128 S2048x128 [1] [0] [0] [1] [] []
  dot_S2048x16_S16x128_S2048x128_1_0_0_1_n_n_wf : DotDims.WF S2048x16 S16x128 S2048x128 [1] [0] [0] [1] [] []
  dot_S2048x128_S128x1_S2048x1_1_0_0_1_n_n_wf : DotDims.WF S2048x128 S128x1 S2048x1 [1] [0] [0] [1] [] []
  dot_S2048x16_S16x1_S2048x1_1_0_0_1_n_n_wf : DotDims.WF S2048x16 S16x1 S2048x1 [1] [0] [0] [1] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S16384x16.size a
  hwx0_1 : ∀ i : grid0.Coords, EltTy.bits .f32 = 32 ∨ (Rect.block (s := S16384x16) S2048x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .f32 = 32 ∨ (Rect.block (s := S16384x128) S2048x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S272x128.size a ≤ S272x128.size a
  hwx0_4 : ∀ i : grid0.Coords, EltTy.bits .f32 = 32 ∨ (Rect.block (s := S272x128) S272x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S272x128.size a ≤ S272x128.size a
  hwx0_6 : ∀ i : grid0.Coords, EltTy.bits .f32 = 32 ∨ (Rect.block (s := S272x128) S272x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S144x1.size a ≤ S144x1.size a
  hwx0_8 : ∀ i : grid0.Coords, EltTy.bits .f32 = 32 ∨ (Rect.block (s := S144x1) S144x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x128.size a ≤ S16384x128.size a
  hwx0_10 : ∀ i : grid0.Coords, EltTy.bits .f32 = 32 ∨ (Rect.block (s := S16384x128) S2048x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x128.size a ≤ S16384x128.size a
  hwx0_11 : ∀ i : grid0.Coords, EltTy.bits .bf16 = 32 ∨ (Rect.block (s := S16384x128) S2048x128.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x1.size a ≤ S16384x1.size a
  hwx0_12 : ∀ i : grid0.Coords, EltTy.bits .f32 = 32 ∨ (Rect.block (s := S16384x1) S2048x1.size (cc0_transform_12 i) (hinb0_12 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x128.size a ≤ S16384x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x16384.size a
  hwx1_0 : ∀ i : grid1.Coords, EltTy.bits .f32 = 32 ∨ (Rect.block (s := S8192x16384) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S8192x16384.size a
  hwx1_1 : ∀ i : grid1.Coords, EltTy.bits .f32 = 32 ∨ (Rect.block (s := S8192x16384) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x16384.size a
  hwx1_2 : ∀ i : grid1.Coords, EltTy.bits .f32 = 32 ∨ (Rect.block (s := S1x16384) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16384x128.size a ≤ S16384x128.size a
  hwx1_3 : ∀ i : grid1.Coords, EltTy.bits .bf16 = 32 ∨ (Rect.block (s := S16384x128) S16384x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S8192x128.size a
  hwx1_4 : ∀ i : grid1.Coords, EltTy.bits .f32 = 32 ∨ (Rect.block (s := S8192x128) S512x128.size (cc1_transform_4 i) (hinb1_4 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x16_S16x128_S2048x128_1_0_0_1_n_n : DotDims S2048x16 S16x128 S2048x128 where
  lhsContracting := [1]
  rhsContracting := [0]
  lhsNonContracting := [0]
  rhsNonContracting := [1]
  lhsBatch := []
  rhsBatch := []
  wf := dot_S2048x16_S16x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf
def dot_S2048x16_S16x1_S2048x1_1_0_0_1_n_n : DotDims S2048x16 S16x1 S2048x1 where
  lhsContracting := [1]
  rhsContracting := [0]
  lhsNonContracting := [0]
  rhsNonContracting := [1]
  lhsBatch := []
  rhsBatch := []
  wf := dot_S2048x16_S16x1_S2048x1_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S272x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S272x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S144x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0_0) S2048x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S2048x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_2) S2048x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg4) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S16384x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16 : Shape := ⟨2, ![16384, 16]⟩
abbrev S8192x16384 : Shape := ⟨2, ![8192, 16384]⟩
abbrev S272x128 : Shape := ⟨2, ![272, 128]⟩
abbrev S128 : Shape := ⟨1, ![128]⟩
abbrev S144x1 : Shape := ⟨2, ![144, 1]⟩
abbrev S1 : Shape := ⟨1, ![1]⟩
abbrev S16384x272 : Shape := ⟨2, ![16384, 272]⟩
abbrev S1x128 : Shape := ⟨2, ![1, 128]⟩
abbrev S_ : Shape := ⟨0, ![]⟩
abbrev S16384x144 : Shape := ⟨2, ![16384, 144]⟩
abbrev S16384x1 : Shape := ⟨2, ![16384, 1]⟩
abbrev S1x1 : Shape := ⟨2, ![1, 1]⟩
abbrev S16384 : Shape := ⟨1, ![16384]⟩
abbrev S1x16384 : Shape := ⟨2, ![1, 16384]⟩
abbrev S8192 : Shape := ⟨1, ![8192]⟩
abbrev S8192x1 : Shape := ⟨2, ![8192, 1]⟩
abbrev S8192x128 : Shape := ⟨2, ![8192, 128]⟩

abbrev nBuf : Space → Nat
  | .hbm => 82
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S16384x16, .f32⟩
  | .hbm, ⟨4, _⟩ => ⟨S8192x16384, .f32⟩
  | .hbm, ⟨5, _⟩ => ⟨S8192x16384, .f32⟩
  | .hbm, ⟨6, _⟩ => ⟨S272x128, .f32⟩
  | .hbm, ⟨7, _⟩ => ⟨S128, .f32⟩
  | .hbm, ⟨8, _⟩ => ⟨S272x128, .f32⟩
  | .hbm, ⟨9, _⟩ => ⟨S128, .f32⟩
  | .hbm, ⟨10, _⟩ => ⟨S144x1, .f32⟩
  | .hbm, ⟨11, _⟩ => ⟨S1, .f32⟩
  | .hbm, ⟨12, _⟩ => ⟨S16384x272, .f32⟩
  | .hbm, ⟨13, _⟩ => ⟨S16384x128, .f32⟩
  | .hbm, ⟨14, _⟩ => ⟨S1x128, .f32⟩
  | .hbm, ⟨15, _⟩ => ⟨S16384x128, .f32⟩
  | .hbm, ⟨16, _⟩ => ⟨S16384x128, .f32⟩
  | .hbm, ⟨17, _⟩ => ⟨S_, .f32⟩
  | .hbm, ⟨18, _⟩ => ⟨S16384x128, .f32⟩
  | .hbm, ⟨19, _⟩ => ⟨S16384x128, .i1⟩
  | .hbm, ⟨20, _⟩ => ⟨S_, .f32⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S16384x128, .f32⟩
  | .hbm, ⟨25, _⟩ => ⟨S1x128, .f32⟩
  | .hbm, ⟨26, _⟩ => ⟨S16384x128, .f32⟩
  | .hbm, ⟨27, _⟩ => ⟨S16384x128, .f32⟩
  | .hbm, ⟨28, _⟩ => ⟨S_, .f32⟩
  | .hbm, ⟨29, _⟩ => ⟨S16384x128, .f32⟩
  | .hbm, ⟨30, _⟩ => ⟨S16384x128, .i1⟩
  | .hbm, ⟨31, _⟩ => ⟨S_, .f32⟩
  | .hbm, ⟨32, _⟩ => ⟨S16384x128, .f32⟩
  | .hbm, ⟨33, _⟩ => ⟨S16384x128, .f32⟩
  | .hbm, ⟨34, _⟩ => ⟨S16384x128, .f32⟩
  | .hbm, ⟨35, _⟩ => ⟨S16384x144, .f32⟩
  | .hbm, ⟨36, _⟩ => ⟨S16384x1, .f32⟩
  | .hbm, ⟨37, _⟩ => ⟨S1x1, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .i1⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384, .f32⟩
  | .hbm, ⟨48, _⟩ => ⟨S1x16384, .f32⟩
  | .hbm, ⟨49, _⟩ => ⟨S8192x16384, .f32⟩
  | .hbm, ⟨50, _⟩ => ⟨S8192x16384, .f32⟩
  | .hbm, ⟨51, _⟩ => ⟨S8192x16384, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S8192x1, .f32⟩
  | .hbm, ⟨58, _⟩ => ⟨S8192x16384, .f32⟩
  | .hbm, ⟨59, _⟩ => ⟨S8192x16384, .f32⟩
  | .hbm, ⟨60, _⟩ => ⟨S8192x16384, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x16384, .f32⟩
  | .hbm, ⟨65, _⟩ => ⟨S8192x16384, .f32⟩
  | .hbm, ⟨66, _⟩ => ⟨S8192x128, .f32⟩
  | .hbm, ⟨67, _⟩ => ⟨S_, .f32⟩
  | .hbm, ⟨68, _⟩ => ⟨S8192x128, .f32⟩
  | .hbm, ⟨69, _⟩ => ⟨S8192x128, .i1⟩
  | .hbm, ⟨70, _⟩ => ⟨S_, .f32⟩
  | .hbm, ⟨71, _⟩ => ⟨S8192x128, .f32⟩
  | .hbm, ⟨72, _⟩ => ⟨S8192x128, .i1⟩
  | .hbm, ⟨73, _⟩ => ⟨S_, .f32⟩
  | .hbm, ⟨74, _⟩ => ⟨S_, .f32⟩
  | .hbm, ⟨75, _⟩ => ⟨S8192x128, .f32⟩
  | .hbm, ⟨76, _⟩ => ⟨S8192x128, .f32⟩
  | .hbm, ⟨77, _⟩ => ⟨S8192x128, .f32⟩
  | .hbm, ⟨78, _⟩ => ⟨S_, .f32⟩
  | .hbm, ⟨79, _⟩ => ⟨S8192x128, .f32⟩
  | .hbm, ⟨80, _⟩ => ⟨S8192x128, .f32⟩
  | .hbm, ⟨81, _⟩ => ⟨S8192x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_cst_0 : Ref sig .tc := ⟨.hbm, 31, rfl⟩
abbrev main_call1_v2 : Ref sig .tc := ⟨.hbm, 32, rfl⟩
abbrev main_call1_v3 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_call2_cst : Ref sig .tc := ⟨.hbm, 40, rfl⟩
abbrev main_call2_v0 : Ref sig .tc := ⟨.hbm, 41, rfl⟩
abbrev main_call2_v1 : Ref sig .tc := ⟨.hbm, 42, rfl⟩
abbrev main_call2_cst_0 : Ref sig .tc := ⟨.hbm, 43, rfl⟩
abbrev main_call2_v2 : Ref sig .tc := ⟨.hbm, 44, rfl⟩
abbrev main_call2_v3 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst : Ref sig .tc := ⟨.hbm, 52, rfl⟩
abbrev main_v22 : Ref sig .tc := ⟨.hbm, 53, rfl⟩
abbrev main_cst_0 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_1 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_call3_cst : Ref sig .tc := ⟨.hbm, 67, rfl⟩
abbrev main_call3_v0 : Ref sig .tc := ⟨.hbm, 68, rfl⟩
abbrev main_call3_v1 : Ref sig .tc := ⟨.hbm, 69, rfl⟩
abbrev main_call3_cst_0 : Ref sig .tc := ⟨.hbm, 70, rfl⟩
abbrev main_call3_v2 : Ref sig .tc := ⟨.hbm, 71, rfl⟩
abbrev main_call3_v3 : Ref sig .tc := ⟨.hbm, 72, rfl⟩
abbrev main_call3_cst_1 : Ref sig .tc := ⟨.hbm, 73, rfl⟩
abbrev main_call3_call0_v0 : Ref sig .tc := ⟨.hbm, 74, rfl⟩
abbrev main_call3_call0_v1 : Ref sig .tc := ⟨.hbm, 75, rfl⟩
abbrev main_call3_v4 : Ref sig .tc := ⟨.hbm, 76, rfl⟩
abbrev main_call3_v5 : Ref sig .tc := ⟨.hbm, 77, rfl⟩
abbrev main_call3_cst_2 : Ref sig .tc := ⟨.hbm, 78, rfl⟩
abbrev main_call3_v6 : Ref sig .tc := ⟨.hbm, 79, rfl⟩
abbrev main_call3_v7 : Ref sig .tc := ⟨.hbm, 80, rfl⟩
abbrev main_v34 : Ref sig .tc := ⟨.hbm, 81, rfl⟩

abbrev nD : Nat := 1
abbrev τ : Topo := Topo.v7x

variable {F : FTy → Type} [FloatOps F]

class Facts₀ : Prop where
  concatenates_S16384x128_S16384x16_S16384x128_S16384x272_d1 : Shape.Concatenates [S16384x128, S16384x16, S16384x128] S16384x272 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  concatenates_S16384x128_S16384x16_S16384x144_d1 : Shape.Concatenates [S16384x128, S16384x16] S16384x144 1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  shapeCasts_S16384x1_S16384 : S16384x1.ShapeCasts S16384
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  reducesTo_S8192x16384_S8192_d1 : S8192x16384.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x16384_0_1 : S8192x1.BroadcastsInDim S8192x16384 (![0, 1] : Fin 2 → Fin S8192x16384.rank)
  bcast_S_S8192x128 : S_.BroadcastsInDim S8192x128 (![] : Fin 0 → Fin S8192x128.rank)
  dot_S16384x272_S272x128_S16384x128_1_0_0_1_n_n_wf : DotDims.WF S16384x272 S272x128 S16384x128 [1] [0] [0] [1] [] []
  dot_S16384x144_S144x1_S16384x1_1_0_0_1_n_n_wf : DotDims.WF S16384x144 S144x1 S16384x1 [1] [0] [0] [1] [] []
  dot_S8192x16384_S16384x128_S8192x128_1_0_0_1_n_n_wf : DotDims.WF S8192x16384 S16384x128 S8192x128 [1] [0] [0] [1] [] []

variable [Facts₀]

def dot_S16384x272_S272x128_S16384x128_1_0_0_1_n_n : DotDims S16384x272 S272x128 S16384x128 where
  lhsContracting := [1]
  rhsContracting := [0]
  lhsNonContracting := [0]
  rhsNonContracting := [1]
  lhsBatch := []
  rhsBatch := []
  wf := dot_S16384x272_S272x128_S16384x128_1_0_0_1_n_n_wf
def dot_S16384x144_S144x1_S16384x1_1_0_0_1_n_n : DotDims S16384x144 S144x1 S16384x1 where
  lhsContracting := [1]
  rhsContracting := [0]
  lhsNonContracting := [0]
  rhsNonContracting := [1]
  lhsBatch := []
  rhsBatch := []
  wf := dot_S16384x144_S144x1_S16384x1_1_0_0_1_n_n_wf
def dot_S8192x16384_S16384x128_S8192x128_1_0_0_1_n_n : DotDims S8192x16384 S16384x128 S8192x128 where
  lhsContracting := [1]
  rhsContracting := [0]
  lhsNonContracting := [0]
  rhsNonContracting := [1]
  lhsBatch := []
  rhsBatch := []
  wf := dot_S8192x16384_S16384x128_S8192x128_1_0_0_1_n_n_wf

class Facts : Prop extends Facts₀ where

variable [Facts]
-- ==== Proof.BBody0.lean ====
import proofs.«124032_j64046552318003_2_alg».proof.Proof.Gen.Kernel.Launch
import proofs.«124032_j64046552318003_2_alg».proof.Proof.Gen.Kernel.Skeleton
import proofs.«124032_j64046552318003_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The per-edge layer (the first of the program's two regions) on its grid of eight row blocks, at any float
  instance and at any contents V of the core's buffers when the region is entered: each window's block at a
  point, the three output blocks the body leaves as functions of the ten input blocks (one whole-block store
  each), the body's triple, the pipeline's proof data and the body obligation at every point.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for any proof
    data whose array is V's and whose body leaves the block in place: an unfetched window's block index has not
    moved (the six weight and bias windows are fetched at the first point only), the windows uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- A whole block of 2048 rows by 128 columns, by 16 and by 1. -/
abbrev rRows : Rect S2048x128 := Rect.unit (s := S2048x128) ![0, 0] S2048x128.size inb_S2048x128_S2048x128_0_0
abbrev rPos : Rect S2048x16 := Rect.unit (s := S2048x16) ![0, 0] S2048x16.size inb_S2048x16_S2048x16_0_0
abbrev rCol : Rect S2048x1 := Rect.unit (s := S2048x1) ![0, 0] S2048x1.size inb_S2048x1_S2048x1_0_0
/-- The three row bands of a 272-row weight matrix: rows 0–127, 128–143 and 144–271. -/
abbrev rW0 : Rect S272x128 := Rect.unit (s := S272x128) ![0, 0] S128x128.size inb_S272x128_S128x128_0_0
abbrev rW128 : Rect S272x128 := Rect.unit (s := S272x128) ![128, 0] S16x128.size inb_S272x128_S16x128_128_0
abbrev rW144 : Rect S272x128 := Rect.unit (s := S272x128) ![144, 0] S128x128.size inb_S272x128_S128x128_144_0
/-- A whole bias vector of 128 entries and of 1. -/
abbrev rB : Rect S128 := Rect.unit (s := S128) ![0] S128.size inb_S128_S128_0
abbrev rB1 : Rect S1 := Rect.unit (s := S1) ![0] S1.size inb_S1_S1_0
/-- The two row bands of the 144-row attention weight column: rows 0–127 and 128–143. -/
abbrev rA0 : Rect S144x1 := Rect.unit (s := S144x1) ![0, 0] S128x1.size inb_S144x1_S128x1_0_0
abbrev rA128 : Rect S144x1 := Rect.unit (s := S144x1) ![128, 0] S16x1.size inb_S144x1_S16x1_128_0

/-! ## What the body leaves in each output window's buffer -/

/-- Window 10's staging buffer after the body, from the input windows' blocks: its one whole-block store, the new
    edge features (three band products, the bias, the rectifier). -/
def out0_10 (x0 : Vec F S2048x128 .f32) (x1 : Vec F S2048x16 .f32) (x2 : Vec F S2048x128 .f32) (x3 : Vec F S2048x128 .f32) (x4 : Vec F S272x128 .f32) (x5 : Vec F S128 .f32) (x6 : Vec F S272x128 .f32) (x7 : Vec F S128 .f32) (x8 : Vec F S144x1 .f32) (x9 : Vec F S1 .f32) : Vec F S2048x128 .f32 :=
  View.canon [⟨rRows, k0_pay5 (View.ld x0 rRows) (View.ld x1 rPos) (View.ld x2 rRows) (View.ld x4 rW0) (View.ld x4 rW128) (View.ld x4 rW144) (View.ld x5 rB)⟩]

/-- Its store tiles the buffer (checked by evaluation), so it covers it. -/
theorem cover0_10 (p0 : Vec F S2048x128 .f32) (y : S2048x128.Idx) :
    ∃ pc ∈ ([⟨rRows, p0⟩] : List (View.Piece (Elt F) S2048x128 .f32)), y ∈ pc.1.set :=
  View.cover_of_tiled [⟨rRows, p0⟩] S2048x128.size (by rfl) y

/-- Window 11's staging buffer after the body: its one whole-block store, the neighbour features. -/
def out0_11 (x0 : Vec F S2048x128 .f32) (x1 : Vec F S2048x16 .f32) (x2 : Vec F S2048x128 .f32) (x3 : Vec F S2048x128 .f32) (x4 : Vec F S272x128 .f32) (x5 : Vec F S128 .f32) (x6 : Vec F S272x128 .f32) (x7 : Vec F S128 .f32) (x8 : Vec F S144x1 .f32) (x9 : Vec F S1 .f32) : Vec F S2048x128 .bf16 :=
  View.canon [⟨rRows, k0_pay7 (k0_pay1 (View.ld x0 rRows)) (k0_pay2 (View.ld x1 rPos)) (k0_pay3 (View.ld x2 rRows)) (k0_pay6 (View.ld x6 rW0)) (View.ld x6 rW128) (View.ld x6 rW144) (View.ld x7 rB)⟩]

theorem cover0_11 (p0 : Vec F S2048x128 .bf16) (y : S2048x128.Idx) :
    ∃ pc ∈ ([⟨rRows, p0⟩] : List (View.Piece (Elt F) S2048x128 .bf16)), y ∈ pc.1.set :=
  View.cover_of_tiled [⟨rRows, p0⟩] S2048x128.size (by rfl) y

/-- Window 12's staging buffer after the body: its one whole-block store, the attention scalars. -/
def out0_12 (x0 : Vec F S2048x128 .f32) (x1 : Vec F S2048x16 .f32) (x2 : Vec F S2048x128 .f32) (x3 : Vec F S2048x128 .f32) (x4 : Vec F S272x128 .f32) (x5 : Vec F S128 .f32) (x6 : Vec F S272x128 .f32) (x7 : Vec F S128 .f32) (x8 : Vec F S144x1 .f32) (x9 : Vec F S1 .f32) : Vec F S2048x1 .f32 :=
  View.canon [⟨rCol, k0_pay8 (k0_pay2 (View.ld x1 rPos)) (k0_pay4 (View.ld x3 rRows)) (View.ld x8 rA0) (View.ld x8 rA128) (View.ld x9 rB1)⟩]

theorem cover0_12 (p0 : Vec F S2048x1 .f32) (y : S2048x1.Idx) :
    ∃ pc ∈ ([⟨rCol, p0⟩] : List (View.Piece (Elt F) S2048x1 .f32)), y ∈ pc.1.set :=
  View.cover_of_tiled [⟨rCol, p0⟩] S2048x1.size (by rfl) y

/-! ## The body's triple -/

set_option maxHeartbeats 4000000 in
/-- The kernel body on whole staging memrefs, the inputs' at read contents xW and the outputs' at anything, runs to
    the continuation holding the inputs' as they were and each output's at out0_W of the inputs'. -/
theorem sound_kernel0 (c : Dev nD) (E : Set ℕ) (i : grid0.Coords) (arg0 : Memref sig .tc .vmem S2048x128 .f32) (harg0 : arg0.IsWhole) (arg1 : Memref sig .tc .vmem S2048x16 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S272x128 .f32) (harg4 : arg4.IsWhole) (arg5 : Memref sig .tc .vmem S128 .f32) (harg5 : arg5.IsWhole) (arg6 : Memref sig .tc .vmem S272x128 .f32) (harg6 : arg6.IsWhole) (arg7 : Memref sig .tc .vmem S128 .f32) (harg7 : arg7.IsWhole) (arg8 : Memref sig .tc .vmem S144x1 .f32) (harg8 : arg8.IsWhole) (arg9 : Memref sig .tc .vmem S1 .f32) (harg9 : arg9.IsWhole) (arg10 : Memref sig .tc .vmem S2048x128 .f32) (harg10 : arg10.IsWhole) (arg11 : Memref sig .tc .vmem S2048x128 .bf16) (harg11 : arg11.IsWhole) (arg12 : Memref sig .tc .vmem S2048x1 .f32) (harg12 : arg12.IsWhole)
    (x0 : Vec F S2048x128 .f32) (x1 : Vec F S2048x16 .f32) (x2 : Vec F S2048x128 .f32) (x3 : Vec F S2048x128 .f32) (x4 : Vec F S272x128 .f32) (x5 : Vec F S128 .f32) (x6 : Vec F S272x128 .f32) (x7 : Vec F S128 .f32) (x8 : Vec F S144x1 .f32) (x9 : Vec F S1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out0_10 x0 x1 x2 x3 x4 x5 x6 x7 x8 x9) ∗ owns (c : Thread nD τ) arg11 fullShare (out0_11 x0 x1 x2 x3 x4 x5 x6 x7 x8 x9) ∗ owns (c : Thread nD τ) arg12 fullShare (out0_12 x0 x1 x2 x3 x4 x5 x6 x7 x8 x9)) -∗ K ⟨⟩))
      ⊢ wp frame (wpE (defs₀ (F := F)) Variants.none c none) E (cc0__edge_kernel i arg0 harg0 arg1 harg1 arg2 harg2 arg3 harg3 arg4 harg4 arg5 harg5 arg6 harg6 arg7 harg7 arg8 harg8 arg9 harg9 arg10 harg10 arg11 harg11 arg12 harg12) K := by
  simp only [cc0__edge_kernel_eq_skeleton]; unfold cc0__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover0_10 _)
  isplitl [H11]
  · iexists _; isplitr
    swap; · iexact H11
    ipureintro
    exact View.read_writes_eq_canon _ _ _ (cover0_11 _)
  iexists _; isplitr
  swap; · iexact H12
  ipureintro
  exact View.read_writes_eq_canon _ _ _ (cover0_12 _)

/-! ## The pipeline's proof data -/

/-- The proof data of the region's pipeline on core c: the arrays as the region finds them (V); after the body at
    point t each input's buffer at its block and each output's at out0_W of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

set_option maxHeartbeats 1000000 in
/-- The body at any point: the inputs' memrefs hold their blocks, so the body's triple applies; the invariant and
    the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BStep1.lean ====
/-
  One grid point of the streaming softmax kernel as a pure function of what it loads: the three scratch arrays
  (running maximum [512,1], running normaliser [512,1], running weighted sum [512,128]) before and after the point,
  and the output block the last tile of a row band stores.  Stated at any float instance over the generated payloads.
-/
import proofs.«124032_j64046552318003_2_alg».proof.Proof.Gen.Kernel.Skeleton

noncomputable section

namespace Cert.Kernel.Step1

open Idealize.ShloMosaic Cert.Kernel Cert.Kernel.Gen

variable {F : FTy → Type} [FloatOps F]

/-- The scratch arrays' contents. -/
structure St (F : FTy → Type) [FloatOps F] where
  m : Vec F S512x1 .f32
  l : Vec F S512x1 .f32
  acc : Vec F S512x128 .f32

/-- What the first tile of a row band stores before anything else: the stand-in for minus infinity, zero, zero. -/
def reset : St F := ⟨k1_pay4 (F := F), k1_pay5 (F := F), k1_pay6 (F := F)⟩

/-- One tile: from the matrix block `x0`, the mask block `x1`, the attention row block `x2`, the tile's 2048 rows
    `nb` of the neighbour features and the scratch contents `s` the point finds (after the reset, at a first tile),
    the scratch contents it leaves. -/
def step (x0 x1 : Vec F S512x2048 .f32) (x2 : Vec F S1x2048 .f32) (nb : Vec F S2048x128 .bf16) (s : St F) : St F :=
  ⟨k1_pay2 (k1_pay8 x0 x1 x2 s.m),
   k1_pay11 x0 x1 x2 s.m s.m s.l,
   k1_pay1 (k1_pay9 x0 x1 x2 s.m s.m) (k1_pay12 x0 x1 x2 s.m nb) s.acc⟩

/-- What the last tile of a row band stores into the output block, from the scratch contents it has just left. -/
def out (s : St F) : Vec F S512x128 .f32 := k1_pay3 s.acc s.l

end Cert.Kernel.Step1

end
-- ==== Proof.BDefs1.lean ====
/-
  The node layer's kernel, grid point by grid point: the blocks a point is handed, the 2048 rows of the neighbour
  features it reads, and — by recursion on the point — what the three scratch arrays hold after each point: a row
  band's first tile starts from the reset contents, every later tile from what the tile before left.
  (128 points: 16 row bands of 512 nodes, 8 tiles of 2048 edges each; point t is tile t % 8 of band t / 8.)
-/
import proofs.«124032_j64046552318003_2_alg».proof.Proof.BStep1
import Idealize.ShloMosaic.Lib.Pipeline.FrameBody

noncomputable section

namespace Cert.Kernel.Hand

open Idealize.ShloMosaic Idealize.ShloMosaic.TcCoe Idealize.SL.Sem Cert.Kernel Cert.Kernel.Gen

variable {F : FTy → Type} [FloatOps F]

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of the neighbour features point `t` reads: rows `2048 * (t % 8)` onward of the whole array. -/
def nbTile (c : Dev nD) (t : Fin cfg1.N) : Vec F S2048x128 .bf16 :=
  View.ld (iblk1 V c 3 t) (Rect.unit (s := S16384x128) (k1_off1 (grid1.coords t)) S2048x128.size (k1_off1_inb (grid1.coords t)))

/-- The scratch contents after the body at position `n`. -/
def stAt1 (c : Dev nD) : (n : ℕ) → n < cfg1.N → Step1.St F
  | 0, hn => Step1.step (iblk1 V c 0 ⟨0, hn⟩) (iblk1 V c 1 ⟨0, hn⟩) (iblk1 V c 2 ⟨0, hn⟩) (nbTile V c ⟨0, hn⟩) Step1.reset
  | n + 1, hn => Step1.step (iblk1 V c 0 ⟨n + 1, hn⟩) (iblk1 V c 1 ⟨n + 1, hn⟩) (iblk1 V c 2 ⟨n + 1, hn⟩) (nbTile V c ⟨n + 1, hn⟩)
      (if (n + 1) % 8 = 0 then Step1.reset else stAt1 c n (Nat.lt_of_succ_lt hn))

end Cert.Kernel.Hand

end
-- ==== Proof.BRuns1.lean ====
import proofs.«124032_j64046552318003_2_alg».proof.Proof.Gen.Kernel.Launch
import proofs.«124032_j64046552318003_2_alg».proof.Proof.Gen.Kernel.Skeleton
import proofs.«124032_j64046552318003_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«124032_j64046552318003_2_alg».proof.Proof.BDefs1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The condition of the body's first branch (the reset of the scratch arrays), from the grid coordinates. -/
abbrev cond1_0 (i : grid1.Coords) : Prop := (Scalar.cmpi .ne (Scalar.extui (Scalar.cmpi .eq (BitVec.ofNat 32 (i 1).val) 0#32)) 0#32) = 1#1
/-- The condition of the body's second branch (the store of the output block), from the grid coordinates. -/
abbrev cond1_1 (i : grid1.Coords) : Prop := k1_cond2 i = 1#1

/-! ## Whole-buffer loads and stores are the identity -/

theorem hz2 : (![0, 0] : Fin 2 → ℕ) = fun _ => 0 := by
  funext a; fin_cases a <;> rfl

/-- A whole memref at the contents that read `X`, loaded through the whole-shape rectangle at zero offsets, reads `X`. -/
theorem readAt_unread_whole {sp : Space} {S : Shape} {e : EltTy} (M : Memref sig .tc sp S e) (h : M.IsWhole)
    {off : Fin S.rank → ℕ} (hz : off = fun _ => 0) (inb : ∀ a, off a + S.size a ≤ S.size a) (X : S.Idx → Elt F e) :
    M.view.readAt (Elt F) (Rect.unit off S.size inb).toLoadRect (h.unread X) = X := by
  rw [View.readAt_eq_ld, h.read_unread, View.ld_unit_zero hz]

/-- A last store through the whole-shape rectangle at zero offsets leaves its payload, whatever the earlier stores
    were and whatever the buffer held. -/
theorem read_store_whole {sp : Space} {S : Shape} {e : EltTy} (M : Memref sig .tc sp S e) (f : M.view.ty.Contents (Elt F))
    {off : Fin S.rank → ℕ} (hz : off = fun _ => 0) (inb : ∀ a, off a + S.size a ≤ S.size a) (w : S.Idx → Elt F e)
    (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-- The first branch is taken at the first tile of each row band — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second branch is taken at the last tile of each row band — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The four input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Off the last tile of a row band the output window is idle: the body stores nothing into it, -/
theorem idleAt1_4 : ∀ t : Fin cfg1.N, ¬cond1_1 (grid1.coords t) → cfg1.idle 4 (grid1.coords t) = true := by decide +kernel
/-- and the pipeline does not write its block back. -/
theorem noFlush1_4 : ∀ t : Fin cfg1.N, ¬cond1_1 (grid1.coords t) → (cfg1.win 4).flush t = false := by decide +kernel
/-- At the last tile of a row band the output window is live: the body stores its block. -/
theorem liveAt1_4 : ∀ t : Fin cfg1.N, cond1_1 (grid1.coords t) → cfg1.idle 4 (grid1.coords t) = false := by decide +kernel

/-! ## The memrefs the body is called with -/

/-- Each window's current staging memref at point `t`, and its wholeness. -/
abbrev ms1_0 (t : Fin cfg1.N) : Memref sig .tc .vmem S512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16384x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x128 .f32 := win1_4.stage (cfg1.slots t 4)
abbrev hs1_4 (t : Fin cfg1.N) : (ms1_4 t).IsWhole := hstage1_4 ((cfg1.slots t 4).cast nbuf1_4)
/-- The scratch operands: whole scoped buffers of the kernel's own (running maximum, running normaliser, running
    weighted sum), passed beside the windows. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x128 .f32 := Memref.whole cc1_scratch2

/-! ## The scoped buffers the region does not stage -/

/-- The core's scoped buffers that are neither a staging buffer of this region nor one of its scratch arrays (the
    other region's staging buffers), each whole at some contents. -/
def restOnly1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg8_0), ((c : Thread nD τ).loc cc0_stg8_0) ↦{fullShare} f)
      ∗ (∃ f : Buf (Elt F) ((c : Thread nD τ).loc cc0_stg9_0), ((c : Thread nD τ).loc cc0_stg9_0) ↦{fullShare} f)
      ∗ (∃ f : Buf (Elt F) ((c : Thread nD τ).loc cc0_stg10_0), ((c : Thread nD τ).loc cc0_stg10_0) ↦{fullShare} f)
      ∗ (∃ f : Buf (Elt F) ((c : Thread nD τ).loc cc0_stg10_1), ((c : Thread nD τ).loc cc0_stg10_1) ↦{fullShare} f)
      ∗ (∃ f : Buf (Elt F) ((c : Thread nD τ).loc cc0_stg11_0), ((c : Thread nD τ).loc cc0_stg11_0) ↦{fullShare} f)
      ∗ (∃ f : Buf (Elt F) ((c : Thread nD τ).loc cc0_stg11_1), ((c : Thread nD τ).loc cc0_stg11_1) ↦{fullShare} f)
      ∗ (∃ f : Buf (Elt F) ((c : Thread nD τ).loc cc0_stg12_0), ((c : Thread nD τ).loc cc0_stg12_0) ↦{fullShare} f)
      ∗ (∃ f : Buf (Elt F) ((c : Thread nD τ).loc cc0_stg12_1), ((c : Thread nD τ).loc cc0_stg12_1) ↦{fullShare} f))

/-- What the launch hands the region, with the scratch arrays as memrefs owned at some contents. -/
theorem PhiA1_split (c : Dev nD) :
    (Pipeline.ΦA spec1 c : sProp 𝕄)
      ⊢ iprop((restOnly1 (F := F) c ∗ (∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA restOnly1; rw [scopedRest1_eq]; simp only [scM1_0, scM1_1, scM1_2, owns_whole]
  iintro ⟨⟨R0, R1, R2, R3, R4, R5, R6, R7, R8, R9, R10, R11, R12, R13, R14, R15, R16, R17, R18, R19, S0, S1, S2⟩, Hg⟩
  isplitr [Hg]
  swap; · iexact Hg
  isplitl [R0 R1 R2 R3 R4 R5 R6 R7 R8 R9 R10 R11 R12 R13 R14 R15 R16 R17 R18 R19]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    iexact R19
  isplitl [S0]; · iexact S0
  isplitl [S1]; · iexact S1
  iexact S2

/-- And back: the scratch arrays' contents forgotten. -/
theorem PhiA1_join (c : Dev nD) :
    iprop((restOnly1 (F := F) c ∗ (∃ d, owns (c : Thread nD τ) scM1_0 fullShare d) ∗ (∃ d, owns (c : Thread nD τ) scM1_1 fullShare d)
          ∗ (∃ d, owns (c : Thread nD τ) scM1_2 fullShare d)) ∗ (∃ r, prngReg c r))
      ⊢ (Pipeline.ΦA spec1 c : sProp 𝕄) := by
  unfold Pipeline.ΦA restOnly1; rw [scopedRest1_eq]; simp only [scM1_0, scM1_1, scM1_2, owns_whole]
  iintro ⟨⟨⟨R0, R1, R2, R3, R4, R5, R6, R7, R8, R9, R10, R11, R12, R13, R14, R15, R16, R17, R18, R19⟩, S0, S1, S2⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [R18]; · iexact R18
  isplitl [R19]; · iexact R19
  isplitl [S0]; · iexact S0
  isplitl [S1]; · iexact S1
  iexact S2

end Cert.Kernel.Hand

end
-- ==== Proof.BRunA1.lean ====
import proofs.«124032_j64046552318003_2_alg».proof.Proof.Gen.Kernel.Launch
import proofs.«124032_j64046552318003_2_alg».proof.Proof.Gen.Kernel.Skeleton
import proofs.«124032_j64046552318003_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«124032_j64046552318003_2_alg».proof.Proof.BRuns1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The first tile of a row band (the reset branch taken, the output branch not). On whole memrefs — the four inputs
    at their contents, the output's at contents handed back untouched, the scratch arrays at ANY contents — the body
    runs to the continuation holding the inputs as they were, the output's buffer untouched, and the scratch arrays
    one step on from the reset state. -/
theorem kernelRun1_A (c : Dev nD) (i : grid1.Coords)
    (arg2 : Memref sig .tc .vmem S512x2048 .f32) (harg2 : arg2.IsWhole) (arg3 : Memref sig .tc .vmem S512x2048 .f32) (harg3 : arg3.IsWhole)
    (arg4 : Memref sig .tc .vmem S1x2048 .f32) (harg4 : arg4.IsWhole) (arg5 : Memref sig .tc .vmem S16384x128 .bf16) (harg5 : arg5.IsWhole)
    (arg6 : Memref sig .tc .vmem S512x128 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x128 .f32) (harg9 : arg9.IsWhole)
    (hc0 : cond1_0 i) (hc1 : ¬cond1_1 i)
    (x0 x1 : Vec F S512x2048 .f32) (x2 : Vec F S1x2048 .f32) (x3 : Vec F S16384x128 .bf16) (xi : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
            ∗ owns (c : Thread nD τ) arg7 fullShare (Step1.step x0 x1 x2 (View.ld x3 (Rect.unit (s := S16384x128) (k1_off1 i) S2048x128.size (k1_off1_inb i))) Step1.reset).m
            ∗ owns (c : Thread nD τ) arg8 fullShare (Step1.step x0 x1 x2 (View.ld x3 (Rect.unit (s := S16384x128) (k1_off1 i) S2048x128.size (k1_off1_inb i))) Step1.reset).l
            ∗ owns (c : Thread nD τ) arg9 fullShare (Step1.step x0 x1 x2 (View.ld x3 (Rect.unit (s := S16384x128) (k1_off1 i) S2048x128.size (k1_off1_inb i))) Step1.reset).acc) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton, k1_part1_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    rw [read_store_whole _ _ hz2]
    simp only [View.readCov_unit_zero arg7.view hz2, View.readCov_unit_zero arg8.view hz2, View.readCov_unit_zero arg9.view hz2, View.readAt_eq_ld, hf0, hf1, hf2, hf3, View.ld_unit_zero (S := S512x2048) hz2, View.ld_unit_zero (S := S1x2048) hz2, View.ld_unit_zero (S := S512x1) hz2, View.ld_unit_zero (S := S512x128) hz2]
    rfl
  isplitl [H6]
  · iexists _; isplitr
    swap; · iexact H6
    ipureintro
    sl_unfold_run_names
    rw [read_store_whole _ _ hz2]
    simp only [View.readCov_unit_zero arg7.view hz2, View.readCov_unit_zero arg8.view hz2, View.readCov_unit_zero arg9.view hz2, View.readAt_eq_ld, hf0, hf1, hf2, hf3, View.ld_unit_zero (S := S512x2048) hz2, View.ld_unit_zero (S := S1x2048) hz2, View.ld_unit_zero (S := S512x1) hz2, View.ld_unit_zero (S := S512x128) hz2]
    rfl
  · iexists _; isplitr
    swap; · iexact H7
    ipureintro
    sl_unfold_run_names
    rw [read_store_whole _ _ hz2]
    simp only [View.readCov_unit_zero arg7.view hz2, View.readCov_unit_zero arg8.view hz2, View.readCov_unit_zero arg9.view hz2, View.readAt_eq_ld, hf0, hf1, hf2, hf3, View.ld_unit_zero (S := S512x2048) hz2, View.ld_unit_zero (S := S1x2048) hz2, View.ld_unit_zero (S := S512x1) hz2, View.ld_unit_zero (S := S512x128) hz2]
    rfl

end Cert.Kernel.Hand

end
-- ==== Proof.BRunB1.lean ====
import proofs.«124032_j64046552318003_2_alg».proof.Proof.Gen.Kernel.Launch
import proofs.«124032_j64046552318003_2_alg».proof.Proof.Gen.Kernel.Skeleton
import proofs.«124032_j64046552318003_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«124032_j64046552318003_2_alg».proof.Proof.BRunA1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- A middle tile of a row band (neither branch taken). On whole memrefs — the four inputs at their contents, the
    output's at contents handed back untouched, the scratch arrays at the state `s` the tile before left — the body
    runs to the continuation holding the inputs as they were, the output's buffer untouched, and the scratch arrays
    at the state one step on. -/
theorem kernelRun1_B (c : Dev nD) (i : grid1.Coords)
    (arg2 : Memref sig .tc .vmem S512x2048 .f32) (harg2 : arg2.IsWhole) (arg3 : Memref sig .tc .vmem S512x2048 .f32) (harg3 : arg3.IsWhole)
    (arg4 : Memref sig .tc .vmem S1x2048 .f32) (harg4 : arg4.IsWhole) (arg5 : Memref sig .tc .vmem S16384x128 .bf16) (harg5 : arg5.IsWhole)
    (arg6 : Memref sig .tc .vmem S512x128 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x128 .f32) (harg9 : arg9.IsWhole)
    (hc0 : ¬cond1_0 i) (hc1 : ¬cond1_1 i)
    (x0 x1 : Vec F S512x2048 .f32) (x2 : Vec F S1x2048 .f32) (x3 : Vec F S16384x128 .bf16) (xi : Vec F S512x128 .f32) (s : Step1.St F)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
        ∗ owns (c : Thread nD τ) arg7 fullShare s.m ∗ owns (c : Thread nD τ) arg8 fullShare s.l ∗ owns (c : Thread nD τ) arg9 fullShare s.acc
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
            ∗ owns (c : Thread nD τ) arg7 fullShare (Step1.step x0 x1 x2 (View.ld x3 (Rect.unit (s := S16384x128) (k1_off1 i) S2048x128.size (k1_off1_inb i))) s).m
            ∗ owns (c : Thread nD τ) arg8 fullShare (Step1.step x0 x1 x2 (View.ld x3 (Rect.unit (s := S16384x128) (k1_off1 i) S2048x128.size (k1_off1_inb i))) s).l
            ∗ owns (c : Thread nD τ) arg9 fullShare (Step1.step x0 x1 x2 (View.ld x3 (Rect.unit (s := S16384x128) (k1_off1 i) S2048x128.size (k1_off1_inb i))) s).acc) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton, k1_part1_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    rw [read_store_whole _ _ hz2]
    simp only [View.readCov_unit_zero arg7.view hz2, View.readCov_unit_zero arg8.view hz2, View.readCov_unit_zero arg9.view hz2, View.readAt_eq_ld, hf0, hf1, hf2, hf3, hf5, hf6, hf7, View.ld_unit_zero (S := S512x2048) hz2, View.ld_unit_zero (S := S1x2048) hz2, View.ld_unit_zero (S := S512x1) hz2, View.ld_unit_zero (S := S512x128) hz2]
    rfl
  isplitl [H6]
  · iexists _; isplitr
    swap; · iexact H6
    ipureintro
    sl_unfold_run_names
    rw [read_store_whole _ _ hz2]
    simp only [View.readCov_unit_zero arg7.view hz2, View.readCov_unit_zero arg8.view hz2, View.readCov_unit_zero arg9.view hz2, View.readAt_eq_ld, hf0, hf1, hf2, hf3, hf5, hf6, hf7, View.ld_unit_zero (S := S512x2048) hz2, View.ld_unit_zero (S := S1x2048) hz2, View.ld_unit_zero (S := S512x1) hz2, View.ld_unit_zero (S := S512x128) hz2]
    rfl
  · iexists _; isplitr
    swap; · iexact H7
    ipureintro
    sl_unfold_run_names
    rw [read_store_whole _ _ hz2]
    simp only [View.readCov_unit_zero arg7.view hz2, View.readCov_unit_zero arg8.view hz2, View.readCov_unit_zero arg9.view hz2, View.readAt_eq_ld, hf0, hf1, hf2, hf3, hf5, hf6, hf7, View.ld_unit_zero (S := S512x2048) hz2, View.ld_unit_zero (S := S1x2048) hz2, View.ld_unit_zero (S := S512x1) hz2, View.ld_unit_zero (S := S512x128) hz2]
    rfl

end Cert.Kernel.Hand

end
-- ==== Proof.BRunC1.lean ====
import proofs.«124032_j64046552318003_2_alg».proof.Proof.Gen.Kernel.Launch
import proofs.«124032_j64046552318003_2_alg».proof.Proof.Gen.Kernel.Skeleton
import proofs.«124032_j64046552318003_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«124032_j64046552318003_2_alg».proof.Proof.BRunB1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The last tile of a row band (the output branch taken, the reset branch not). On whole memrefs — the four inputs
    at their contents, the output's at ANY contents, the scratch arrays at the state `s` the tile before left — the
    body runs to the continuation holding the inputs as they were, the scratch arrays at the state one step on, and
    the output's buffer at the block computed from that state. -/
theorem kernelRun1_C (c : Dev nD) (i : grid1.Coords)
    (arg2 : Memref sig .tc .vmem S512x2048 .f32) (harg2 : arg2.IsWhole) (arg3 : Memref sig .tc .vmem S512x2048 .f32) (harg3 : arg3.IsWhole)
    (arg4 : Memref sig .tc .vmem S1x2048 .f32) (harg4 : arg4.IsWhole) (arg5 : Memref sig .tc .vmem S16384x128 .bf16) (harg5 : arg5.IsWhole)
    (arg6 : Memref sig .tc .vmem S512x128 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x128 .f32) (harg9 : arg9.IsWhole)
    (hc0 : ¬cond1_0 i) (hc1 : cond1_1 i)
    (x0 x1 : Vec F S512x2048 .f32) (x2 : Vec F S1x2048 .f32) (x3 : Vec F S16384x128 .bf16) (s : Step1.St F)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ owns (c : Thread nD τ) arg7 fullShare s.m ∗ owns (c : Thread nD τ) arg8 fullShare s.l ∗ owns (c : Thread nD τ) arg9 fullShare s.acc
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (Step1.out (Step1.step x0 x1 x2 (View.ld x3 (Rect.unit (s := S16384x128) (k1_off1 i) S2048x128.size (k1_off1_inb i))) s))
            ∗ owns (c : Thread nD τ) arg7 fullShare (Step1.step x0 x1 x2 (View.ld x3 (Rect.unit (s := S16384x128) (k1_off1 i) S2048x128.size (k1_off1_inb i))) s).m
            ∗ owns (c : Thread nD τ) arg8 fullShare (Step1.step x0 x1 x2 (View.ld x3 (Rect.unit (s := S16384x128) (k1_off1 i) S2048x128.size (k1_off1_inb i))) s).l
            ∗ owns (c : Thread nD τ) arg9 fullShare (Step1.step x0 x1 x2 (View.ld x3 (Rect.unit (s := S16384x128) (k1_off1 i) S2048x128.size (k1_off1_inb i))) s).acc) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton, k1_part1_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3
  obtain rfl := harg7.eq_unread hf5; obtain rfl := harg8.eq_unread hf6; obtain rfl := harg9.eq_unread hf7
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    rw [read_store_whole _ _ hz2]
    simp only [View.readCov_unit_zero arg7.view hz2, View.readCov_unit_zero arg8.view hz2, View.readCov_unit_zero arg9.view hz2, View.readAt_eq_ld, hf0, hf1, hf2, hf3, hf5, hf6, hf7, View.ld_unit_zero (S := S512x2048) hz2, View.ld_unit_zero (S := S1x2048) hz2, View.ld_unit_zero (S := S512x1) hz2, View.ld_unit_zero (S := S512x128) hz2]
    rfl
  isplitl [H5]
  · iexists _; isplitr
    swap; · iexact H5
    ipureintro
    sl_unfold_run_names
    rw [read_store_whole _ _ hz2]
    simp only [View.readCov_unit_zero arg7.view hz2, View.readCov_unit_zero arg8.view hz2, View.readCov_unit_zero arg9.view hz2, View.readAt_eq_ld, hf0, hf1, hf2, hf3, hf5, hf6, hf7, View.ld_unit_zero (S := S512x2048) hz2, View.ld_unit_zero (S := S1x2048) hz2, View.ld_unit_zero (S := S512x1) hz2, View.ld_unit_zero (S := S512x128) hz2]
    rfl
  isplitl [H6]
  · iexists _; isplitr
    swap; · iexact H6
    ipureintro
    sl_unfold_run_names
    rw [read_store_whole _ _ hz2]
    simp only [View.readCov_unit_zero arg7.view hz2, View.readCov_unit_zero arg8.view hz2, View.readCov_unit_zero arg9.view hz2, View.readAt_eq_ld, hf0, hf1, hf2, hf3, hf5, hf6, hf7, View.ld_unit_zero (S := S512x2048) hz2, View.ld_unit_zero (S := S1x2048) hz2, View.ld_unit_zero (S := S512x1) hz2, View.ld_unit_zero (S := S512x128) hz2]
    rfl
  · iexists _; isplitr
    swap; · iexact H7
    ipureintro
    sl_unfold_run_names
    rw [read_store_whole _ _ hz2]
    simp only [View.readCov_unit_zero arg7.view hz2, View.readCov_unit_zero arg8.view hz2, View.readCov_unit_zero arg9.view hz2, View.readAt_eq_ld, hf0, hf1, hf2, hf3, hf5, hf6, hf7, View.ld_unit_zero (S := S512x2048) hz2, View.ld_unit_zero (S := S1x2048) hz2, View.ld_unit_zero (S := S512x1) hz2, View.ld_unit_zero (S := S512x128) hz2]
    rfl

end Cert.Kernel.Hand

end
-- ==== Proof.BBody1.lean ====
import proofs.«124032_j64046552318003_2_alg».proof.Proof.Gen.Kernel.Launch
import proofs.«124032_j64046552318003_2_alg».proof.Proof.Gen.Kernel.Skeleton
import proofs.«124032_j64046552318003_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«124032_j64046552318003_2_alg».proof.Proof.BRunC1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The scratch state point by point: the case equations -/

/-- At the first tile of a row band the state is one step on from the reset state. -/
theorem stAt1_first (c : Dev nD) (t : Fin cfg1.N) (h0 : t.val % 8 = 0) :
    stAt1 V c t.val t.isLt = Step1.step (iblk1 V c 0 t) (iblk1 V c 1 t) (iblk1 V c 2 t) (View.ld (iblk1 V c 3 t) (Rect.unit (s := S16384x128) (k1_off1 (grid1.coords t)) S2048x128.size (k1_off1_inb (grid1.coords t)))) Step1.reset := by
  obtain ⟨n, hn⟩ := t
  cases n with
  | zero => rfl
  | succ n =>
    show Step1.step _ _ _ _ (if (n + 1) % 8 = 0 then Step1.reset else stAt1 V c n (Nat.lt_of_succ_lt hn)) = _
    rw [if_pos h0]; rfl

/-- At any other tile it is one step on from what the tile before left. -/
theorem stAt1_later (c : Dev nD) (t : Fin cfg1.N) (h0 : ¬t.val % 8 = 0) :
    stAt1 V c t.val t.isLt = Step1.step (iblk1 V c 0 t) (iblk1 V c 1 t) (iblk1 V c 2 t) (View.ld (iblk1 V c 3 t) (Rect.unit (s := S16384x128) (k1_off1 (grid1.coords t)) S2048x128.size (k1_off1_inb (grid1.coords t)))) (stAt1 V c (t.val - 1) (Nat.lt_of_le_of_lt (Nat.sub_le _ _) t.isLt)) := by
  obtain ⟨n, hn⟩ := t
  cases n with
  | zero => exact absurd (Nat.zero_mod _) h0
  | succ n =>
    show Step1.step _ _ _ _ (if (n + 1) % 8 = 0 then Step1.reset else stAt1 V c n (Nat.lt_of_succ_lt hn)) = _
    rw [if_neg h0]; rfl

/-! ## The region invariant -/

/-- The region invariant before position `n`: before the first point what the launch hands the region; afterwards
    the scoped buffers the region does not stage at anything, the three scratch arrays owned at the state the point
    before left, and the generator register at some state. -/
def Phi1 (c : Dev nD) : (n : ℕ) → n ≤ cfg1.N → sProp 𝕄
  | 0, _ => Pipeline.ΦA spec1 c
  | n + 1, hn => iprop((restOnly1 (F := F) c ∗ owns (c : Thread nD τ) scM1_0 fullShare (stAt1 V c n hn).m ∗ owns (c : Thread nD τ) scM1_1 fullShare (stAt1 V c n hn).l ∗ owns (c : Thread nD τ) scM1_2 fullShare (stAt1 V c n hn).acc) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop((restOnly1 (F := F) c ∗ owns (c : Thread nD τ) scM1_0 fullShare (stAt1 V c n hn).m ∗ owns (c : Thread nD τ) scM1_1 fullShare (stAt1 V c n hn).l ∗ owns (c : Thread nD τ) scM1_2 fullShare (stAt1 V c n hn).acc) ∗ (∃ r, prngReg c r)) := rfl

theorem Phi1_pos (c : Dev nD) (n : ℕ) (h : n ≤ cfg1.N) (hz : n ≠ 0) :
    Phi1 V c n h = iprop((restOnly1 (F := F) c ∗ owns (c : Thread nD τ) scM1_0 fullShare (stAt1 V c (n - 1) (by omega)).m ∗ owns (c : Thread nD τ) scM1_1 fullShare (stAt1 V c (n - 1) (by omega)).l ∗ owns (c : Thread nD τ) scM1_2 fullShare (stAt1 V c (n - 1) (by omega)).acc) ∗ (∃ r, prngReg c r)) := by
  cases n with
  | zero => exact absurd rfl hz
  | succ n => rfl

/-- At any position the invariant gives the scratch arrays at SOME contents: what a first tile needs. -/
theorem Phi1_any (c : Dev nD) (n : ℕ) (h : n ≤ cfg1.N) :
    Phi1 V c n h ⊢ iprop((restOnly1 (F := F) c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  cases n with
  | zero => exact PhiA1_split c
  | succ n =>
    rw [Phi1_succ]
    iintro ⟨⟨HR, HS0, HS1, HS2⟩, Hg⟩
    isplitr [Hg]
    swap; · iexact Hg
    isplitl [HR]; · iexact HR
    isplitl [HS0]; · iexists _; iexact HS0
    isplitl [HS1]; · iexists _; iexact HS1
    iexists _; iexact HS2

/-! ## The pipeline's proof data -/

/-- The proof data of the region on core `c`: the arrays as the region finds them; after the body at point `t` each
    input's buffer at its block and the output's at the block computed from the scratch state the point leaves; the
    invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => Step1.out (stAt1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = Step1.out (stAt1 V c t.val t.isLt) := by dsimp only [dat1]

/-- An input window's current staging buffer holds its block at every point, fetched there or not, for any proof data
    whose array is the region-entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body must leave in an input window's buffer: its block, as it found it. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any point. The inputs' memrefs hold their blocks; the closed forms of the branch conditions say which
    case the point is in. At a first tile the invariant hands the scratch arrays at some contents; at a later tile at
    the state the tile before left; either way the case's run applies and the invariant takes the scratch arrays back at
    this point's state. Off a last tile the output's buffer is handed back as found; at a last tile it is left at the
    block computed from this point's state. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2, leaves1_3, Phi1_castSucc]
  have hN : t.val < 128 := lt_of_lt_of_eq t.isLt (show cfg1.N = 128 from N_1)
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [stAt1_first V c t h0]
    refine (sep_mono_left (Phi1_any V c _ _)).trans ?_
    iintro ⟨⟨⟨HR, HS0, HS1, HS2⟩, Hg⟩, Ho, ⟨%d0, H0⟩, ⟨%d1, H1⟩, ⟨%d2, H2⟩, ⟨%d3, H3⟩, ⟨%d4, H4⟩⟩
    iapply (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h))
      (iblk1 V c 0 t) (iblk1 V c 1 t) (iblk1 V c 2 t) (iblk1 V c 3 t) ((dat1 V c).before 4 t d4) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HR HS0 HS1 HS2 Hg]
    · isplitr [Hg]
      swap; · iexact Hg
      isplitl [HR]; · iexact HR
      isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    iexists _; iexact H4
  · have hz : t.val ≠ 0 := fun e => h0 (by rw [e])
    rw [stAt1_later V c t h0, Phi1_pos V c _ _ hz]
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4, stAt1_later V c t h0]
      iintro ⟨⟨⟨HR, HS0, HS1, HS2⟩, Hg⟩, Ho, ⟨%d0, H0⟩, ⟨%d1, H1⟩, ⟨%d2, H2⟩, ⟨%d3, H3⟩, ⟨%d4, H4⟩⟩
      iapply (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1)
        (iblk1 V c 0 t) (iblk1 V c 1 t) (iblk1 V c 2 t) (iblk1 V c 3 t) (stAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [HR HS0 HS1 HS2 Hg]
      · isplitr [Hg]
        swap; · iexact Hg
        isplitl [HR]; · iexact HR
        isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((hcond1_1 t).mp h))) (noFlush1_4 t (fun h => h1 ((hcond1_1 t).mp h)))]
      iintro ⟨⟨⟨HR, HS0, HS1, HS2⟩, Hg⟩, Ho, ⟨%d0, H0⟩, ⟨%d1, H1⟩, ⟨%d2, H2⟩, ⟨%d3, H3⟩, ⟨%d4, H4⟩⟩
      iapply (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h))
        (iblk1 V c 0 t) (iblk1 V c 1 t) (iblk1 V c 2 t) (iblk1 V c 3 t) ((dat1 V c).before 4 t d4) (stAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HR HS0 HS1 HS2 Hg]
      · isplitr [Hg]
        swap; · iexact Hg
        isplitl [HR]; · iexact HR
        isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- At any position the invariant gives back what the launch handed the region: the scratch arrays' named contents
    are forgotten. -/
theorem Phi1_out (c : Dev nD) (t : Fin (cfg1.N + 1)) : (dat1 V c).Φ t ⊢ Pipeline.ΦA spec1 c := by
  rw [show (dat1 V c).Φ t = Phi1 V c t.val (Nat.le_of_lt_succ t.isLt) from rfl]
  exact (Phi1_any V c _ _).trans (PhiA1_join c)

/-- The same after the last point. -/
theorem hout1 (c : Dev nD) : (dat1 V c).Φ (Fin.last cfg1.N) ⊢ Pipeline.ΦA spec1 c :=
  Phi1_out V c _

end Cert.Kernel.Hand

end
-- ==== Proof.BKRun.lean ====
/-
  The kernel program's run, from the two regions' records: the per-edge region entered from the launch memory, the
  reshape of the attention column into a row, the node region entered from what those two left; every unscoped buffer's
  final contents named by that chain, and each argument array read back through it to its launch contents.
-/
import proofs.«124032_j64046552318003_2_alg».proof.Proof.Gen.Kernel.Launch
import proofs.«124032_j64046552318003_2_alg».proof.Proof.Gen.Kernel.Skeleton
import proofs.«124032_j64046552318003_2_alg».proof.Proof.Gen.Kernel.Points
import proofs.«124032_j64046552318003_2_alg».proof.Proof.BBody0
import proofs.«124032_j64046552318003_2_alg».proof.Proof.BBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main: the launch memory, the first region's arrays at what its
    write-backs leave, the reshape of the attention column into a row, the second region's arrays at what its
    write-backs leave -/

/-- Core `c`'s buffers at launch (the first region's entry). -/
abbrev W0 : Dev nD → Valuation τ sig (Elt F) := fun c b => (s₀ m ρ).mem ((c : Dev nD), b)
/-- The same read at the TensorCore's references. -/
abbrev V1 : (c : Dev nD) → (b : Ref sig .tc) → Buf (Elt F) ((c : Thread nD τ).loc b) := fun c b => W0 m ρ c b
/-- At the first region's exit: its arrays at what the pipeline leaves, every other buffer as entered. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The reshape writes its own result only. -/
theorem W3_of_ne (c : Dev nD) (b : Ref sig .tc) (hb : b ≠ main_v1) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The per-edge region: entered from every unscoped buffer at the launch contents, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The class's invariant from the generator register and the scoped buffers no window stages, and back. -/
theorem phiA1_in (c : Dev nD) : iprop((∃ r, prngReg c r) ∗ Pipeline.prefHeld (pcfgs (F := F) 1).pre c (fun _ => fullShare) (adm (F := F) 1).1 ∗ Pipeline.scopedRest (Pipeline.pin (pcfgs (F := F)) adm 1).spec c) ⊢ (Pipeline.ΦA spec1 c : sProp 𝕄) := by
  unfold Pipeline.ΦA
  iintro ⟨Hp, -, Hr⟩
  isplitl [Hr]; · iexact Hr
  iexact Hp

set_option backward.isDefEq.respectTransparency.types false in
/-- The node region: entered from every unscoped buffer at `W3`, left at `W4`; its invariant carries the scratch arrays. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans (Q := Pipeline.ΦA spec1 c) ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: every weakly fair execution of @main from memory `m` with zero counters terminates, nothing faulting, and
    the final memory holds every unscoped TensorCore buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched: each is an input of one of the two regions and of no write -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W0 m ρ c (Proc.devRef .tc main_arg0) := (W2_arr m ρ c 0).trans (((dat0 (V1 m ρ) c).arrAt_in 0 rfl _).trans (A_eq0 (V1 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W0 m ρ c (Proc.devRef .tc main_arg1) := (W2_arr m ρ c 2).trans (((dat0 (V1 m ρ) c).arrAt_in 2 rfl _).trans (A_eq0 (V1 m ρ) c 2))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W0 m ρ c (Proc.devRef .tc main_arg2) := (W2_arr m ρ c 3).trans (((dat0 (V1 m ρ) c).arrAt_in 3 rfl _).trans (A_eq0 (V1 m ρ) c 3))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W0 m ρ c (Proc.devRef .tc main_arg3) := (W2_arr m ρ c 1).trans (((dat0 (V1 m ρ) c).arrAt_in 1 rfl _).trans (A_eq0 (V1 m ρ) c 1))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 0).trans (((dat1 (V3 m ρ) c).arrAt_in 0 rfl _).trans (A_eq1 (V3 m ρ) c 0))
    _ = W2 m ρ c (Proc.devRef .tc main_arg4) := W3_of_ne m ρ c main_arg4 (by decide)
    _ = W0 m ρ c (Proc.devRef .tc main_arg4) := W2_of_ne m ρ c main_arg4 (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 1).trans (((dat1 (V3 m ρ) c).arrAt_in 1 rfl _).trans (A_eq1 (V3 m ρ) c 1))
    _ = W2 m ρ c (Proc.devRef .tc main_arg5) := W3_of_ne m ρ c main_arg5 (by decide)
    _ = W0 m ρ c (Proc.devRef .tc main_arg5) := W2_of_ne m ρ c main_arg5 (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W0 m ρ c (Proc.devRef .tc main_arg6) := (W2_arr m ρ c 6).trans (((dat0 (V1 m ρ) c).arrAt_in 6 rfl _).trans (A_eq0 (V1 m ρ) c 6))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = W0 m ρ c (Proc.devRef .tc main_arg7) := (W2_arr m ρ c 7).trans (((dat0 (V1 m ρ) c).arrAt_in 7 rfl _).trans (A_eq0 (V1 m ρ) c 7))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of_ne m ρ c main_arg8 (by decide)
    _ = W0 m ρ c (Proc.devRef .tc main_arg8) := (W2_arr m ρ c 4).trans (((dat0 (V1 m ρ) c).arrAt_in 4 rfl _).trans (A_eq0 (V1 m ρ) c 4))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of_ne m ρ c main_arg9 (by decide)
    _ = W0 m ρ c (Proc.devRef .tc main_arg9) := (W2_arr m ρ c 5).trans (((dat0 (V1 m ρ) c).arrAt_in 5 rfl _).trans (A_eq0 (V1 m ρ) c 5))
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := W3_of_ne m ρ c main_arg10 (by decide)
    _ = W0 m ρ c (Proc.devRef .tc main_arg10) := (W2_arr m ρ c 8).trans (((dat0 (V1 m ρ) c).arrAt_in 8 rfl _).trans (A_eq0 (V1 m ρ) c 8))
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := W3_of_ne m ρ c main_arg11 (by decide)
    _ = W0 m ρ c (Proc.devRef .tc main_arg11) := (W2_arr m ρ c 9).trans (((dat0 (V1 m ρ) c).arrAt_in 9 rfl _).trans (A_eq0 (V1 m ρ) c 9))
    _ = m ((c : Thread nD τ).loc main_arg11) := rfl

/-- THE FRAME at any float instance: every weakly fair execution terminates, nothing faulting, every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c)⟩)
    (run_all m ρ)

end Cert.Kernel.Hand

end
-- ==== Proof.Body0.lean ====
import proofs.«124032_j64046552318003_2_alg».proof.Proof.Gen.KernelIdeal.Launch
import proofs.«124032_j64046552318003_2_alg».proof.Proof.Gen.KernelIdeal.Skeleton
import proofs.«124032_j64046552318003_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The per-edge layer (the first of the program's two regions) on its grid of eight row blocks, at any float
  instance and at any contents V of the core's buffers when the region is entered: each window's block at a
  point, the three output blocks the body leaves as functions of the ten input blocks (one whole-block store
  each), the body's triple, the pipeline's proof data and the body obligation at every point.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for any proof
    data whose array is V's and whose body leaves the block in place: an unfetched window's block index has not
    moved (the six weight and bias windows are fetched at the first point only), the windows uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- A whole block of 2048 rows by 128 columns, by 16 and by 1. -/
abbrev rRows : Rect S2048x128 := Rect.unit (s := S2048x128) ![0, 0] S2048x128.size inb_S2048x128_S2048x128_0_0
abbrev rPos : Rect S2048x16 := Rect.unit (s := S2048x16) ![0, 0] S2048x16.size inb_S2048x16_S2048x16_0_0
abbrev rCol : Rect S2048x1 := Rect.unit (s := S2048x1) ![0, 0] S2048x1.size inb_S2048x1_S2048x1_0_0
/-- The three row bands of a 272-row weight matrix: rows 0–127, 128–143 and 144–271. -/
abbrev rW0 : Rect S272x128 := Rect.unit (s := S272x128) ![0, 0] S128x128.size inb_S272x128_S128x128_0_0
abbrev rW128 : Rect S272x128 := Rect.unit (s := S272x128) ![128, 0] S16x128.size inb_S272x128_S16x128_128_0
abbrev rW144 : Rect S272x128 := Rect.unit (s := S272x128) ![144, 0] S128x128.size inb_S272x128_S128x128_144_0
/-- A whole bias vector of 128 entries and of 1. -/
abbrev rB : Rect S128 := Rect.unit (s := S128) ![0] S128.size inb_S128_S128_0
abbrev rB1 : Rect S1 := Rect.unit (s := S1) ![0] S1.size inb_S1_S1_0
/-- The two row bands of the 144-row attention weight column: rows 0–127 and 128–143. -/
abbrev rA0 : Rect S144x1 := Rect.unit (s := S144x1) ![0, 0] S128x1.size inb_S144x1_S128x1_0_0
abbrev rA128 : Rect S144x1 := Rect.unit (s := S144x1) ![128, 0] S16x1.size inb_S144x1_S16x1_128_0

/-! ## What the body leaves in each output window's buffer -/

/-- Window 10's staging buffer after the body, from the input windows' blocks: its one whole-block store, the new
    edge features (three band products, the bias, the rectifier). -/
def out0_10 (x0 : Vec F S2048x128 .f32) (x1 : Vec F S2048x16 .f32) (x2 : Vec F S2048x128 .f32) (x3 : Vec F S2048x128 .f32) (x4 : Vec F S272x128 .f32) (x5 : Vec F S128 .f32) (x6 : Vec F S272x128 .f32) (x7 : Vec F S128 .f32) (x8 : Vec F S144x1 .f32) (x9 : Vec F S1 .f32) : Vec F S2048x128 .f32 :=
  View.canon [⟨rRows, k0_pay5 (View.ld x0 rRows) (View.ld x1 rPos) (View.ld x2 rRows) (View.ld x4 rW0) (View.ld x4 rW128) (View.ld x4 rW144) (View.ld x5 rB)⟩]

/-- Its store tiles the buffer (checked by evaluation), so it covers it. -/
theorem cover0_10 (p0 : Vec F S2048x128 .f32) (y : S2048x128.Idx) :
    ∃ pc ∈ ([⟨rRows, p0⟩] : List (View.Piece (Elt F) S2048x128 .f32)), y ∈ pc.1.set :=
  View.cover_of_tiled [⟨rRows, p0⟩] S2048x128.size (by rfl) y

/-- Window 11's staging buffer after the body: its one whole-block store, the neighbour features. -/
def out0_11 (x0 : Vec F S2048x128 .f32) (x1 : Vec F S2048x16 .f32) (x2 : Vec F S2048x128 .f32) (x3 : Vec F S2048x128 .f32) (x4 : Vec F S272x128 .f32) (x5 : Vec F S128 .f32) (x6 : Vec F S272x128 .f32) (x7 : Vec F S128 .f32) (x8 : Vec F S144x1 .f32) (x9 : Vec F S1 .f32) : Vec F S2048x128 .bf16 :=
  View.canon [⟨rRows, k0_pay7 (k0_pay1 (View.ld x0 rRows)) (k0_pay2 (View.ld x1 rPos)) (k0_pay3 (View.ld x2 rRows)) (k0_pay6 (View.ld x6 rW0)) (View.ld x6 rW128) (View.ld x6 rW144) (View.ld x7 rB)⟩]

theorem cover0_11 (p0 : Vec F S2048x128 .bf16) (y : S2048x128.Idx) :
    ∃ pc ∈ ([⟨rRows, p0⟩] : List (View.Piece (Elt F) S2048x128 .bf16)), y ∈ pc.1.set :=
  View.cover_of_tiled [⟨rRows, p0⟩] S2048x128.size (by rfl) y

/-- Window 12's staging buffer after the body: its one whole-block store, the attention scalars. -/
def out0_12 (x0 : Vec F S2048x128 .f32) (x1 : Vec F S2048x16 .f32) (x2 : Vec F S2048x128 .f32) (x3 : Vec F S2048x128 .f32) (x4 : Vec F S272x128 .f32) (x5 : Vec F S128 .f32) (x6 : Vec F S272x128 .f32) (x7 : Vec F S128 .f32) (x8 : Vec F S144x1 .f32) (x9 : Vec F S1 .f32) : Vec F S2048x1 .f32 :=
  View.canon [⟨rCol, k0_pay8 (k0_pay2 (View.ld x1 rPos)) (k0_pay4 (View.ld x3 rRows)) (View.ld x8 rA0) (View.ld x8 rA128) (View.ld x9 rB1)⟩]

theorem cover0_12 (p0 : Vec F S2048x1 .f32) (y : S2048x1.Idx) :
    ∃ pc ∈ ([⟨rCol, p0⟩] : List (View.Piece (Elt F) S2048x1 .f32)), y ∈ pc.1.set :=
  View.cover_of_tiled [⟨rCol, p0⟩] S2048x1.size (by rfl) y

/-! ## The body's triple -/

set_option maxHeartbeats 4000000 in
/-- The kernel body on whole staging memrefs, the inputs' at read contents xW and the outputs' at anything, runs to
    the continuation holding the inputs' as they were and each output's at out0_W of the inputs'. -/
theorem sound_kernel0 (c : Dev nD) (E : Set ℕ) (i : grid0.Coords) (arg0 : Memref sig .tc .vmem S2048x128 .f32) (harg0 : arg0.IsWhole) (arg1 : Memref sig .tc .vmem S2048x16 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S272x128 .f32) (harg4 : arg4.IsWhole) (arg5 : Memref sig .tc .vmem S128 .f32) (harg5 : arg5.IsWhole) (arg6 : Memref sig .tc .vmem S272x128 .f32) (harg6 : arg6.IsWhole) (arg7 : Memref sig .tc .vmem S128 .f32) (harg7 : arg7.IsWhole) (arg8 : Memref sig .tc .vmem S144x1 .f32) (harg8 : arg8.IsWhole) (arg9 : Memref sig .tc .vmem S1 .f32) (harg9 : arg9.IsWhole) (arg10 : Memref sig .tc .vmem S2048x128 .f32) (harg10 : arg10.IsWhole) (arg11 : Memref sig .tc .vmem S2048x128 .bf16) (harg11 : arg11.IsWhole) (arg12 : Memref sig .tc .vmem S2048x1 .f32) (harg12 : arg12.IsWhole)
    (x0 : Vec F S2048x128 .f32) (x1 : Vec F S2048x16 .f32) (x2 : Vec F S2048x128 .f32) (x3 : Vec F S2048x128 .f32) (x4 : Vec F S272x128 .f32) (x5 : Vec F S128 .f32) (x6 : Vec F S272x128 .f32) (x7 : Vec F S128 .f32) (x8 : Vec F S144x1 .f32) (x9 : Vec F S1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out0_10 x0 x1 x2 x3 x4 x5 x6 x7 x8 x9) ∗ owns (c : Thread nD τ) arg11 fullShare (out0_11 x0 x1 x2 x3 x4 x5 x6 x7 x8 x9) ∗ owns (c : Thread nD τ) arg12 fullShare (out0_12 x0 x1 x2 x3 x4 x5 x6 x7 x8 x9)) -∗ K ⟨⟩))
      ⊢ wp frame (wpE (defs₀ (F := F)) Variants.none c none) E (cc0__edge_kernel i arg0 harg0 arg1 harg1 arg2 harg2 arg3 harg3 arg4 harg4 arg5 harg5 arg6 harg6 arg7 harg7 arg8 harg8 arg9 harg9 arg10 harg10 arg11 harg11 arg12 harg12) K := by
  simp only [cc0__edge_kernel_eq_skeleton]; unfold cc0__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover0_10 _)
  isplitl [H11]
  · iexists _; isplitr
    swap; · iexact H11
    ipureintro
    exact View.read_writes_eq_canon _ _ _ (cover0_11 _)
  iexists _; isplitr
  swap; · iexact H12
  ipureintro
  exact View.read_writes_eq_canon _ _ _ (cover0_12 _)

/-! ## The pipeline's proof data -/

/-- The proof data of the region's pipeline on core c: the arrays as the region finds them (V); after the body at
    point t each input's buffer at its block and each output's at out0_W of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

set_option maxHeartbeats 1000000 in
/-- The body at any point: the inputs' memrefs hold their blocks, so the body's triple applies; the invariant and
    the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Step1.lean ====
/-
  One grid point of the streaming softmax kernel as a pure function of what it loads: the three scratch arrays
  (running maximum [512,1], running normaliser [512,1], running weighted sum [512,128]) before and after the point,
  and the output block the last tile of a row band stores.  Stated at any float instance over the generated payloads.
-/
import proofs.«124032_j64046552318003_2_alg».proof.Proof.Gen.KernelIdeal.Skeleton

noncomputable section

namespace Cert.KernelIdeal.Step1

open Idealize.ShloMosaic Cert.KernelIdeal Cert.KernelIdeal.Gen

variable {F : FTy → Type} [FloatOps F]

/-- The scratch arrays' contents. -/
structure St (F : FTy → Type) [FloatOps F] where
  m : Vec F S512x1 .f32
  l : Vec F S512x1 .f32
  acc : Vec F S512x128 .f32

/-- What the first tile of a row band stores before anything else: the stand-in for minus infinity, zero, zero. -/
def reset : St F := ⟨k1_pay4 (F := F), k1_pay5 (F := F), k1_pay6 (F := F)⟩

/-- One tile: from the matrix block `x0`, the mask block `x1`, the attention row block `x2`, the tile's 2048 rows
    `nb` of the neighbour features and the scratch contents `s` the point finds (after the reset, at a first tile),
    the scratch contents it leaves. -/
def step (x0 x1 : Vec F S512x2048 .f32) (x2 : Vec F S1x2048 .f32) (nb : Vec F S2048x128 .bf16) (s : St F) : St F :=
  ⟨k1_pay2 (k1_pay8 x0 x1 x2 s.m),
   k1_pay11 x0 x1 x2 s.m s.m s.l,
   k1_pay1 (k1_pay9 x0 x1 x2 s.m s.m) (k1_pay12 x0 x1 x2 s.m nb) s.acc⟩

/-- What the last tile of a row band stores into the output block, from the scratch contents it has just left. -/
def out (s : St F) : Vec F S512x128 .f32 := k1_pay3 s.acc s.l

end Cert.KernelIdeal.Step1

end
-- ==== Proof.Defs1.lean ====
/-
  The node layer's kernel, grid point by grid point: the blocks a point is handed, the 2048 rows of the neighbour
  features it reads, and — by recursion on the point — what the three scratch arrays hold after each point: a row
  band's first tile starts from the reset contents, every later tile from what the tile before left.
  (128 points: 16 row bands of 512 nodes, 8 tiles of 2048 edges each; point t is tile t % 8 of band t / 8.)
-/
import proofs.«124032_j64046552318003_2_alg».proof.Proof.Step1
import Idealize.ShloMosaic.Lib.Pipeline.FrameBody

noncomputable section

namespace Cert.KernelIdeal.Hand

open Idealize.ShloMosaic Idealize.ShloMosaic.TcCoe Idealize.SL.Sem Cert.KernelIdeal Cert.KernelIdeal.Gen

variable {F : FTy → Type} [FloatOps F]

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of the neighbour features point `t` reads: rows `2048 * (t % 8)` onward of the whole array. -/
def nbTile (c : Dev nD) (t : Fin cfg1.N) : Vec F S2048x128 .bf16 :=
  View.ld (iblk1 V c 3 t) (Rect.unit (s := S16384x128) (k1_off1 (grid1.coords t)) S2048x128.size (k1_off1_inb (grid1.coords t)))

/-- The scratch contents after the body at position `n`. -/
def stAt1 (c : Dev nD) : (n : ℕ) → n < cfg1.N → Step1.St F
  | 0, hn => Step1.step (iblk1 V c 0 ⟨0, hn⟩) (iblk1 V c 1 ⟨0, hn⟩) (iblk1 V c 2 ⟨0, hn⟩) (nbTile V c ⟨0, hn⟩) Step1.reset
  | n + 1, hn => Step1.step (iblk1 V c 0 ⟨n + 1, hn⟩) (iblk1 V c 1 ⟨n + 1, hn⟩) (iblk1 V c 2 ⟨n + 1, hn⟩) (nbTile V c ⟨n + 1, hn⟩)
      (if (n + 1) % 8 = 0 then Step1.reset else stAt1 c n (Nat.lt_of_succ_lt hn))

end Cert.KernelIdeal.Hand

end
-- ==== Proof.Runs1.lean ====
import proofs.«124032_j64046552318003_2_alg».proof.Proof.Gen.KernelIdeal.Launch
import proofs.«124032_j64046552318003_2_alg».proof.Proof.Gen.KernelIdeal.Skeleton
import proofs.«124032_j64046552318003_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«124032_j64046552318003_2_alg».proof.Proof.Defs1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The condition of the body's first branch (the reset of the scratch arrays), from the grid coordinates. -/
abbrev cond1_0 (i : grid1.Coords) : Prop := (Scalar.cmpi .ne (Scalar.extui (Scalar.cmpi .eq (BitVec.ofNat 32 (i 1).val) 0#32)) 0#32) = 1#1
/-- The condition of the body's second branch (the store of the output block), from the grid coordinates. -/
abbrev cond1_1 (i : grid1.Coords) : Prop := k1_cond2 i = 1#1

/-! ## Whole-buffer loads and stores are the identity -/

theorem hz2 : (![0, 0] : Fin 2 → ℕ) = fun _ => 0 := by
  funext a; fin_cases a <;> rfl

/-- A whole memref at the contents that read `X`, loaded through the whole-shape rectangle at zero offsets, reads `X`. -/
theorem readAt_unread_whole {sp : Space} {S : Shape} {e : EltTy} (M : Memref sig .tc sp S e) (h : M.IsWhole)
    {off : Fin S.rank → ℕ} (hz : off = fun _ => 0) (inb : ∀ a, off a + S.size a ≤ S.size a) (X : S.Idx → Elt F e) :
    M.view.readAt (Elt F) (Rect.unit off S.size inb).toLoadRect (h.unread X) = X := by
  rw [View.readAt_eq_ld, h.read_unread, View.ld_unit_zero hz]

/-- A last store through the whole-shape rectangle at zero offsets leaves its payload, whatever the earlier stores
    were and whatever the buffer held. -/
theorem read_store_whole {sp : Space} {S : Shape} {e : EltTy} (M : Memref sig .tc sp S e) (f : M.view.ty.Contents (Elt F))
    {off : Fin S.rank → ℕ} (hz : off = fun _ => 0) (inb : ∀ a, off a + S.size a ≤ S.size a) (w : S.Idx → Elt F e)
    (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-- The first branch is taken at the first tile of each row band — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second branch is taken at the last tile of each row band — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The four input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Off the last tile of a row band the output window is idle: the body stores nothing into it, -/
theorem idleAt1_4 : ∀ t : Fin cfg1.N, ¬cond1_1 (grid1.coords t) → cfg1.idle 4 (grid1.coords t) = true := by decide +kernel
/-- and the pipeline does not write its block back. -/
theorem noFlush1_4 : ∀ t : Fin cfg1.N, ¬cond1_1 (grid1.coords t) → (cfg1.win 4).flush t = false := by decide +kernel
/-- At the last tile of a row band the output window is live: the body stores its block. -/
theorem liveAt1_4 : ∀ t : Fin cfg1.N, cond1_1 (grid1.coords t) → cfg1.idle 4 (grid1.coords t) = false := by decide +kernel

/-! ## The memrefs the body is called with -/

/-- Each window's current staging memref at point `t`, and its wholeness. -/
abbrev ms1_0 (t : Fin cfg1.N) : Memref sig .tc .vmem S512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16384x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x128 .f32 := win1_4.stage (cfg1.slots t 4)
abbrev hs1_4 (t : Fin cfg1.N) : (ms1_4 t).IsWhole := hstage1_4 ((cfg1.slots t 4).cast nbuf1_4)
/-- The scratch operands: whole scoped buffers of the kernel's own (running maximum, running normaliser, running
    weighted sum), passed beside the windows. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x128 .f32 := Memref.whole cc1_scratch2

/-! ## The scoped buffers the region does not stage -/

/-- The core's scoped buffers that are neither a staging buffer of this region nor one of its scratch arrays (the
    other region's staging buffers), each whole at some contents. -/
def restOnly1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg8_0), ((c : Thread nD τ).loc cc0_stg8_0) ↦{fullShare} f)
      ∗ (∃ f : Buf (Elt F) ((c : Thread nD τ).loc cc0_stg9_0), ((c : Thread nD τ).loc cc0_stg9_0) ↦{fullShare} f)
      ∗ (∃ f : Buf (Elt F) ((c : Thread nD τ).loc cc0_stg10_0), ((c : Thread nD τ).loc cc0_stg10_0) ↦{fullShare} f)
      ∗ (∃ f : Buf (Elt F) ((c : Thread nD τ).loc cc0_stg10_1), ((c : Thread nD τ).loc cc0_stg10_1) ↦{fullShare} f)
      ∗ (∃ f : Buf (Elt F) ((c : Thread nD τ).loc cc0_stg11_0), ((c : Thread nD τ).loc cc0_stg11_0) ↦{fullShare} f)
      ∗ (∃ f : Buf (Elt F) ((c : Thread nD τ).loc cc0_stg11_1), ((c : Thread nD τ).loc cc0_stg11_1) ↦{fullShare} f)
      ∗ (∃ f : Buf (Elt F) ((c : Thread nD τ).loc cc0_stg12_0), ((c : Thread nD τ).loc cc0_stg12_0) ↦{fullShare} f)
      ∗ (∃ f : Buf (Elt F) ((c : Thread nD τ).loc cc0_stg12_1), ((c : Thread nD τ).loc cc0_stg12_1) ↦{fullShare} f))

/-- What the launch hands the region, with the scratch arrays as memrefs owned at some contents. -/
theorem PhiA1_split (c : Dev nD) :
    (Pipeline.ΦA spec1 c : sProp 𝕄)
      ⊢ iprop((restOnly1 (F := F) c ∗ (∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA restOnly1; rw [scopedRest1_eq]; simp only [scM1_0, scM1_1, scM1_2, owns_whole]
  iintro ⟨⟨R0, R1, R2, R3, R4, R5, R6, R7, R8, R9, R10, R11, R12, R13, R14, R15, R16, R17, R18, R19, S0, S1, S2⟩, Hg⟩
  isplitr [Hg]
  swap; · iexact Hg
  isplitl [R0 R1 R2 R3 R4 R5 R6 R7 R8 R9 R10 R11 R12 R13 R14 R15 R16 R17 R18 R19]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    iexact R19
  isplitl [S0]; · iexact S0
  isplitl [S1]; · iexact S1
  iexact S2

/-- And back: the scratch arrays' contents forgotten. -/
theorem PhiA1_join (c : Dev nD) :
    iprop((restOnly1 (F := F) c ∗ (∃ d, owns (c : Thread nD τ) scM1_0 fullShare d) ∗ (∃ d, owns (c : Thread nD τ) scM1_1 fullShare d)
          ∗ (∃ d, owns (c : Thread nD τ) scM1_2 fullShare d)) ∗ (∃ r, prngReg c r))
      ⊢ (Pipeline.ΦA spec1 c : sProp 𝕄) := by
  unfold Pipeline.ΦA restOnly1; rw [scopedRest1_eq]; simp only [scM1_0, scM1_1, scM1_2, owns_whole]
  iintro ⟨⟨⟨R0, R1, R2, R3, R4, R5, R6, R7, R8, R9, R10, R11, R12, R13, R14, R15, R16, R17, R18, R19⟩, S0, S1, S2⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [R18]; · iexact R18
  isplitl [R19]; · iexact R19
  isplitl [S0]; · iexact S0
  isplitl [S1]; · iexact S1
  iexact S2

end Cert.KernelIdeal.Hand

end
-- ==== Proof.RunA1.lean ====
import proofs.«124032_j64046552318003_2_alg».proof.Proof.Gen.KernelIdeal.Launch
import proofs.«124032_j64046552318003_2_alg».proof.Proof.Gen.KernelIdeal.Skeleton
import proofs.«124032_j64046552318003_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«124032_j64046552318003_2_alg».proof.Proof.Runs1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The first tile of a row band (the reset branch taken, the output branch not). On whole memrefs — the four inputs
    at their contents, the output's at contents handed back untouched, the scratch arrays at ANY contents — the body
    runs to the continuation holding the inputs as they were, the output's buffer untouched, and the scratch arrays
    one step on from the reset state. -/
theorem kernelRun1_A (c : Dev nD) (i : grid1.Coords)
    (arg2 : Memref sig .tc .vmem S512x2048 .f32) (harg2 : arg2.IsWhole) (arg3 : Memref sig .tc .vmem S512x2048 .f32) (harg3 : arg3.IsWhole)
    (arg4 : Memref sig .tc .vmem S1x2048 .f32) (harg4 : arg4.IsWhole) (arg5 : Memref sig .tc .vmem S16384x128 .bf16) (harg5 : arg5.IsWhole)
    (arg6 : Memref sig .tc .vmem S512x128 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x128 .f32) (harg9 : arg9.IsWhole)
    (hc0 : cond1_0 i) (hc1 : ¬cond1_1 i)
    (x0 x1 : Vec F S512x2048 .f32) (x2 : Vec F S1x2048 .f32) (x3 : Vec F S16384x128 .bf16) (xi : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
            ∗ owns (c : Thread nD τ) arg7 fullShare (Step1.step x0 x1 x2 (View.ld x3 (Rect.unit (s := S16384x128) (k1_off1 i) S2048x128.size (k1_off1_inb i))) Step1.reset).m
            ∗ owns (c : Thread nD τ) arg8 fullShare (Step1.step x0 x1 x2 (View.ld x3 (Rect.unit (s := S16384x128) (k1_off1 i) S2048x128.size (k1_off1_inb i))) Step1.reset).l
            ∗ owns (c : Thread nD τ) arg9 fullShare (Step1.step x0 x1 x2 (View.ld x3 (Rect.unit (s := S16384x128) (k1_off1 i) S2048x128.size (k1_off1_inb i))) Step1.reset).acc) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton, k1_part1_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    rw [read_store_whole _ _ hz2]
    simp only [View.readCov_unit_zero arg7.view hz2, View.readCov_unit_zero arg8.view hz2, View.readCov_unit_zero arg9.view hz2, View.readAt_eq_ld, hf0, hf1, hf2, hf3, View.ld_unit_zero (S := S512x2048) hz2, View.ld_unit_zero (S := S1x2048) hz2, View.ld_unit_zero (S := S512x1) hz2, View.ld_unit_zero (S := S512x128) hz2]
    rfl
  isplitl [H6]
  · iexists _; isplitr
    swap; · iexact H6
    ipureintro
    sl_unfold_run_names
    rw [read_store_whole _ _ hz2]
    simp only [View.readCov_unit_zero arg7.view hz2, View.readCov_unit_zero arg8.view hz2, View.readCov_unit_zero arg9.view hz2, View.readAt_eq_ld, hf0, hf1, hf2, hf3, View.ld_unit_zero (S := S512x2048) hz2, View.ld_unit_zero (S := S1x2048) hz2, View.ld_unit_zero (S := S512x1) hz2, View.ld_unit_zero (S := S512x128) hz2]
    rfl
  · iexists _; isplitr
    swap; · iexact H7
    ipureintro
    sl_unfold_run_names
    rw [read_store_whole _ _ hz2]
    simp only [View.readCov_unit_zero arg7.view hz2, View.readCov_unit_zero arg8.view hz2, View.readCov_unit_zero arg9.view hz2, View.readAt_eq_ld, hf0, hf1, hf2, hf3, View.ld_unit_zero (S := S512x2048) hz2, View.ld_unit_zero (S := S1x2048) hz2, View.ld_unit_zero (S := S512x1) hz2, View.ld_unit_zero (S := S512x128) hz2]
    rfl

end Cert.KernelIdeal.Hand

end
-- ==== Proof.RunB1.lean ====
import proofs.«124032_j64046552318003_2_alg».proof.Proof.Gen.KernelIdeal.Launch
import proofs.«124032_j64046552318003_2_alg».proof.Proof.Gen.KernelIdeal.Skeleton
import proofs.«124032_j64046552318003_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«124032_j64046552318003_2_alg».proof.Proof.RunA1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- A middle tile of a row band (neither branch taken). On whole memrefs — the four inputs at their contents, the
    output's at contents handed back untouched, the scratch arrays at the state `s` the tile before left — the body
    runs to the continuation holding the inputs as they were, the output's buffer untouched, and the scratch arrays
    at the state one step on. -/
theorem kernelRun1_B (c : Dev nD) (i : grid1.Coords)
    (arg2 : Memref sig .tc .vmem S512x2048 .f32) (harg2 : arg2.IsWhole) (arg3 : Memref sig .tc .vmem S512x2048 .f32) (harg3 : arg3.IsWhole)
    (arg4 : Memref sig .tc .vmem S1x2048 .f32) (harg4 : arg4.IsWhole) (arg5 : Memref sig .tc .vmem S16384x128 .bf16) (harg5 : arg5.IsWhole)
    (arg6 : Memref sig .tc .vmem S512x128 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x128 .f32) (harg9 : arg9.IsWhole)
    (hc0 : ¬cond1_0 i) (hc1 : ¬cond1_1 i)
    (x0 x1 : Vec F S512x2048 .f32) (x2 : Vec F S1x2048 .f32) (x3 : Vec F S16384x128 .bf16) (xi : Vec F S512x128 .f32) (s : Step1.St F)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
        ∗ owns (c : Thread nD τ) arg7 fullShare s.m ∗ owns (c : Thread nD τ) arg8 fullShare s.l ∗ owns (c : Thread nD τ) arg9 fullShare s.acc
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
            ∗ owns (c : Thread nD τ) arg7 fullShare (Step1.step x0 x1 x2 (View.ld x3 (Rect.unit (s := S16384x128) (k1_off1 i) S2048x128.size (k1_off1_inb i))) s).m
            ∗ owns (c : Thread nD τ) arg8 fullShare (Step1.step x0 x1 x2 (View.ld x3 (Rect.unit (s := S16384x128) (k1_off1 i) S2048x128.size (k1_off1_inb i))) s).l
            ∗ owns (c : Thread nD τ) arg9 fullShare (Step1.step x0 x1 x2 (View.ld x3 (Rect.unit (s := S16384x128) (k1_off1 i) S2048x128.size (k1_off1_inb i))) s).acc) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton, k1_part1_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    rw [read_store_whole _ _ hz2]
    simp only [View.readCov_unit_zero arg7.view hz2, View.readCov_unit_zero arg8.view hz2, View.readCov_unit_zero arg9.view hz2, View.readAt_eq_ld, hf0, hf1, hf2, hf3, hf5, hf6, hf7, View.ld_unit_zero (S := S512x2048) hz2, View.ld_unit_zero (S := S1x2048) hz2, View.ld_unit_zero (S := S512x1) hz2, View.ld_unit_zero (S := S512x128) hz2]
    rfl
  isplitl [H6]
  · iexists _; isplitr
    swap; · iexact H6
    ipureintro
    sl_unfold_run_names
    rw [read_store_whole _ _ hz2]
    simp only [View.readCov_unit_zero arg7.view hz2, View.readCov_unit_zero arg8.view hz2, View.readCov_unit_zero arg9.view hz2, View.readAt_eq_ld, hf0, hf1, hf2, hf3, hf5, hf6, hf7, View.ld_unit_zero (S := S512x2048) hz2, View.ld_unit_zero (S := S1x2048) hz2, View.ld_unit_zero (S := S512x1) hz2, View.ld_unit_zero (S := S512x128) hz2]
    rfl
  · iexists _; isplitr
    swap; · iexact H7
    ipureintro
    sl_unfold_run_names
    rw [read_store_whole _ _ hz2]
    simp only [View.readCov_unit_zero arg7.view hz2, View.readCov_unit_zero arg8.view hz2, View.readCov_unit_zero arg9.view hz2, View.readAt_eq_ld, hf0, hf1, hf2, hf3, hf5, hf6, hf7, View.ld_unit_zero (S := S512x2048) hz2, View.ld_unit_zero (S := S1x2048) hz2, View.ld_unit_zero (S := S512x1) hz2, View.ld_unit_zero (S := S512x128) hz2]
    rfl

end Cert.KernelIdeal.Hand

end
-- ==== Proof.RunC1.lean ====
import proofs.«124032_j64046552318003_2_alg».proof.Proof.Gen.KernelIdeal.Launch
import proofs.«124032_j64046552318003_2_alg».proof.Proof.Gen.KernelIdeal.Skeleton
import proofs.«124032_j64046552318003_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«124032_j64046552318003_2_alg».proof.Proof.RunB1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The last tile of a row band (the output branch taken, the reset branch not). On whole memrefs — the four inputs
    at their contents, the output's at ANY contents, the scratch arrays at the state `s` the tile before left — the
    body runs to the continuation holding the inputs as they were, the scratch arrays at the state one step on, and
    the output's buffer at the block computed from that state. -/
theorem kernelRun1_C (c : Dev nD) (i : grid1.Coords)
    (arg2 : Memref sig .tc .vmem S512x2048 .f32) (harg2 : arg2.IsWhole) (arg3 : Memref sig .tc .vmem S512x2048 .f32) (harg3 : arg3.IsWhole)
    (arg4 : Memref sig .tc .vmem S1x2048 .f32) (harg4 : arg4.IsWhole) (arg5 : Memref sig .tc .vmem S16384x128 .bf16) (harg5 : arg5.IsWhole)
    (arg6 : Memref sig .tc .vmem S512x128 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x128 .f32) (harg9 : arg9.IsWhole)
    (hc0 : ¬cond1_0 i) (hc1 : cond1_1 i)
    (x0 x1 : Vec F S512x2048 .f32) (x2 : Vec F S1x2048 .f32) (x3 : Vec F S16384x128 .bf16) (s : Step1.St F)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ owns (c : Thread nD τ) arg7 fullShare s.m ∗ owns (c : Thread nD τ) arg8 fullShare s.l ∗ owns (c : Thread nD τ) arg9 fullShare s.acc
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (Step1.out (Step1.step x0 x1 x2 (View.ld x3 (Rect.unit (s := S16384x128) (k1_off1 i) S2048x128.size (k1_off1_inb i))) s))
            ∗ owns (c : Thread nD τ) arg7 fullShare (Step1.step x0 x1 x2 (View.ld x3 (Rect.unit (s := S16384x128) (k1_off1 i) S2048x128.size (k1_off1_inb i))) s).m
            ∗ owns (c : Thread nD τ) arg8 fullShare (Step1.step x0 x1 x2 (View.ld x3 (Rect.unit (s := S16384x128) (k1_off1 i) S2048x128.size (k1_off1_inb i))) s).l
            ∗ owns (c : Thread nD τ) arg9 fullShare (Step1.step x0 x1 x2 (View.ld x3 (Rect.unit (s := S16384x128) (k1_off1 i) S2048x128.size (k1_off1_inb i))) s).acc) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton, k1_part1_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3
  obtain rfl := harg7.eq_unread hf5; obtain rfl := harg8.eq_unread hf6; obtain rfl := harg9.eq_unread hf7
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    rw [read_store_whole _ _ hz2]
    simp only [View.readCov_unit_zero arg7.view hz2, View.readCov_unit_zero arg8.view hz2, View.readCov_unit_zero arg9.view hz2, View.readAt_eq_ld, hf0, hf1, hf2, hf3, hf5, hf6, hf7, View.ld_unit_zero (S := S512x2048) hz2, View.ld_unit_zero (S := S1x2048) hz2, View.ld_unit_zero (S := S512x1) hz2, View.ld_unit_zero (S := S512x128) hz2]
    rfl
  isplitl [H5]
  · iexists _; isplitr
    swap; · iexact H5
    ipureintro
    sl_unfold_run_names
    rw [read_store_whole _ _ hz2]
    simp only [View.readCov_unit_zero arg7.view hz2, View.readCov_unit_zero arg8.view hz2, View.readCov_unit_zero arg9.view hz2, View.readAt_eq_ld, hf0, hf1, hf2, hf3, hf5, hf6, hf7, View.ld_unit_zero (S := S512x2048) hz2, View.ld_unit_zero (S := S1x2048) hz2, View.ld_unit_zero (S := S512x1) hz2, View.ld_unit_zero (S := S512x128) hz2]
    rfl
  isplitl [H6]
  · iexists _; isplitr
    swap; · iexact H6
    ipureintro
    sl_unfold_run_names
    rw [read_store_whole _ _ hz2]
    simp only [View.readCov_unit_zero arg7.view hz2, View.readCov_unit_zero arg8.view hz2, View.readCov_unit_zero arg9.view hz2, View.readAt_eq_ld, hf0, hf1, hf2, hf3, hf5, hf6, hf7, View.ld_unit_zero (S := S512x2048) hz2, View.ld_unit_zero (S := S1x2048) hz2, View.ld_unit_zero (S := S512x1) hz2, View.ld_unit_zero (S := S512x128) hz2]
    rfl
  · iexists _; isplitr
    swap; · iexact H7
    ipureintro
    sl_unfold_run_names
    rw [read_store_whole _ _ hz2]
    simp only [View.readCov_unit_zero arg7.view hz2, View.readCov_unit_zero arg8.view hz2, View.readCov_unit_zero arg9.view hz2, View.readAt_eq_ld, hf0, hf1, hf2, hf3, hf5, hf6, hf7, View.ld_unit_zero (S := S512x2048) hz2, View.ld_unit_zero (S := S1x2048) hz2, View.ld_unit_zero (S := S512x1) hz2, View.ld_unit_zero (S := S512x128) hz2]
    rfl

end Cert.KernelIdeal.Hand

end
-- ==== Proof.Body1.lean ====
import proofs.«124032_j64046552318003_2_alg».proof.Proof.Gen.KernelIdeal.Launch
import proofs.«124032_j64046552318003_2_alg».proof.Proof.Gen.KernelIdeal.Skeleton
import proofs.«124032_j64046552318003_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«124032_j64046552318003_2_alg».proof.Proof.RunC1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The scratch state point by point: the case equations -/

/-- At the first tile of a row band the state is one step on from the reset state. -/
theorem stAt1_first (c : Dev nD) (t : Fin cfg1.N) (h0 : t.val % 8 = 0) :
    stAt1 V c t.val t.isLt = Step1.step (iblk1 V c 0 t) (iblk1 V c 1 t) (iblk1 V c 2 t) (View.ld (iblk1 V c 3 t) (Rect.unit (s := S16384x128) (k1_off1 (grid1.coords t)) S2048x128.size (k1_off1_inb (grid1.coords t)))) Step1.reset := by
  obtain ⟨n, hn⟩ := t
  cases n with
  | zero => rfl
  | succ n =>
    show Step1.step _ _ _ _ (if (n + 1) % 8 = 0 then Step1.reset else stAt1 V c n (Nat.lt_of_succ_lt hn)) = _
    rw [if_pos h0]; rfl

/-- At any other tile it is one step on from what the tile before left. -/
theorem stAt1_later (c : Dev nD) (t : Fin cfg1.N) (h0 : ¬t.val % 8 = 0) :
    stAt1 V c t.val t.isLt = Step1.step (iblk1 V c 0 t) (iblk1 V c 1 t) (iblk1 V c 2 t) (View.ld (iblk1 V c 3 t) (Rect.unit (s := S16384x128) (k1_off1 (grid1.coords t)) S2048x128.size (k1_off1_inb (grid1.coords t)))) (stAt1 V c (t.val - 1) (Nat.lt_of_le_of_lt (Nat.sub_le _ _) t.isLt)) := by
  obtain ⟨n, hn⟩ := t
  cases n with
  | zero => exact absurd (Nat.zero_mod _) h0
  | succ n =>
    show Step1.step _ _ _ _ (if (n + 1) % 8 = 0 then Step1.reset else stAt1 V c n (Nat.lt_of_succ_lt hn)) = _
    rw [if_neg h0]; rfl

/-! ## The region invariant -/

/-- The region invariant before position `n`: before the first point what the launch hands the region; afterwards
    the scoped buffers the region does not stage at anything, the three scratch arrays owned at the state the point
    before left, and the generator register at some state. -/
def Phi1 (c : Dev nD) : (n : ℕ) → n ≤ cfg1.N → sProp 𝕄
  | 0, _ => Pipeline.ΦA spec1 c
  | n + 1, hn => iprop((restOnly1 (F := F) c ∗ owns (c : Thread nD τ) scM1_0 fullShare (stAt1 V c n hn).m ∗ owns (c : Thread nD τ) scM1_1 fullShare (stAt1 V c n hn).l ∗ owns (c : Thread nD τ) scM1_2 fullShare (stAt1 V c n hn).acc) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop((restOnly1 (F := F) c ∗ owns (c : Thread nD τ) scM1_0 fullShare (stAt1 V c n hn).m ∗ owns (c : Thread nD τ) scM1_1 fullShare (stAt1 V c n hn).l ∗ owns (c : Thread nD τ) scM1_2 fullShare (stAt1 V c n hn).acc) ∗ (∃ r, prngReg c r)) := rfl

theorem Phi1_pos (c : Dev nD) (n : ℕ) (h : n ≤ cfg1.N) (hz : n ≠ 0) :
    Phi1 V c n h = iprop((restOnly1 (F := F) c ∗ owns (c : Thread nD τ) scM1_0 fullShare (stAt1 V c (n - 1) (by omega)).m ∗ owns (c : Thread nD τ) scM1_1 fullShare (stAt1 V c (n - 1) (by omega)).l ∗ owns (c : Thread nD τ) scM1_2 fullShare (stAt1 V c (n - 1) (by omega)).acc) ∗ (∃ r, prngReg c r)) := by
  cases n with
  | zero => exact absurd rfl hz
  | succ n => rfl

/-- At any position the invariant gives the scratch arrays at SOME contents: what a first tile needs. -/
theorem Phi1_any (c : Dev nD) (n : ℕ) (h : n ≤ cfg1.N) :
    Phi1 V c n h ⊢ iprop((restOnly1 (F := F) c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  cases n with
  | zero => exact PhiA1_split c
  | succ n =>
    rw [Phi1_succ]
    iintro ⟨⟨HR, HS0, HS1, HS2⟩, Hg⟩
    isplitr [Hg]
    swap; · iexact Hg
    isplitl [HR]; · iexact HR
    isplitl [HS0]; · iexists _; iexact HS0
    isplitl [HS1]; · iexists _; iexact HS1
    iexists _; iexact HS2

/-! ## The pipeline's proof data -/

/-- The proof data of the region on core `c`: the arrays as the region finds them; after the body at point `t` each
    input's buffer at its block and the output's at the block computed from the scratch state the point leaves; the
    invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => Step1.out (stAt1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = Step1.out (stAt1 V c t.val t.isLt) := by dsimp only [dat1]

/-- An input window's current staging buffer holds its block at every point, fetched there or not, for any proof data
    whose array is the region-entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body must leave in an input window's buffer: its block, as it found it. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any point. The inputs' memrefs hold their blocks; the closed forms of the branch conditions say which
    case the point is in. At a first tile the invariant hands the scratch arrays at some contents; at a later tile at
    the state the tile before left; either way the case's run applies and the invariant takes the scratch arrays back at
    this point's state. Off a last tile the output's buffer is handed back as found; at a last tile it is left at the
    block computed from this point's state. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2, leaves1_3, Phi1_castSucc]
  have hN : t.val < 128 := lt_of_lt_of_eq t.isLt (show cfg1.N = 128 from N_1)
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [stAt1_first V c t h0]
    refine (sep_mono_left (Phi1_any V c _ _)).trans ?_
    iintro ⟨⟨⟨HR, HS0, HS1, HS2⟩, Hg⟩, Ho, ⟨%d0, H0⟩, ⟨%d1, H1⟩, ⟨%d2, H2⟩, ⟨%d3, H3⟩, ⟨%d4, H4⟩⟩
    iapply (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h))
      (iblk1 V c 0 t) (iblk1 V c 1 t) (iblk1 V c 2 t) (iblk1 V c 3 t) ((dat1 V c).before 4 t d4) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HR HS0 HS1 HS2 Hg]
    · isplitr [Hg]
      swap; · iexact Hg
      isplitl [HR]; · iexact HR
      isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    iexists _; iexact H4
  · have hz : t.val ≠ 0 := fun e => h0 (by rw [e])
    rw [stAt1_later V c t h0, Phi1_pos V c _ _ hz]
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4, stAt1_later V c t h0]
      iintro ⟨⟨⟨HR, HS0, HS1, HS2⟩, Hg⟩, Ho, ⟨%d0, H0⟩, ⟨%d1, H1⟩, ⟨%d2, H2⟩, ⟨%d3, H3⟩, ⟨%d4, H4⟩⟩
      iapply (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1)
        (iblk1 V c 0 t) (iblk1 V c 1 t) (iblk1 V c 2 t) (iblk1 V c 3 t) (stAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [HR HS0 HS1 HS2 Hg]
      · isplitr [Hg]
        swap; · iexact Hg
        isplitl [HR]; · iexact HR
        isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((hcond1_1 t).mp h))) (noFlush1_4 t (fun h => h1 ((hcond1_1 t).mp h)))]
      iintro ⟨⟨⟨HR, HS0, HS1, HS2⟩, Hg⟩, Ho, ⟨%d0, H0⟩, ⟨%d1, H1⟩, ⟨%d2, H2⟩, ⟨%d3, H3⟩, ⟨%d4, H4⟩⟩
      iapply (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h))
        (iblk1 V c 0 t) (iblk1 V c 1 t) (iblk1 V c 2 t) (iblk1 V c 3 t) ((dat1 V c).before 4 t d4) (stAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HR HS0 HS1 HS2 Hg]
      · isplitr [Hg]
        swap; · iexact Hg
        isplitl [HR]; · iexact HR
        isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- At any position the invariant gives back what the launch handed the region: the scratch arrays' named contents
    are forgotten. -/
theorem Phi1_out (c : Dev nD) (t : Fin (cfg1.N + 1)) : (dat1 V c).Φ t ⊢ Pipeline.ΦA spec1 c := by
  rw [show (dat1 V c).Φ t = Phi1 V c t.val (Nat.le_of_lt_succ t.isLt) from rfl]
  exact (Phi1_any V c _ _).trans (PhiA1_join c)

/-- The same after the last point. -/
theorem hout1 (c : Dev nD) : (dat1 V c).Φ (Fin.last cfg1.N) ⊢ Pipeline.ΦA spec1 c :=
  Phi1_out V c _

end Cert.KernelIdeal.Hand

end
-- ==== Proof.KRun.lean ====
/-
  The kernel program's run, from the two regions' records: the per-edge region entered from the launch memory, the
  reshape of the attention column into a row, the node region entered from what those two left; every unscoped buffer's
  final contents named by that chain, and each argument array read back through it to its launch contents.
-/
import proofs.«124032_j64046552318003_2_alg».proof.Proof.Gen.KernelIdeal.Launch
import proofs.«124032_j64046552318003_2_alg».proof.Proof.Gen.KernelIdeal.Skeleton
import proofs.«124032_j64046552318003_2_alg».proof.Proof.Gen.KernelIdeal.Points
import proofs.«124032_j64046552318003_2_alg».proof.Proof.Body0
import proofs.«124032_j64046552318003_2_alg».proof.Proof.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main: the launch memory, the first region's arrays at what its
    write-backs leave, the reshape of the attention column into a row, the second region's arrays at what its
    write-backs leave -/

/-- Core `c`'s buffers at launch (the first region's entry). -/
abbrev W0 : Dev nD → Valuation τ sig (Elt F) := fun c b => (s₀ m ρ).mem ((c : Dev nD), b)
/-- The same read at the TensorCore's references. -/
abbrev V1 : (c : Dev nD) → (b : Ref sig .tc) → Buf (Elt F) ((c : Thread nD τ).loc b) := fun c b => W0 m ρ c b
/-- At the first region's exit: its arrays at what the pipeline leaves, every other buffer as entered. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The reshape writes its own result only. -/
theorem W3_of_ne (c : Dev nD) (b : Ref sig .tc) (hb : b ≠ main_v1) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The per-edge region: entered from every unscoped buffer at the launch contents, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The class's invariant from the generator register and the scoped buffers no window stages, and back. -/
theorem phiA1_in (c : Dev nD) : iprop((∃ r, prngReg c r) ∗ Pipeline.prefHeld (pcfgs (F := F) 1).pre c (fun _ => fullShare) (adm (F := F) 1).1 ∗ Pipeline.scopedRest (Pipeline.pin (pcfgs (F := F)) adm 1).spec c) ⊢ (Pipeline.ΦA spec1 c : sProp 𝕄) := by
  unfold Pipeline.ΦA
  iintro ⟨Hp, -, Hr⟩
  isplitl [Hr]; · iexact Hr
  iexact Hp

set_option backward.isDefEq.respectTransparency.types false in
/-- The node region: entered from every unscoped buffer at `W3`, left at `W4`; its invariant carries the scratch arrays. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans (Q := Pipeline.ΦA spec1 c) ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: every weakly fair execution of @main from memory `m` with zero counters terminates, nothing faulting, and
    the final memory holds every unscoped TensorCore buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched: each is an input of one of the two regions and of no write -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W0 m ρ c (Proc.devRef .tc main_arg0) := (W2_arr m ρ c 0).trans (((dat0 (V1 m ρ) c).arrAt_in 0 rfl _).trans (A_eq0 (V1 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W0 m ρ c (Proc.devRef .tc main_arg1) := (W2_arr m ρ c 2).trans (((dat0 (V1 m ρ) c).arrAt_in 2 rfl _).trans (A_eq0 (V1 m ρ) c 2))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W0 m ρ c (Proc.devRef .tc main_arg2) := (W2_arr m ρ c 3).trans (((dat0 (V1 m ρ) c).arrAt_in 3 rfl _).trans (A_eq0 (V1 m ρ) c 3))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W0 m ρ c (Proc.devRef .tc main_arg3) := (W2_arr m ρ c 1).trans (((dat0 (V1 m ρ) c).arrAt_in 1 rfl _).trans (A_eq0 (V1 m ρ) c 1))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 0).trans (((dat1 (V3 m ρ) c).arrAt_in 0 rfl _).trans (A_eq1 (V3 m ρ) c 0))
    _ = W2 m ρ c (Proc.devRef .tc main_arg4) := W3_of_ne m ρ c main_arg4 (by decide)
    _ = W0 m ρ c (Proc.devRef .tc main_arg4) := W2_of_ne m ρ c main_arg4 (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 1).trans (((dat1 (V3 m ρ) c).arrAt_in 1 rfl _).trans (A_eq1 (V3 m ρ) c 1))
    _ = W2 m ρ c (Proc.devRef .tc main_arg5) := W3_of_ne m ρ c main_arg5 (by decide)
    _ = W0 m ρ c (Proc.devRef .tc main_arg5) := W2_of_ne m ρ c main_arg5 (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W0 m ρ c (Proc.devRef .tc main_arg6) := (W2_arr m ρ c 6).trans (((dat0 (V1 m ρ) c).arrAt_in 6 rfl _).trans (A_eq0 (V1 m ρ) c 6))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = W0 m ρ c (Proc.devRef .tc main_arg7) := (W2_arr m ρ c 7).trans (((dat0 (V1 m ρ) c).arrAt_in 7 rfl _).trans (A_eq0 (V1 m ρ) c 7))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of_ne m ρ c main_arg8 (by decide)
    _ = W0 m ρ c (Proc.devRef .tc main_arg8) := (W2_arr m ρ c 4).trans (((dat0 (V1 m ρ) c).arrAt_in 4 rfl _).trans (A_eq0 (V1 m ρ) c 4))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of_ne m ρ c main_arg9 (by decide)
    _ = W0 m ρ c (Proc.devRef .tc main_arg9) := (W2_arr m ρ c 5).trans (((dat0 (V1 m ρ) c).arrAt_in 5 rfl _).trans (A_eq0 (V1 m ρ) c 5))
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := W3_of_ne m ρ c main_arg10 (by decide)
    _ = W0 m ρ c (Proc.devRef .tc main_arg10) := (W2_arr m ρ c 8).trans (((dat0 (V1 m ρ) c).arrAt_in 8 rfl _).trans (A_eq0 (V1 m ρ) c 8))
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := W3_of_ne m ρ c main_arg11 (by decide)
    _ = W0 m ρ c (Proc.devRef .tc main_arg11) := (W2_arr m ρ c 9).trans (((dat0 (V1 m ρ) c).arrAt_in 9 rfl _).trans (A_eq0 (V1 m ρ) c 9))
    _ = m ((c : Thread nD τ).loc main_arg11) := rfl

/-- THE FRAME at any float instance: every weakly fair execution terminates, nothing faulting, every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c)⟩)
    (run_all m ρ)

end Cert.KernelIdeal.Hand

end
-- ==== Proof.Spec.lean ====
/-
  The mathematics of the two programs, stated once over the extended reals and over literal index sets.

  An edge layer: for every edge `e` the rows `u e`, `pos e`, `v e` (128, 16 and 128 numbers) meet a weight matrix of
  272 rows — either as ONE product with the concatenated row (`rLin`), or as three products with the three row bands
  of the matrix, added left to right (`kLin`) —, a bias is added and the leaky rectifier applied.  The attention scalar
  `a e` is the same with two bands (128 + 16 rows, one column).  A node layer: row `n` of the logits is
  `s n e = mat n e * a e + mask n e`; its softmax weights meet the neighbour features, either as the quotient
  `exp (s e - max) / Σ exp (s e' - max)` summed against the features (`rCtx`), or by the streaming recurrence over
  eight tiles of 2048 edges that keeps a running maximum, a running normaliser and a running weighted sum, each
  rescaled by `exp (old max - new max)` when the maximum moves, and divides once at the end (`kCtx`).  The
  exponential-linear unit closes both.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals, indexed as the printed programs index a rank-2 array. -/
abbrev Arr (r c : Nat) : Type := (⟨2, ![r, c]⟩ : Shape).Idx → EReal
/-- A vector of extended reals. -/
abbrev Arr1 (n : Nat) : Type := (⟨1, ![n]⟩ : Shape).Idx → EReal

/-- The float words both programs spell: 0, 1, the rectifier's slope (the float nearest 1/100) and the finite
    stand-in the streaming maximum starts from. -/
def zero32 : EReal := Ideal.ofBits .f32 0x00000000#32
def one32 : EReal := Ideal.ofBits .f32 0x3F800000#32
def slope : EReal := Ideal.ofBits .f32 0x3C23D70A#32
def negBig : EReal := Ideal.ofBits .f32 0xFF333332#32

/-- The leaky rectifier: `x` where `x ≥ 0`, else `slope * x`. -/
def leaky (x : EReal) : EReal :=
  Scalar.select (FloatOps.cmpf (F := Ideal) (φ := .f32) .oge x zero32) x (slope * x)

/-- The exponential-linear unit as the kernel spells it: `x` where `x > 0`, else `exp x - 1`. -/
def kElu (x : EReal) : EReal :=
  Scalar.select (FloatOps.cmpf (F := Ideal) (φ := .f32) .ogt x zero32) x (Ideal.exp x - one32)

/-- The same unit as the reference spells it: the exponential is taken of `x` only where `x ≤ 0` (of 0 elsewhere),
    one is subtracted, and the result is scaled by 1. -/
def rElu (x : EReal) : EReal :=
  Scalar.select (FloatOps.cmpf (F := Ideal) (φ := .f32) .ogt x zero32) x
    (one32 * (Ideal.exp (Scalar.select (FloatOps.cmpf (F := Ideal) (φ := .f32) .ogt x zero32) zero32 x) - 1))

/-! ## The edge layers -/

/-- Row `k` of the first band (rows 0–127) of a 272-row matrix, of the second (128–143) and of the third (144–271). -/
def rowU (k : Fin 128) : Fin 272 := ⟨k.val, by have := k.isLt; omega⟩
def rowP (k : Fin 16) : Fin 272 := ⟨128 + k.val, by have := k.isLt; omega⟩
def rowV (k : Fin 128) : Fin 272 := ⟨144 + k.val, by have := k.isLt; omega⟩
/-- Row `k` of the first band (rows 0–127) of a 144-row matrix and of the second (128–143). -/
def rowE (k : Fin 128) : Fin 144 := ⟨k.val, by have := k.isLt; omega⟩
def rowQ (k : Fin 16) : Fin 144 := ⟨128 + k.val, by have := k.isLt; omega⟩

/-- Three products with the three row bands, added left to right, then the bias. -/
def kLin (u : Arr 16384 128) (pos : Arr 16384 16) (v : Arr 16384 128) (W : Arr 272 128) (b : Arr1 128)
    (e : Fin 16384) (d : Fin 128) : EReal :=
  (((∑ k : Fin 128, u (ix2 e k) * W (ix2 (rowU k) d)) + (∑ k : Fin 16, pos (ix2 e k) * W (ix2 (rowP k) d)))
    + (∑ k : Fin 128, v (ix2 e k) * W (ix2 (rowV k) d))) + b (ix1 d)

/-- The concatenated row `[u e | pos e | v e]` at column `k`. -/
def cat3 (u : Arr 16384 128) (pos : Arr 16384 16) (v : Arr 16384 128) (e : Fin 16384) (k : Fin 272) : EReal :=
  if h : k.val < 128 then u (ix2 e ⟨k.val, h⟩)
  else if h2 : k.val < 144 then pos (ix2 e ⟨k.val - 128, by omega⟩)
  else v (ix2 e ⟨k.val - 144, by have := k.isLt; omega⟩)

/-- One product with the concatenated row, then the bias. -/
def rLin (u : Arr 16384 128) (pos : Arr 16384 16) (v : Arr 16384 128) (W : Arr 272 128) (b : Arr1 128)
    (e : Fin 16384) (d : Fin 128) : EReal :=
  (∑ k : Fin 272, cat3 u pos v e k * W (ix2 k d)) + b (ix1 d)

/-- The attention scalar of edge `e`, two bands. -/
def kA (edge : Arr 16384 128) (pos : Arr 16384 16) (Wa : Arr 144 1) (ba : Arr1 1) (e : Fin 16384) : EReal :=
  leaky (((∑ k : Fin 128, edge (ix2 e k) * Wa (ix2 (rowE k) (0 : Fin 1)))
    + (∑ k : Fin 16, pos (ix2 e k) * Wa (ix2 (rowQ k) (0 : Fin 1)))) + ba (ix1 (0 : Fin 1)))

/-- The concatenated row `[edge e | pos e]` at column `k`. -/
def cat2 (edge : Arr 16384 128) (pos : Arr 16384 16) (e : Fin 16384) (k : Fin 144) : EReal :=
  if h : k.val < 128 then edge (ix2 e ⟨k.val, h⟩) else pos (ix2 e ⟨k.val - 128, by have := k.isLt; omega⟩)

/-- The attention scalar of edge `e`, one product with the concatenated row. -/
def rA (edge : Arr 16384 128) (pos : Arr 16384 16) (Wa : Arr 144 1) (ba : Arr1 1) (e : Fin 16384) : EReal :=
  leaky ((∑ k : Fin 144, cat2 edge pos e k * Wa (ix2 k (0 : Fin 1))) + ba (ix1 (0 : Fin 1)))

/-! ## One row of the node layer, one output column -/

/-- The softmax-weighted sum of `nb` under the logits `s`, by quotients. -/
def rowMax (s : Fin 16384 → EReal) : EReal := Finset.univ.sup s
def softW (s : Fin 16384 → EReal) (e : Fin 16384) : EReal :=
  Ideal.div (Ideal.exp (s e - rowMax s)) (∑ e' : Fin 16384, Ideal.exp (s e' - rowMax s))
def rCtx (s nb : Fin 16384 → EReal) : EReal := ∑ e : Fin 16384, softW s e * nb e

/-- Edge `e` of tile `j` (eight tiles of 2048 edges). -/
def tileIdx (j : Fin 8) (e : Fin 2048) : Fin 16384 := ⟨2048 * j.val + e.val, by have := j.isLt; have := e.isLt; omega⟩

/-- The streaming state: running maximum, running normaliser, running weighted sum. -/
abbrev OS : Type := EReal × EReal × EReal
def osInit : OS := (negBig, zero32, zero32)
/-- One tile: the maximum moves to `m'`, both sums are rescaled by `exp (m - m')` and take the tile's terms. -/
def osStep (s nb : Fin 16384 → EReal) (j : Fin 8) (st : OS) : OS :=
  let m' := max st.1 (Finset.univ.sup fun e : Fin 2048 => s (tileIdx j e))
  (m', Ideal.exp (st.1 - m') * st.2.1 + ∑ e : Fin 2048, Ideal.exp (s (tileIdx j e) - m'),
    Ideal.exp (st.1 - m') * st.2.2 + ∑ e : Fin 2048, Ideal.exp (s (tileIdx j e) - m') * nb (tileIdx j e))
/-- The state after the first `k` tiles. -/
def osRun (s nb : Fin 16384 → EReal) : (k : ℕ) → k ≤ 8 → OS
  | 0, _ => osInit
  | k + 1, h => osStep s nb ⟨k, by omega⟩ (osRun s nb k (by omega))
/-- The streamed weighted sum over its normaliser. -/
def kCtx (s nb : Fin 16384 → EReal) : EReal :=
  Ideal.div (osRun s nb 8 le_rfl).2.2 (osRun s nb 8 le_rfl).2.1

/-! ## The two programs' results as functions of the twelve argument arrays (in the order of the programs' arguments:
    u, v, edge, pos, mat, mask, W_lin, b_lin, W_e, b_e, W_att, b_att) -/

/-- The new edge features, three-band form (the kernel's). -/
def kEdge (u v : Arr 16384 128) (pos : Arr 16384 16) (We : Arr 272 128) (be : Arr1 128) : Arr 16384 128 :=
  fun j => leaky (kLin u pos v We be (j 0) (j 1))
/-- The new edge features, concatenated form (the reference's). -/
def rEdge (u v : Arr 16384 128) (pos : Arr 16384 16) (We : Arr 272 128) (be : Arr1 128) : Arr 16384 128 :=
  fun j => leaky (rLin u pos v We be (j 0) (j 1))

/-- The logits of node `n`. -/
def logit (mat mask : Arr 8192 16384) (a : Fin 16384 → EReal) (n : Fin 8192) (e : Fin 16384) : EReal :=
  mat (ix2 n e) * a e + mask (ix2 n e)

/-- The context features as the kernel computes them. -/
def kOut (u v edge : Arr 16384 128) (pos : Arr 16384 16) (mat mask : Arr 8192 16384) (Wl : Arr 272 128) (bl : Arr1 128)
    (Wa : Arr 144 1) (ba : Arr1 1) : Arr 8192 128 :=
  fun j => kElu (kCtx (logit mat mask (kA edge pos Wa ba) (j 0)) (fun e => leaky (kLin u pos v Wl bl e (j 1))))
/-- The context features as the reference computes them. -/
def rOut (u v edge : Arr 16384 128) (pos : Arr 16384 16) (mat mask : Arr 8192 16384) (Wl : Arr 272 128) (bl : Arr1 128)
    (Wa : Arr 144 1) (ba : Arr1 1) : Arr 8192 128 :=
  fun j => rElu (rCtx (logit mat mask (rA edge pos Wa ba) (j 0)) (fun e => leaky (rLin u pos v Wl bl e (j 1))))

/-- The context features from the four arrays the node layer's kernel is handed: the matrix, the mask, the attention
    scalars laid out as one row, and the neighbour features. -/
def kOutOf (mat mask : Arr 8192 16384) (arow : Arr 1 16384) (nbr : Arr 16384 128) : Arr 8192 128 :=
  fun j => kElu (kCtx (fun e => mat (ix2 (j 0) e) * arow (ix2 (0 : Fin 1) e) + mask (ix2 (j 0) e)) (fun e => nbr (ix2 e (j 1))))

/-- Every entry of an array is a real number (neither infinity). -/
def IsRealArr {S : Shape} (x : S.Idx → EReal) : Prop := ∀ i, ∃ r : ℝ, x i = (r : EReal)

end Cert.Spec

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.Pay0.lean ====
import proofs.«124032_j64046552318003_2_alg».proof.Proof.Gen.KernelIdeal.Skeleton
import proofs.«124032_j64046552318003_2_alg».proof.Proof.Spec
import proofs.«124032_j64046552318003_2_alg».proof.Proof.LibMatmul
import Idealize.ShloMosaic.Lib.ValueLayout
import Idealize.ShloMosaic.Lib.Pipeline.Value

/-!
  The three stored values of the per-edge layer read at an index, over the extended reals: each is the leaky
  rectifier of a sum of band products (sums over the contracted axis) plus a bias entry. The narrowing casts are the
  identity there, the bias row is the vector read at the column, and each product into the zero accumulator is the
  sum over the contracted coordinate.
-/

open scoped BigOperators

noncomputable section

namespace Cert.KernelIdeal.Hand

open Idealize.ShloMosaic Idealize.ShloMosaic.ValueIdx
open Cert.KernelIdeal Cert.KernelIdeal.Gen

/-- A vector of 128 laid as one row and repeated down 2048 rows reads, at (p, q), the vector's entry q. -/
theorem biasRow_apply (b : Vec Ideal S128 .f32) (p : Fin 2048) (q : Fin 128) :
    broadcastTo S2048x128 (shapeCast S1x128 b shapeCasts_S128_S1x128) broadcasts_S1x128_S2048x128 (ix2 p q) = b (ix1 q) :=
  (broadcastTo_1b_ab_apply _ broadcasts_S1x128_S2048x128 p q).trans (shapeCast_a_1a_apply b shapeCasts_S128_S1x128 0 q)

/-- A vector of 1 laid as one row and repeated down 2048 rows reads, at (p, q), the vector's entry q. -/
theorem biasCol_apply (b : Vec Ideal S1 .f32) (p : Fin 2048) (q : Fin 1) :
    broadcastTo S2048x1 (shapeCast S1x1 b shapeCasts_S1_S1x1) broadcasts_S1x1_S2048x1 (ix2 p q) = b (ix1 q) :=
  (broadcastTo_1b_ab_apply _ broadcasts_S1x1_S2048x1 p q).trans (shapeCast_a_1a_apply b shapeCasts_S1_S1x1 0 q)

/-- The new edge features' stored value at row p, column q: three band products, the bias, the rectifier. -/
theorem pay5_apply (v0 : Vec Ideal S2048x128 .f32) (v2 : Vec Ideal S2048x16 .f32) (v4 : Vec Ideal S2048x128 .f32)
    (v8 : Vec Ideal S128x128 .f32) (v10 : Vec Ideal S16x128 .f32) (v12 : Vec Ideal S128x128 .f32) (v19 : Vec Ideal S128 .f32)
    (p : Fin 2048) (q : Fin 128) :
    k0_pay5 v0 v2 v4 v8 v10 v12 v19 (ix2 p q)
      = Cert.Spec.leaky ((((∑ k : Fin 128, v0 (ix2 p k) * v8 (ix2 k q)) + (∑ k : Fin 16, v2 (ix2 p k) * v10 (ix2 k q)))
          + (∑ k : Fin 128, v4 (ix2 p k) * v12 (ix2 k q))) + v19 (ix1 q)) := by
  have e1 : matmul (F := Ideal) dot_S2048x128_S128x128_S2048x128_1_0_0_1_n_n none (k0_pay1 v0) (truncf .bf16 v8 bitsLt_bf16_f32) (constant S2048x128 .f32 0x00000000#32) (ix2 p q)
      = ∑ k : Fin 128, v0 (ix2 p k) * v8 (ix2 k q) :=
    Cert.MatOps.matmul_plain_zero_apply (M := 2048) (K := 128) (N := 128) none (k0_pay1 v0) (truncf .bf16 v8 bitsLt_bf16_f32) p q
  have e2 : matmul (F := Ideal) dot_S2048x16_S16x128_S2048x128_1_0_0_1_n_n none (k0_pay2 v2) (truncf .bf16 v10 bitsLt_bf16_f32) (constant S2048x128 .f32 0x00000000#32) (ix2 p q)
      = ∑ k : Fin 16, v2 (ix2 p k) * v10 (ix2 k q) :=
    Cert.MatOps.matmul_plain_zero_apply (M := 2048) (K := 16) (N := 128) none (k0_pay2 v2) (truncf .bf16 v10 bitsLt_bf16_f32) p q
  have e3 : matmul (F := Ideal) dot_S2048x128_S128x128_S2048x128_1_0_0_1_n_n none (k0_pay3 v4) (truncf .bf16 v12 bitsLt_bf16_f32) (constant S2048x128 .f32 0x00000000#32) (ix2 p q)
      = ∑ k : Fin 128, v4 (ix2 p k) * v12 (ix2 k q) :=
    Cert.MatOps.matmul_plain_zero_apply (M := 2048) (K := 128) (N := 128) none (k0_pay3 v4) (truncf .bf16 v12 bitsLt_bf16_f32) p q
  unfold k0_pay5
  simp only [select_apply, cmpf_apply, mulf_apply, addf_apply, broadcast_apply]
  rw [e1, e2, e3, biasRow_apply]
  rfl

/-- The neighbour features' stored value at row p, column q, from the narrowed operands. -/
theorem pay7_apply (v1 : FVec Ideal S2048x128 .bf16) (v3 : FVec Ideal S2048x16 .bf16) (v5 : FVec Ideal S2048x128 .bf16)
    (v30 : FVec Ideal S128x128 .bf16) (v31 : Vec Ideal S16x128 .f32) (v33 : Vec Ideal S128x128 .f32) (v40 : Vec Ideal S128 .f32)
    (p : Fin 2048) (q : Fin 128) :
    k0_pay7 v1 v3 v5 v30 v31 v33 v40 (ix2 p q)
      = Cert.Spec.leaky ((((∑ k : Fin 128, v1 (ix2 p k) * v30 (ix2 k q)) + (∑ k : Fin 16, v3 (ix2 p k) * v31 (ix2 k q)))
          + (∑ k : Fin 128, v5 (ix2 p k) * v33 (ix2 k q))) + v40 (ix1 q)) := by
  have e1 : matmul (F := Ideal) dot_S2048x128_S128x128_S2048x128_1_0_0_1_n_n none v1 v30 (constant S2048x128 .f32 0x00000000#32) (ix2 p q)
      = ∑ k : Fin 128, v1 (ix2 p k) * v30 (ix2 k q) :=
    Cert.MatOps.matmul_plain_zero_apply (M := 2048) (K := 128) (N := 128) none v1 v30 p q
  have e2 : matmul (F := Ideal) dot_S2048x16_S16x128_S2048x128_1_0_0_1_n_n none v3 (truncf .bf16 v31 bitsLt_bf16_f32) (constant S2048x128 .f32 0x00000000#32) (ix2 p q)
      = ∑ k : Fin 16, v3 (ix2 p k) * v31 (ix2 k q) :=
    Cert.MatOps.matmul_plain_zero_apply (M := 2048) (K := 16) (N := 128) none v3 (truncf .bf16 v31 bitsLt_bf16_f32) p q
  have e3 : matmul (F := Ideal) dot_S2048x128_S128x128_S2048x128_1_0_0_1_n_n none v5 (truncf .bf16 v33 bitsLt_bf16_f32) (constant S2048x128 .f32 0x00000000#32) (ix2 p q)
      = ∑ k : Fin 128, v5 (ix2 p k) * v33 (ix2 k q) :=
    Cert.MatOps.matmul_plain_zero_apply (M := 2048) (K := 128) (N := 128) none v5 (truncf .bf16 v33 bitsLt_bf16_f32) p q
  unfold k0_pay7
  simp only [truncf_apply, select_apply, cmpf_apply, mulf_apply, addf_apply, broadcast_apply]
  rw [e1, e2, e3, biasRow_apply]
  rfl

/-- The attention scalars' stored value at row p (column q of one), from the narrowed operands. -/
theorem pay8_apply (v3 : FVec Ideal S2048x16 .bf16) (v7 : FVec Ideal S2048x128 .bf16)
    (v51 : Vec Ideal S128x1 .f32) (v53 : Vec Ideal S16x1 .f32) (v58 : Vec Ideal S1 .f32)
    (p : Fin 2048) (q : Fin 1) :
    k0_pay8 v3 v7 v51 v53 v58 (ix2 p q)
      = Cert.Spec.leaky (((∑ k : Fin 128, v7 (ix2 p k) * v51 (ix2 k q)) + (∑ k : Fin 16, v3 (ix2 p k) * v53 (ix2 k q)))
          + v58 (ix1 q)) := by
  have e1 : matmul (F := Ideal) dot_S2048x128_S128x1_S2048x1_1_0_0_1_n_n none v7 (truncf .bf16 v51 bitsLt_bf16_f32) (constant S2048x1 .f32 0x00000000#32) (ix2 p q)
      = ∑ k : Fin 128, v7 (ix2 p k) * v51 (ix2 k q) :=
    Cert.MatOps.matmul_plain_zero_apply (M := 2048) (K := 128) (N := 1) none v7 (truncf .bf16 v51 bitsLt_bf16_f32) p q
  have e2 : matmul (F := Ideal) dot_S2048x16_S16x1_S2048x1_1_0_0_1_n_n none v3 (truncf .bf16 v53 bitsLt_bf16_f32) (constant S2048x1 .f32 0x00000000#32) (ix2 p q)
      = ∑ k : Fin 16, v3 (ix2 p k) * v53 (ix2 k q) :=
    Cert.MatOps.matmul_plain_zero_apply (M := 2048) (K := 16) (N := 1) none v3 (truncf .bf16 v53 bitsLt_bf16_f32) p q
  unfold k0_pay8
  simp only [select_apply, cmpf_apply, mulf_apply, addf_apply, broadcast_apply]
  rw [e1, e2, biasCol_apply]
  rfl

end Cert.KernelIdeal.Hand

end
-- ==== Proof.Out0.lean ====
import proofs.«124032_j64046552318003_2_alg».proof.Proof.Body0
import proofs.«124032_j64046552318003_2_alg».proof.Proof.Pay0
import Idealize.ShloMosaic.Lib.Pipeline.Value

/-!
  The three output blocks of the per-edge layer read at an index, over the extended reals, as functions of the ten
  input blocks: a whole-block store leaves its payload, a whole-block load reads the block, and a load of a row band
  of a weight block reads the block at the band's rows.
-/

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

open scoped BigOperators

theorem hz2 : (![0, 0] : Fin 2 → Nat) = fun _ => 0 := funext fun a => by fin_cases a <;> rfl
theorem hz1 : (![0] : Fin 1 → Nat) = fun _ => 0 := funext fun a => by fin_cases a <;> rfl

/-! ## The narrowing casts are the identity on the extended reals -/

theorem pay1_apply (v : Vec Ideal S2048x128 .f32) (i : S2048x128.Idx) : k0_pay1 v i = v i := rfl
theorem pay2_apply (v : Vec Ideal S2048x16 .f32) (i : S2048x16.Idx) : k0_pay2 v i = v i := rfl
theorem pay3_apply (v : Vec Ideal S2048x128 .f32) (i : S2048x128.Idx) : k0_pay3 v i = v i := rfl
theorem pay4_apply (v : Vec Ideal S2048x128 .f32) (i : S2048x128.Idx) : k0_pay4 v i = v i := rfl
theorem pay6_apply (v : Vec Ideal S128x128 .f32) (i : S128x128.Idx) : k0_pay6 v i = v i := rfl

/-! ## A row band of a weight block read at an index -/
theorem ldW0_apply (x : Vec Ideal S272x128 .f32) (k : Fin 128) (q : Fin 128) :
    View.ld x rW0 (ix2 k q) = x (ix2 (Cert.Spec.rowU k) q) := by
  show x (rW0.idx (ix2 k q)) = _
  congr 1; funext a; apply Fin.ext
  match a with
  | ⟨0, _⟩ => show 0 + 1 * k.val = k.val; omega
  | ⟨1, _⟩ => show 0 + 1 * q.val = q.val; omega
theorem ldW128_apply (x : Vec Ideal S272x128 .f32) (k : Fin 16) (q : Fin 128) :
    View.ld x rW128 (ix2 k q) = x (ix2 (Cert.Spec.rowP k) q) := by
  show x (rW128.idx (ix2 k q)) = _
  congr 1; funext a; apply Fin.ext
  match a with
  | ⟨0, _⟩ => show 128 + 1 * k.val = 128 + k.val; omega
  | ⟨1, _⟩ => show 0 + 1 * q.val = q.val; omega
theorem ldW144_apply (x : Vec Ideal S272x128 .f32) (k : Fin 128) (q : Fin 128) :
    View.ld x rW144 (ix2 k q) = x (ix2 (Cert.Spec.rowV k) q) := by
  show x (rW144.idx (ix2 k q)) = _
  congr 1; funext a; apply Fin.ext
  match a with
  | ⟨0, _⟩ => show 144 + 1 * k.val = 144 + k.val; omega
  | ⟨1, _⟩ => show 0 + 1 * q.val = q.val; omega
theorem ldA0_apply (x : Vec Ideal S144x1 .f32) (k : Fin 128) (q : Fin 1) :
    View.ld x rA0 (ix2 k q) = x (ix2 (Cert.Spec.rowE k) q) := by
  show x (rA0.idx (ix2 k q)) = _
  congr 1; funext a; apply Fin.ext
  match a with
  | ⟨0, _⟩ => show 0 + 1 * k.val = k.val; omega
  | ⟨1, _⟩ => show 0 + 1 * q.val = q.val; omega
theorem ldA128_apply (x : Vec Ideal S144x1 .f32) (k : Fin 16) (q : Fin 1) :
    View.ld x rA128 (ix2 k q) = x (ix2 (Cert.Spec.rowQ k) q) := by
  show x (rA128.idx (ix2 k q)) = _
  congr 1; funext a; apply Fin.ext
  match a with
  | ⟨0, _⟩ => show 128 + 1 * k.val = 128 + k.val; omega
  | ⟨1, _⟩ => show 0 + 1 * q.val = q.val; omega

/-! ## The band sums over a weight block's row bands -/

/-- Three band products and a bias entry, the weight bands loaded from one 272-row block: the bands' rows are the
    block's rows 0–127, 128–143, 144–271. The narrowing casts of the row operands are the identity. -/
theorem bands3 (x0 : Vec Ideal S2048x128 .f32) (x1 : Vec Ideal S2048x16 .f32) (x2 : Vec Ideal S2048x128 .f32)
    (w : Vec Ideal S272x128 .f32) (b : Vec Ideal S128 .f32) (p : Fin 2048) (q : Fin 128) :
    (((∑ k : Fin 128, k0_pay1 x0 (ix2 p k) * k0_pay6 (View.ld w rW0) (ix2 k q)) + (∑ k : Fin 16, k0_pay2 x1 (ix2 p k) * View.ld w rW128 (ix2 k q)))
        + (∑ k : Fin 128, k0_pay3 x2 (ix2 p k) * View.ld w rW144 (ix2 k q))) + b (ix1 q)
      = (((∑ k : Fin 128, x0 (ix2 p k) * w (ix2 (Cert.Spec.rowU k) q)) + (∑ k : Fin 16, x1 (ix2 p k) * w (ix2 (Cert.Spec.rowP k) q)))
        + (∑ k : Fin 128, x2 (ix2 p k) * w (ix2 (Cert.Spec.rowV k) q))) + b (ix1 q) :=
  congrArg₂ (· + ·) (congrArg₂ (· + ·) (congrArg₂ (· + ·)
    (Finset.sum_congr rfl fun k _ => congrArg (x0 (ix2 p k) * ·) (ldW0_apply w k q))
    (Finset.sum_congr rfl fun k _ => congrArg (x1 (ix2 p k) * ·) (ldW128_apply w k q)))
    (Finset.sum_congr rfl fun k _ => congrArg (x2 (ix2 p k) * ·) (ldW144_apply w k q))) rfl

/-- Two band products and a bias entry, the weight bands loaded from one 144-row column. -/
theorem bands2 (x1 : Vec Ideal S2048x16 .f32) (x3 : Vec Ideal S2048x128 .f32)
    (w : Vec Ideal S144x1 .f32) (b : Vec Ideal S1 .f32) (p : Fin 2048) (q : Fin 1) :
    ((∑ k : Fin 128, k0_pay4 x3 (ix2 p k) * View.ld w rA0 (ix2 k q)) + (∑ k : Fin 16, k0_pay2 x1 (ix2 p k) * View.ld w rA128 (ix2 k q))) + b (ix1 q)
      = ((∑ k : Fin 128, x3 (ix2 p k) * w (ix2 (Cert.Spec.rowE k) q)) + (∑ k : Fin 16, x1 (ix2 p k) * w (ix2 (Cert.Spec.rowQ k) q))) + b (ix1 q) :=
  congrArg₂ (· + ·) (congrArg₂ (· + ·)
    (Finset.sum_congr rfl fun k _ => congrArg (x3 (ix2 p k) * ·) (ldA0_apply w k q))
    (Finset.sum_congr rfl fun k _ => congrArg (x1 (ix2 p k) * ·) (ldA128_apply w k q))) rfl

/-! ## The output blocks at an index -/

/-- The new edge features' block at row p, column q. -/
theorem out10_apply (x0 : Vec Ideal S2048x128 .f32) (x1 : Vec Ideal S2048x16 .f32) (x2 : Vec Ideal S2048x128 .f32) (x3 : Vec Ideal S2048x128 .f32) (x4 : Vec Ideal S272x128 .f32) (x5 : Vec Ideal S128 .f32) (x6 : Vec Ideal S272x128 .f32) (x7 : Vec Ideal S128 .f32) (x8 : Vec Ideal S144x1 .f32) (x9 : Vec Ideal S1 .f32) (p : Fin 2048) (q : Fin 128) :
    out0_10 x0 x1 x2 x3 x4 x5 x6 x7 x8 x9 (ix2 p q)
      = Cert.Spec.leaky ((((∑ k : Fin 128, x0 (ix2 p k) * x4 (ix2 (Cert.Spec.rowU k) q)) + (∑ k : Fin 16, x1 (ix2 p k) * x4 (ix2 (Cert.Spec.rowP k) q)))
          + (∑ k : Fin 128, x2 (ix2 p k) * x4 (ix2 (Cert.Spec.rowV k) q))) + x5 (ix1 q)) := by
  unfold out0_10
  rw [View.canon_unit_zero hz2]
  simp only [View.ld_unit_zero (S := S2048x128) hz2, View.ld_unit_zero (S := S2048x16) hz2, View.ld_unit_zero (S := S128) hz1]
  rw [pay5_apply]
  exact congrArg Cert.Spec.leaky (bands3 x0 x1 x2 x4 x5 p q)

/-- The neighbour features' block at row p, column q. -/
theorem out11_apply (x0 : Vec Ideal S2048x128 .f32) (x1 : Vec Ideal S2048x16 .f32) (x2 : Vec Ideal S2048x128 .f32) (x3 : Vec Ideal S2048x128 .f32) (x4 : Vec Ideal S272x128 .f32) (x5 : Vec Ideal S128 .f32) (x6 : Vec Ideal S272x128 .f32) (x7 : Vec Ideal S128 .f32) (x8 : Vec Ideal S144x1 .f32) (x9 : Vec Ideal S1 .f32) (p : Fin 2048) (q : Fin 128) :
    out0_11 x0 x1 x2 x3 x4 x5 x6 x7 x8 x9 (ix2 p q)
      = Cert.Spec.leaky ((((∑ k : Fin 128, x0 (ix2 p k) * x6 (ix2 (Cert.Spec.rowU k) q)) + (∑ k : Fin 16, x1 (ix2 p k) * x6 (ix2 (Cert.Spec.rowP k) q)))
          + (∑ k : Fin 128, x2 (ix2 p k) * x6 (ix2 (Cert.Spec.rowV k) q))) + x7 (ix1 q)) := by
  unfold out0_11
  rw [View.canon_unit_zero hz2]
  simp only [View.ld_unit_zero (S := S2048x128) hz2, View.ld_unit_zero (S := S2048x16) hz2, View.ld_unit_zero (S := S128) hz1]
  rw [pay7_apply]
  exact congrArg Cert.Spec.leaky (bands3 x0 x1 x2 x6 x7 p q)

/-- The attention scalars' block at row p (column q of one). -/
theorem out12_apply (x0 : Vec Ideal S2048x128 .f32) (x1 : Vec Ideal S2048x16 .f32) (x2 : Vec Ideal S2048x128 .f32) (x3 : Vec Ideal S2048x128 .f32) (x4 : Vec Ideal S272x128 .f32) (x5 : Vec Ideal S128 .f32) (x6 : Vec Ideal S272x128 .f32) (x7 : Vec Ideal S128 .f32) (x8 : Vec Ideal S144x1 .f32) (x9 : Vec Ideal S1 .f32) (p : Fin 2048) (q : Fin 1) :
    out0_12 x0 x1 x2 x3 x4 x5 x6 x7 x8 x9 (ix2 p q)
      = Cert.Spec.leaky (((∑ k : Fin 128, x3 (ix2 p k) * x8 (ix2 (Cert.Spec.rowE k) q)) + (∑ k : Fin 16, x1 (ix2 p k) * x8 (ix2 (Cert.Spec.rowQ k) q)))
          + x9 (ix1 q)) := by
  unfold out0_12
  rw [View.canon_unit_zero hz2]
  simp only [View.ld_unit_zero (S := S2048x128) hz2, View.ld_unit_zero (S := S2048x16) hz2, View.ld_unit_zero (S := S1) hz1]
  rw [pay8_apply]
  exact congrArg Cert.Spec.leaky (bands2 x1 x3 x8 x9 p q)

end Cert.KernelIdeal.Hand

end
-- ==== Proof.Blocks0.lean ====
import proofs.«124032_j64046552318003_2_alg».proof.Proof.Body0
import Idealize.ShloMosaic.Lib.Pipeline.Value
import Idealize.ShloMosaic.Lib.ValueIdx

/-!
  Where the per-edge layer's blocks sit in their arrays. The four row-streamed inputs and the three outputs move
  with the grid point: block t is rows 2048 t … 2048 t + 2047, all columns. The six weight and bias windows are
  their whole arrays at every point. So an input block read at an index is the array read at the shifted index, a
  weight block is the array, and every index of an output array lies in the block of the point (row / 2048).
-/

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-! ## The printed index maps, decided over the grid -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = t.val ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 1) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 1) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 1) = 0 :=
  (by decide +kernel : ∀ t : Fin grid0.N, _)
theorem idx0_10 : ∀ t : Fin cfg0.N, win0_10.index t (0 : Fin 2) = t.val ∧ win0_10.index t (1 : Fin 2) = 0 :=
  (by decide +kernel : ∀ t : Fin grid0.N, _)
theorem idx0_11 : ∀ t : Fin cfg0.N, win0_11.index t (0 : Fin 2) = t.val ∧ win0_11.index t (1 : Fin 2) = 0 :=
  (by decide +kernel : ∀ t : Fin grid0.N, _)
theorem idx0_12 : ∀ t : Fin cfg0.N, win0_12.index t (0 : Fin 2) = t.val ∧ win0_12.index t (1 : Fin 2) = 0 :=
  (by decide +kernel : ∀ t : Fin grid0.N, _)

/-! ## An input block read at an index -/

/-- Window 0's block at point t holds rows 2048 t … of its array. -/
theorem iblk0_0_apply (c : Dev nD) (t : Fin cfg0.N) (x : S2048x128.Idx) (k : S16384x128.Idx)
    (hk0 : (k 0).val = 2048 * t.val + (x 0).val) (hk1 : (k 1).val = (x 1).val) :
    (iblk0 V c 0 t : Vec F S2048x128 .f32) x = (V c main_arg0 : S16384x128.Idx → Elt F .f32) k := by
  obtain ⟨h0, h1⟩ := idx0_0 t
  unfold iblk0
  rw [View.read_apply]
  show V c main_arg0 _ = V c main_arg0 _
  congr 1
  funext a
  apply Fin.ext
  match a with
  | ⟨0, _⟩ => show win0_0.index t 0 * 2048 + 1 * (x 0).val = (k 0).val; rw [h0, hk0]; omega
  | ⟨1, _⟩ => show win0_0.index t 1 * 128 + 1 * (x 1).val = (k 1).val; rw [h1, hk1]; omega

/-- Window 1's block at point t holds rows 2048 t … of its array. -/
theorem iblk0_1_apply (c : Dev nD) (t : Fin cfg0.N) (x : S2048x16.Idx) (k : S16384x16.Idx)
    (hk0 : (k 0).val = 2048 * t.val + (x 0).val) (hk1 : (k 1).val = (x 1).val) :
    (iblk0 V c 1 t : Vec F S2048x16 .f32) x = (V c main_arg3 : S16384x16.Idx → Elt F .f32) k := by
  obtain ⟨h0, h1⟩ := idx0_1 t
  unfold iblk0
  rw [View.read_apply]
  show V c main_arg3 _ = V c main_arg3 _
  congr 1
  funext a
  apply Fin.ext
  match a with
  | ⟨0, _⟩ => show win0_1.index t 0 * 2048 + 1 * (x 0).val = (k 0).val; rw [h0, hk0]; omega
  | ⟨1, _⟩ => show win0_1.index t 1 * 16 + 1 * (x 1).val = (k 1).val; rw [h1, hk1]; omega

/-- Window 2's block at point t holds rows 2048 t … of its array. -/
theorem iblk0_2_apply (c : Dev nD) (t : Fin cfg0.N) (x : S2048x128.Idx) (k : S16384x128.Idx)
    (hk0 : (k 0).val = 2048 * t.val + (x 0).val) (hk1 : (k 1).val = (x 1).val) :
    (iblk0 V c 2 t : Vec F S2048x128 .f32) x = (V c main_arg1 : S16384x128.Idx → Elt F .f32) k := by
  obtain ⟨h0, h1⟩ := idx0_2 t
  unfold iblk0
  rw [View.read_apply]
  show V c main_arg1 _ = V c main_arg1 _
  congr 1
  funext a
  apply Fin.ext
  match a with
  | ⟨0, _⟩ => show win0_2.index t 0 * 2048 + 1 * (x 0).val = (k 0).val; rw [h0, hk0]; omega
  | ⟨1, _⟩ => show win0_2.index t 1 * 128 + 1 * (x 1).val = (k 1).val; rw [h1, hk1]; omega

/-- Window 3's block at point t holds rows 2048 t … of its array. -/
theorem iblk0_3_apply (c : Dev nD) (t : Fin cfg0.N) (x : S2048x128.Idx) (k : S16384x128.Idx)
    (hk0 : (k 0).val = 2048 * t.val + (x 0).val) (hk1 : (k 1).val = (x 1).val) :
    (iblk0 V c 3 t : Vec F S2048x128 .f32) x = (V c main_arg2 : S16384x128.Idx → Elt F .f32) k := by
  obtain ⟨h0, h1⟩ := idx0_3 t
  unfold iblk0
  rw [View.read_apply]
  show V c main_arg2 _ = V c main_arg2 _
  congr 1
  funext a
  apply Fin.ext
  match a with
  | ⟨0, _⟩ => show win0_3.index t 0 * 2048 + 1 * (x 0).val = (k 0).val; rw [h0, hk0]; omega
  | ⟨1, _⟩ => show win0_3.index t 1 * 128 + 1 * (x 1).val = (k 1).val; rw [h1, hk1]; omega

/-- Window 4's block at every point is its whole array. -/
theorem iblk0_4_eq (c : Dev nD) (t : Fin cfg0.N) :
    (iblk0 V c 4 t : Vec F S272x128 .f32) = (V c main_arg8 : S272x128.Idx → Elt F .f32) := by
  obtain ⟨h0, h1⟩ := idx0_4 t
  funext x
  unfold iblk0
  rw [View.read_apply]
  show V c main_arg8 _ = V c main_arg8 x
  congr 1
  funext a
  apply Fin.ext
  match a with
  | ⟨0, _⟩ => show win0_4.index t 0 * 272 + 1 * (x 0).val = (x 0).val; rw [h0]; omega
  | ⟨1, _⟩ => show win0_4.index t 1 * 128 + 1 * (x 1).val = (x 1).val; rw [h1]; omega

/-- Window 5's block at every point is its whole array. -/
theorem iblk0_5_eq (c : Dev nD) (t : Fin cfg0.N) :
    (iblk0 V c 5 t : Vec F S128 .f32) = (V c main_arg9 : S128.Idx → Elt F .f32) := by
  have h0 := idx0_5 t
  funext x
  unfold iblk0
  rw [View.read_apply]
  show V c main_arg9 _ = V c main_arg9 x
  congr 1
  funext a
  apply Fin.ext
  match a with
  | ⟨0, _⟩ => show win0_5.index t 0 * 128 + 1 * (x 0).val = (x 0).val; rw [h0]; omega

/-- Window 6's block at every point is its whole array. -/
theorem iblk0_6_eq (c : Dev nD) (t : Fin cfg0.N) :
    (iblk0 V c 6 t : Vec F S272x128 .f32) = (V c main_arg6 : S272x128.Idx → Elt F .f32) := by
  obtain ⟨h0, h1⟩ := idx0_6 t
  funext x
  unfold iblk0
  rw [View.read_apply]
  show V c main_arg6 _ = V c main_arg6 x
  congr 1
  funext a
  apply Fin.ext
  match a with
  | ⟨0, _⟩ => show win0_6.index t 0 * 272 + 1 * (x 0).val = (x 0).val; rw [h0]; omega
  | ⟨1, _⟩ => show win0_6.index t 1 * 128 + 1 * (x 1).val = (x 1).val; rw [h1]; omega

/-- Window 7's block at every point is its whole array. -/
theorem iblk0_7_eq (c : Dev nD) (t : Fin cfg0.N) :
    (iblk0 V c 7 t : Vec F S128 .f32) = (V c main_arg7 : S128.Idx → Elt F .f32) := by
  have h0 := idx0_7 t
  funext x
  unfold iblk0
  rw [View.read_apply]
  show V c main_arg7 _ = V c main_arg7 x
  congr 1
  funext a
  apply Fin.ext
  match a with
  | ⟨0, _⟩ => show win0_7.index t 0 * 128 + 1 * (x 0).val = (x 0).val; rw [h0]; omega

/-- Window 8's block at every point is its whole array. -/
theorem iblk0_8_eq (c : Dev nD) (t : Fin cfg0.N) :
    (iblk0 V c 8 t : Vec F S144x1 .f32) = (V c main_arg10 : S144x1.Idx → Elt F .f32) := by
  obtain ⟨h0, h1⟩ := idx0_8 t
  funext x
  unfold iblk0
  rw [View.read_apply]
  show V c main_arg10 _ = V c main_arg10 x
  congr 1
  funext a
  apply Fin.ext
  match a with
  | ⟨0, _⟩ => show win0_8.index t 0 * 144 + 1 * (x 0).val = (x 0).val; rw [h0]; omega
  | ⟨1, _⟩ => show win0_8.index t 1 * 1 + 1 * (x 1).val = (x 1).val; rw [h1]; omega

/-- Window 9's block at every point is its whole array. -/
theorem iblk0_9_eq (c : Dev nD) (t : Fin cfg0.N) :
    (iblk0 V c 9 t : Vec F S1 .f32) = (V c main_arg11 : S1.Idx → Elt F .f32) := by
  have h0 := idx0_9 t
  funext x
  unfold iblk0
  rw [View.read_apply]
  show V c main_arg11 _ = V c main_arg11 x
  congr 1
  funext a
  apply Fin.ext
  match a with
  | ⟨0, _⟩ => show win0_9.index t 0 * 1 + 1 * (x 0).val = (x 0).val; rw [h0]; omega

/-! ## The output blocks cover their arrays -/

/-- An index of window 10's array is in point t's block iff each coordinate is in the block's range on its axis. -/
theorem mem_blk10 (t : Fin cfg0.N) (i : S16384x128.Idx) :
    i ∈ ((cfg0.win 10).blk t).view.set ↔ ∀ a : Fin 2, win0_10.index t a * S2048x128.size a ≤ (i a).val ∧ (i a).val < win0_10.index t a * S2048x128.size a + S2048x128.size a := by
  show i ∈ ((View.whole main_v0_0).slice (win0_10.rect t)).set ↔ _
  rw [View.set_slice_whole, Rect.mem_set_unit]
  exact Iff.rfl

/-- Row r of window 10's array is written back by the point r / 2048. -/
theorem cover0_blk10 (i : S16384x128.Idx) :
    ∃ t : Fin cfg0.N, (cfg0.win 10).flush t = true ∧ i ∈ ((cfg0.win 10).blk t).view.set := by
  have hN : grid0.N = 8 := N_0
  have hi0 : (i 0).val < 16384 := (i 0).isLt
  have hi1 : (i 1).val < 128 := (i 1).isLt
  have ht : (i 0).val / 2048 < cfg0.N := by show _ < grid0.N; omega
  obtain ⟨h0, h1⟩ := idx0_10 ⟨(i 0).val / 2048, ht⟩
  refine ⟨⟨(i 0).val / 2048, ht⟩, flush0_10 _, ?_⟩
  rw [mem_blk10]
  intro a
  match a with
  | ⟨0, _⟩ =>
    show win0_10.index ⟨(i 0).val / 2048, ht⟩ 0 * 2048 ≤ (i 0).val ∧ (i 0).val < win0_10.index ⟨(i 0).val / 2048, ht⟩ 0 * 2048 + 2048
    rw [h0]; show (i 0).val / 2048 * 2048 ≤ (i 0).val ∧ (i 0).val < (i 0).val / 2048 * 2048 + 2048; omega
  | ⟨1, _⟩ =>
    show win0_10.index ⟨(i 0).val / 2048, ht⟩ 1 * 128 ≤ (i 1).val ∧ (i 1).val < win0_10.index ⟨(i 0).val / 2048, ht⟩ 1 * 128 + 128
    rw [h1]; omega

/-- An index of window 11's array is in point t's block iff each coordinate is in the block's range on its axis. -/
theorem mem_blk11 (t : Fin cfg0.N) (i : S16384x128.Idx) :
    i ∈ ((cfg0.win 11).blk t).view.set ↔ ∀ a : Fin 2, win0_11.index t a * S2048x128.size a ≤ (i a).val ∧ (i a).val < win0_11.index t a * S2048x128.size a + S2048x128.size a := by
  show i ∈ ((View.whole main_v0_1).slice (win0_11.rect t)).set ↔ _
  rw [View.set_slice_whole, Rect.mem_set_unit]
  exact Iff.rfl

/-- Row r of window 11's array is written back by the point r / 2048. -/
theorem cover0_blk11 (i : S16384x128.Idx) :
    ∃ t : Fin cfg0.N, (cfg0.win 11).flush t = true ∧ i ∈ ((cfg0.win 11).blk t).view.set := by
  have hN : grid0.N = 8 := N_0
  have hi0 : (i 0).val < 16384 := (i 0).isLt
  have hi1 : (i 1).val < 128 := (i 1).isLt
  have ht : (i 0).val / 2048 < cfg0.N := by show _ < grid0.N; omega
  obtain ⟨h0, h1⟩ := idx0_11 ⟨(i 0).val / 2048, ht⟩
  refine ⟨⟨(i 0).val / 2048, ht⟩, flush0_11 _, ?_⟩
  rw [mem_blk11]
  intro a
  match a with
  | ⟨0, _⟩ =>
    show win0_11.index ⟨(i 0).val / 2048, ht⟩ 0 * 2048 ≤ (i 0).val ∧ (i 0).val < win0_11.index ⟨(i 0).val / 2048, ht⟩ 0 * 2048 + 2048
    rw [h0]; show (i 0).val / 2048 * 2048 ≤ (i 0).val ∧ (i 0).val < (i 0).val / 2048 * 2048 + 2048; omega
  | ⟨1, _⟩ =>
    show win0_11.index ⟨(i 0).val / 2048, ht⟩ 1 * 128 ≤ (i 1).val ∧ (i 1).val < win0_11.index ⟨(i 0).val / 2048, ht⟩ 1 * 128 + 128
    rw [h1]; omega

/-- An index of window 12's array is in point t's block iff each coordinate is in the block's range on its axis. -/
theorem mem_blk12 (t : Fin cfg0.N) (i : S16384x1.Idx) :
    i ∈ ((cfg0.win 12).blk t).view.set ↔ ∀ a : Fin 2, win0_12.index t a * S2048x1.size a ≤ (i a).val ∧ (i a).val < win0_12.index t a * S2048x1.size a + S2048x1.size a := by
  show i ∈ ((View.whole main_v0_2).slice (win0_12.rect t)).set ↔ _
  rw [View.set_slice_whole, Rect.mem_set_unit]
  exact Iff.rfl

/-- Row r of window 12's array is written back by the point r / 2048. -/
theorem cover0_blk12 (i : S16384x1.Idx) :
    ∃ t : Fin cfg0.N, (cfg0.win 12).flush t = true ∧ i ∈ ((cfg0.win 12).blk t).view.set := by
  have hN : grid0.N = 8 := N_0
  have hi0 : (i 0).val < 16384 := (i 0).isLt
  have hi1 : (i 1).val < 1 := (i 1).isLt
  have ht : (i 0).val / 2048 < cfg0.N := by show _ < grid0.N; omega
  obtain ⟨h0, h1⟩ := idx0_12 ⟨(i 0).val / 2048, ht⟩
  refine ⟨⟨(i 0).val / 2048, ht⟩, flush0_12 _, ?_⟩
  rw [mem_blk12]
  intro a
  match a with
  | ⟨0, _⟩ =>
    show win0_12.index ⟨(i 0).val / 2048, ht⟩ 0 * 2048 ≤ (i 0).val ∧ (i 0).val < win0_12.index ⟨(i 0).val / 2048, ht⟩ 0 * 2048 + 2048
    rw [h0]; show (i 0).val / 2048 * 2048 ≤ (i 0).val ∧ (i 0).val < (i 0).val / 2048 * 2048 + 2048; omega
  | ⟨1, _⟩ =>
    show win0_12.index ⟨(i 0).val / 2048, ht⟩ 1 * 1 ≤ (i 1).val ∧ (i 1).val < win0_12.index ⟨(i 0).val / 2048, ht⟩ 1 * 1 + 1
    rw [h1]; omega

end Cert.KernelIdeal.Hand

end
-- ==== Proof.Value0.lean ====
import proofs.«124032_j64046552318003_2_alg».proof.Proof.Out0
import proofs.«124032_j64046552318003_2_alg».proof.Proof.Blocks0
import proofs.«124032_j64046552318003_2_alg».proof.Proof.Spec
import Idealize.ShloMosaic.Lib.Pipeline.Value

/-!
  The three arrays the per-edge layer leaves, over the extended reals: the new edge features, the neighbour
  features and the attention scalars, each as one function of the argument arrays as the region finds them. What
  point t writes back is block t of that function: the block's rows are rows 2048 t … of the streamed arguments, the
  weight and bias blocks are the whole arrays; the eight blocks cover each output array.
-/

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

open scoped BigOperators

/-! ## The band sums over blocks are the band sums over the arrays -/

/-- Row p of the streamed blocks is row e of the arrays, column q of the weight and bias blocks is column d of the
    arrays: then the three-band sum over the blocks is the three-band sum of the specification. -/
theorem kLin_of_blocks (u : Cert.Spec.Arr 16384 128) (pos : Cert.Spec.Arr 16384 16) (v : Cert.Spec.Arr 16384 128)
    (W : Cert.Spec.Arr 272 128) (b : Cert.Spec.Arr1 128)
    (x0 : Cert.Spec.Arr 2048 128) (x1 : Cert.Spec.Arr 2048 16) (x2 : Cert.Spec.Arr 2048 128) (x4 : Cert.Spec.Arr 272 128) (x5 : Cert.Spec.Arr1 128)
    (p : Fin 2048) (q : Fin 128) (e : Fin 16384) (d : Fin 128)
    (h0 : ∀ k, x0 (ix2 p k) = u (ix2 e k)) (h1 : ∀ k, x1 (ix2 p k) = pos (ix2 e k)) (h2 : ∀ k, x2 (ix2 p k) = v (ix2 e k))
    (h4 : ∀ r, x4 (ix2 r q) = W (ix2 r d)) (h5 : x5 (ix1 q) = b (ix1 d)) :
    (((∑ k : Fin 128, x0 (ix2 p k) * x4 (ix2 (Cert.Spec.rowU k) q)) + (∑ k : Fin 16, x1 (ix2 p k) * x4 (ix2 (Cert.Spec.rowP k) q)))
        + (∑ k : Fin 128, x2 (ix2 p k) * x4 (ix2 (Cert.Spec.rowV k) q))) + x5 (ix1 q)
      = Cert.Spec.kLin u pos v W b e d := by
  unfold Cert.Spec.kLin
  simp only [h0, h1, h2, h4, h5]

/-- The same for the attention scalar's two-band sum. -/
theorem kA_of_blocks (edge : Cert.Spec.Arr 16384 128) (pos : Cert.Spec.Arr 16384 16) (Wa : Cert.Spec.Arr 144 1) (ba : Cert.Spec.Arr1 1)
    (x1 : Cert.Spec.Arr 2048 16) (x3 : Cert.Spec.Arr 2048 128) (x8 : Cert.Spec.Arr 144 1) (x9 : Cert.Spec.Arr1 1)
    (p : Fin 2048) (e : Fin 16384)
    (h1 : ∀ k, x1 (ix2 p k) = pos (ix2 e k)) (h3 : ∀ k, x3 (ix2 p k) = edge (ix2 e k))
    (h8 : ∀ r, x8 (ix2 r (0 : Fin 1)) = Wa (ix2 r (0 : Fin 1))) (h9 : x9 (ix1 (0 : Fin 1)) = ba (ix1 (0 : Fin 1))) :
    Cert.Spec.leaky (((∑ k : Fin 128, x3 (ix2 p k) * x8 (ix2 (Cert.Spec.rowE k) (0 : Fin 1))) + (∑ k : Fin 16, x1 (ix2 p k) * x8 (ix2 (Cert.Spec.rowQ k) (0 : Fin 1))))
        + x9 (ix1 (0 : Fin 1)))
      = Cert.Spec.kA edge pos Wa ba e := by
  unfold Cert.Spec.kA
  simp only [h1, h3, h8, h9]

variable (V : (c : Dev nD) → (b : Ref sig .tc) → Buf (Elt Ideal) ((c : Thread nD τ).loc b)) (c : Dev nD)

/-! ## What a point writes back -/

/-- What point t writes back of window 10 is block t of its function of the arguments. -/
theorem flushed10_eq (t : Fin cfg0.N) :
    (dat0 V c).flushed 10 t = ((cfg0.win 10).blk t).view.read (Elt Ideal) (Cert.Spec.kEdge (V c main_arg0) (V c main_arg1) (V c main_arg3) (V c main_arg8) (V c main_arg9)) := by
  show (cfg0.win 10).cut (grid0.coords t) ((dat0 V c).after 10 t) = _
  rw [after0_10]
  refine funext fun (j : S2048x128.Idx) => ?_
  obtain ⟨p, q, rfl⟩ : ∃ (p : Fin 2048) (q : Fin 128), j = ix2 p q := ⟨j 0, j 1, eq_ix2 j⟩
  obtain ⟨e0, e1⟩ := idx0_10 t
  have hN : grid0.N = 8 := N_0
  have ht : t.val < 8 := by have h : t.val < grid0.N := t.isLt; omega
  have hp : p.val < 2048 := p.isLt
  have hq : q.val < 128 := q.isLt
  have hJ0 : ((((cfg0.win 10).blk t).view.emb (ix2 p q)) 0).val = 2048 * t.val + p.val := by
    show win0_10.index t 0 * 2048 + 1 * p.val = _; rw [e0]; omega
  have hJ1 : ((((cfg0.win 10).blk t).view.emb (ix2 p q)) 1).val = q.val := by
    show win0_10.index t 1 * 128 + 1 * q.val = _; rw [e1]; omega
  have hd : ((((cfg0.win 10).blk t).view.emb (ix2 p q)) 1 : Fin 128) = q := Fin.ext hJ1
  show out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ix2 p q)
    = Cert.Spec.leaky (Cert.Spec.kLin (V c main_arg0) (V c main_arg3) (V c main_arg1) (V c main_arg8) (V c main_arg9)
        ((((cfg0.win 10).blk t).view.emb (ix2 p q)) 0) ((((cfg0.win 10).blk t).view.emb (ix2 p q)) 1))
  refine (out10_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p q).trans (congrArg Cert.Spec.leaky ?_)
  refine kLin_of_blocks (V c main_arg0) (V c main_arg3) (V c main_arg1) (V c main_arg8) (V c main_arg9)
    (iblk0 V c 0 t) (iblk0 V c 1 t) (iblk0 V c 2 t) (iblk0 V c 4 t) (iblk0 V c 5 t) p q
    ((((cfg0.win 10).blk t).view.emb (ix2 p q)) 0) ((((cfg0.win 10).blk t).view.emb (ix2 p q)) 1)
    (fun k => iblk0_0_apply V c t (ix2 p k) (ix2 ((((cfg0.win 10).blk t).view.emb (ix2 p q)) 0) k) hJ0 rfl)
    (fun k => iblk0_1_apply V c t (ix2 p k) (ix2 ((((cfg0.win 10).blk t).view.emb (ix2 p q)) 0) k) hJ0 rfl)
    (fun k => iblk0_2_apply V c t (ix2 p k) (ix2 ((((cfg0.win 10).blk t).view.emb (ix2 p q)) 0) k) hJ0 rfl)
    (fun r => ?_) ?_
  · rw [hd]; exact congrFun (iblk0_4_eq V c t) (ix2 r q)
  · rw [hd]; exact congrFun (iblk0_5_eq V c t) (ix1 q)

/-- What point t writes back of window 11 is block t of its function of the arguments. -/
theorem flushed11_eq (t : Fin cfg0.N) :
    (dat0 V c).flushed 11 t = ((cfg0.win 11).blk t).view.read (Elt Ideal) (fun j => Cert.Spec.leaky (Cert.Spec.kLin (V c main_arg0) (V c main_arg3) (V c main_arg1) (V c main_arg6) (V c main_arg7) (j 0) (j 1))) := by
  show (cfg0.win 11).cut (grid0.coords t) ((dat0 V c).after 11 t) = _
  rw [after0_11]
  refine funext fun (j : S2048x128.Idx) => ?_
  obtain ⟨p, q, rfl⟩ : ∃ (p : Fin 2048) (q : Fin 128), j = ix2 p q := ⟨j 0, j 1, eq_ix2 j⟩
  obtain ⟨e0, e1⟩ := idx0_11 t
  have hN : grid0.N = 8 := N_0
  have ht : t.val < 8 := by have h : t.val < grid0.N := t.isLt; omega
  have hp : p.val < 2048 := p.isLt
  have hq : q.val < 128 := q.isLt
  have hJ0 : ((((cfg0.win 11).blk t).view.emb (ix2 p q)) 0).val = 2048 * t.val + p.val := by
    show win0_11.index t 0 * 2048 + 1 * p.val = _; rw [e0]; omega
  have hJ1 : ((((cfg0.win 11).blk t).view.emb (ix2 p q)) 1).val = q.val := by
    show win0_11.index t 1 * 128 + 1 * q.val = _; rw [e1]; omega
  have hd : ((((cfg0.win 11).blk t).view.emb (ix2 p q)) 1 : Fin 128) = q := Fin.ext hJ1
  show out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ix2 p q)
    = Cert.Spec.leaky (Cert.Spec.kLin (V c main_arg0) (V c main_arg3) (V c main_arg1) (V c main_arg6) (V c main_arg7)
        ((((cfg0.win 11).blk t).view.emb (ix2 p q)) 0) ((((cfg0.win 11).blk t).view.emb (ix2 p q)) 1))
  refine (out11_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p q).trans (congrArg Cert.Spec.leaky ?_)
  refine kLin_of_blocks (V c main_arg0) (V c main_arg3) (V c main_arg1) (V c main_arg6) (V c main_arg7)
    (iblk0 V c 0 t) (iblk0 V c 1 t) (iblk0 V c 2 t) (iblk0 V c 6 t) (iblk0 V c 7 t) p q
    ((((cfg0.win 11).blk t).view.emb (ix2 p q)) 0) ((((cfg0.win 11).blk t).view.emb (ix2 p q)) 1)
    (fun k => iblk0_0_apply V c t (ix2 p k) (ix2 ((((cfg0.win 11).blk t).view.emb (ix2 p q)) 0) k) hJ0 rfl)
    (fun k => iblk0_1_apply V c t (ix2 p k) (ix2 ((((cfg0.win 11).blk t).view.emb (ix2 p q)) 0) k) hJ0 rfl)
    (fun k => iblk0_2_apply V c t (ix2 p k) (ix2 ((((cfg0.win 11).blk t).view.emb (ix2 p q)) 0) k) hJ0 rfl)
    (fun r => ?_) ?_
  · rw [hd]; exact congrFun (iblk0_6_eq V c t) (ix2 r q)
  · rw [hd]; exact congrFun (iblk0_7_eq V c t) (ix1 q)

/-- What point t writes back of window 12 is block t of the attention scalars of the arguments. -/
theorem flushed12_eq (t : Fin cfg0.N) :
    (dat0 V c).flushed 12 t = ((cfg0.win 12).blk t).view.read (Elt Ideal) (fun j => Cert.Spec.kA (V c main_arg2) (V c main_arg3) (V c main_arg10) (V c main_arg11) (j 0)) := by
  show (cfg0.win 12).cut (grid0.coords t) ((dat0 V c).after 12 t) = _
  rw [after0_12]
  refine funext fun (j : S2048x1.Idx) => ?_
  obtain ⟨p, q, rfl⟩ : ∃ (p : Fin 2048) (q : Fin 1), j = ix2 p q := ⟨j 0, j 1, eq_ix2 j⟩
  obtain rfl : q = 0 := Subsingleton.elim _ _
  obtain ⟨e0, e1⟩ := idx0_12 t
  have hN : grid0.N = 8 := N_0
  have ht : t.val < 8 := by have h : t.val < grid0.N := t.isLt; omega
  have hp : p.val < 2048 := p.isLt
  have hJ0 : ((((cfg0.win 12).blk t).view.emb (ix2 p (0 : Fin 1))) 0).val = 2048 * t.val + p.val := by
    show win0_12.index t 0 * 2048 + 1 * p.val = _; rw [e0]; omega
  show out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ix2 p (0 : Fin 1))
    = Cert.Spec.kA (V c main_arg2) (V c main_arg3) (V c main_arg10) (V c main_arg11)
        ((((cfg0.win 12).blk t).view.emb (ix2 p (0 : Fin 1))) 0)
  refine (out12_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p (0 : Fin 1)).trans ?_
  exact kA_of_blocks (V c main_arg2) (V c main_arg3) (V c main_arg10) (V c main_arg11)
    (iblk0 V c 1 t) (iblk0 V c 3 t) (iblk0 V c 8 t) (iblk0 V c 9 t) p
    ((((cfg0.win 12).blk t).view.emb (ix2 p (0 : Fin 1))) 0)
    (fun k => iblk0_1_apply V c t (ix2 p k) (ix2 ((((cfg0.win 12).blk t).view.emb (ix2 p (0 : Fin 1))) 0) k) hJ0 rfl)
    (fun k => iblk0_3_apply V c t (ix2 p k) (ix2 ((((cfg0.win 12).blk t).view.emb (ix2 p (0 : Fin 1))) 0) k) hJ0 rfl)
    (fun r => congrFun (iblk0_8_eq V c t) (ix2 r (0 : Fin 1)))
    (congrFun (iblk0_9_eq V c t) (ix1 (0 : Fin 1)))

/-! ## The arrays after the region -/

/-- The new edge features: the rectified three-band sum against W_e, b_e. -/
theorem final0_10 : (dat0 V c).arrAt 10 cfg0.N = Cert.Spec.kEdge (V c main_arg0) (V c main_arg1) (V c main_arg3) (V c main_arg8) (V c main_arg9) :=
  (dat0 V c).arrAt_eq_of_cover 10 _ (fun t _ => flushed10_eq V c t) cover0_blk10

/-- The neighbour features: the rectified three-band sum against W_lin, b_lin. -/
theorem final0_11 : (dat0 V c).arrAt 11 cfg0.N = fun j => Cert.Spec.leaky (Cert.Spec.kLin (V c main_arg0) (V c main_arg3) (V c main_arg1) (V c main_arg6) (V c main_arg7) (j 0) (j 1)) :=
  (dat0 V c).arrAt_eq_of_cover 11 _ (fun t _ => flushed11_eq V c t) cover0_blk11

/-- The attention scalars. -/
theorem final0_12 : (dat0 V c).arrAt 12 cfg0.N = fun j => Cert.Spec.kA (V c main_arg2) (V c main_arg3) (V c main_arg10) (V c main_arg11) (j 0) :=
  (dat0 V c).arrAt_eq_of_cover 12 _ (fun t _ => flushed12_eq V c t) cover0_blk12

end Cert.KernelIdeal.Hand

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.Value1Ops.lean ====
/-
  The payloads of one grid point of the streaming softmax kernel, read at an index at the ideal values.

  For a row `r` of the 512 of a band and an edge `e` of the 2048 of a tile the logit is
  `x0 (r, e) * x2 (0, e) + x1 (r, e)`; the new running maximum of row `r` is the maximum of the old one and of the
  supremum of the row's logits over the tile; the correction is `exp (old - new)`; the tile's weights are
  `exp (logit - new)`; the normaliser takes their sum and the weighted sum takes their product with the tile's
  rows of the neighbour features. The last tile divides the weighted sum by the normaliser and applies the
  exponential-linear unit.
-/
import proofs.«124032_j64046552318003_2_alg».proof.Proof.Defs1
import proofs.«124032_j64046552318003_2_alg».proof.Proof.Spec
import proofs.«124032_j64046552318003_2_alg».proof.Proof.LibKeepdims
import proofs.«124032_j64046552318003_2_alg».proof.Proof.LibMatmul
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.KernelIdeal.Gen

namespace R1

/-! ## Words and folds -/

/-- A fold of `max` from `⊥` over all of a finite type is the supremum. -/
theorem fold_max_bot_eq_sup {ι : Type} [Fintype ι] (f : ι → EReal) :
    (Finset.univ : Finset ι).fold max ⊥ f = Finset.univ.sup f := rfl

/-- The word the maximum reduction starts from denotes `⊥`. -/
theorem ofBits_negInf : Ideal.ofBits .f32 0xFF800000#32 = (⊥ : EReal) := by
  simp [Ideal.ofBits, Ideal.ieee]

/-- The row index `r` with the edge `e` inserted on the reduced axis is `(r, e)`. -/
theorem lift_ix (r : Fin 512) (e : Fin 2048) : reduces_S512x2048_S512.lift (ix1 r) e = ix2 r e := by
  funext a
  match a with
  | ⟨0, _⟩ => rfl
  | ⟨1, _⟩ => rfl

/-- The maximum reduction over the edges of a tile, at row `r`: the supremum over the 2048 edges. -/
theorem redmax_apply (src : FVec Ideal S512x2048 .f32) (hφ : FKind.Formats .f32)
    (hacc : (0xFF800000#32 : BitVec 32) = 0xFF800000#32) (r : Fin 512) :
    multiReduction .maximumf [1] S512 src 0xFF800000#32 reduces_S512x2048_S512 hφ hacc (ix1 r)
      = Finset.univ.sup fun e : Fin 2048 => src (ix2 r e) := by
  refine (Ideal.multiReduction_maximumf_single src 0xFF800000#32 reduces_S512x2048_S512 hφ hacc (ix1 r)).trans ?_
  have h2 : (src ∘ reduces_S512x2048_S512.lift (ix1 r)) = fun e : Fin 2048 => src (ix2 r e) :=
    funext fun e => congrArg src (lift_ix r e)
  show Finset.fold max (Ideal.ofBits .f32 0xFF800000#32) (src ∘ reduces_S512x2048_S512.lift (ix1 r)) Finset.univ = _
  rw [ofBits_negInf, h2]
  rfl

/-- The sum reduction over the edges of a tile, at row `r`: the sum over the 2048 edges. -/
theorem redadd_apply (src : FVec Ideal S512x2048 .f32) (hφ : FKind.Formats .f32)
    (hacc : (0x00000000#32 : BitVec 32) = 0x00000000#32) (r : Fin 512) :
    multiReduction .add [1] S512 src 0x00000000#32 reduces_S512x2048_S512 hφ hacc (ix1 r)
      = ∑ e : Fin 2048, src (ix2 r e) := by
  refine (Ideal.multiReduction_add_single src 0x00000000#32 reduces_S512x2048_S512 hφ hacc (ix1 r)).trans ?_
  exact Finset.sum_congr rfl fun e _ => congrArg src (lift_ix r e)

/-! ## The payloads at an index -/

section Ops

variable (x0 x1 : Vec Ideal S512x2048 .f32) (x2 : Vec Ideal S1x2048 .f32) (m m' l : Vec Ideal S512x1 .f32)

/-- The logit of row `r` at edge `e` of the tile. -/
def tLogit (r : Fin 512) (e : Fin 2048) : EReal := x0 (ix2 r e) * x2 (ix2 (0 : Fin 1) e) + x1 (ix2 r e)

/-- The running maximum of row `r` after the tile. -/
def mNew (r : Fin 512) : EReal := max (m (ix2 r (0 : Fin 1))) (Finset.univ.sup fun e : Fin 2048 => tLogit x0 x1 x2 r e)

/-- The exponential of a vector at an index. -/
theorem exp_apply {s : Shape} {φ : FTy} (a : FVec Ideal s φ) (i : s.Idx) : exp a i = Ideal.exp (a i) := rfl

theorem pay7_apply (r : Fin 512) (e : Fin 2048) : k1_pay7 x0 x1 x2 (ix2 r e) = tLogit x0 x1 x2 r e := by
  unfold k1_pay7 tLogit
  show x0 (ix2 r e) * broadcastTo S512x2048 (shapeCast S1x2048 x2 _) _ (ix2 r e) + x1 (ix2 r e) = _
  rw [shapeCast_self]
  rw [broadcastTo_1b_ab_apply]

theorem pay8_apply (r : Fin 512) : k1_pay8 x0 x1 x2 m (ix2 r (0 : Fin 1)) = mNew x0 x1 x2 m r := by
  unfold k1_pay8 mNew
  refine (maximumf_apply m _ (ix2 r (0 : Fin 1))).trans ?_
  refine congrArg (max (m (ix2 r (0 : Fin 1)))) ?_
  refine (Keepdims.shapeCast_a_a1_apply _ shapeCasts_S512_S512x1 r (0 : Fin 1)).trans ?_
  refine (redmax_apply _ _ _ r).trans ?_
  exact congrArg (Finset.sup Finset.univ) (funext fun e => pay7_apply x0 x1 x2 r e)

theorem pay9_apply (r : Fin 512) :
    k1_pay9 x0 x1 x2 m m' (ix2 r (0 : Fin 1)) = Ideal.exp (m' (ix2 r (0 : Fin 1)) - mNew x0 x1 x2 m r) := by
  unfold k1_pay9
  refine (exp_apply _ _).trans ?_
  refine congrArg Ideal.exp ?_
  refine (subf_apply m' _ _).trans ?_
  exact congrArg (m' (ix2 r (0 : Fin 1)) - ·) (pay8_apply x0 x1 x2 m r)

theorem pay10_apply (r : Fin 512) (e : Fin 2048) :
    k1_pay10 x0 x1 x2 m (ix2 r e) = Ideal.exp (tLogit x0 x1 x2 r e - mNew x0 x1 x2 m r) := by
  unfold k1_pay10
  refine (exp_apply _ _).trans ?_
  refine congrArg Ideal.exp ?_
  refine (subf_apply _ _ _).trans ?_
  refine congrArg₂ (· - ·) (pay7_apply x0 x1 x2 r e) ?_
  exact (Keepdims.broadcastTo_a1_ab_apply _ broadcasts_S512x1_S512x2048 r e (0 : Fin 1)).trans (pay8_apply x0 x1 x2 m r)

theorem pay11_apply (r : Fin 512) :
    k1_pay11 x0 x1 x2 m m' l (ix2 r (0 : Fin 1))
      = Ideal.exp (m' (ix2 r (0 : Fin 1)) - mNew x0 x1 x2 m r) * l (ix2 r (0 : Fin 1))
        + ∑ e : Fin 2048, Ideal.exp (tLogit x0 x1 x2 r e - mNew x0 x1 x2 m r) := by
  unfold k1_pay11
  refine (congrFun (shapeCast_self _ shapeCasts_S512x1_S512x1) _).trans ?_
  refine (addf_apply _ _ _).trans ?_
  refine congrArg₂ (· + ·) ?_ ?_
  · refine (mulf_apply _ l _).trans ?_
    exact congrArg (· * l (ix2 r (0 : Fin 1))) (pay9_apply x0 x1 x2 m m' r)
  · refine (Keepdims.shapeCast_a_a1_apply _ shapeCasts_S512_S512x1 r (0 : Fin 1)).trans ?_
    refine (redadd_apply _ _ _ r).trans ?_
    exact Finset.sum_congr rfl fun e _ => pay10_apply x0 x1 x2 m r e

/-- The kernel's dimension numbers are the plain matrix product's. -/
theorem dot_eq_plain : dot_S512x2048_S2048x128_S512x128_1_0_0_1_n_n = DotDims.plain 512 2048 128 := rfl

theorem pay12_apply (nb : FVec Ideal S2048x128 .bf16) (r : Fin 512) (d : Fin 128) :
    k1_pay12 x0 x1 x2 m nb (ix2 r d)
      = ∑ e : Fin 2048, Ideal.exp (tLogit x0 x1 x2 r e - mNew x0 x1 x2 m r) * nb (ix2 e d) := by
  unfold k1_pay12
  rw [dot_eq_plain]
  refine (Cert.MatOps.matmul_plain_zero_apply none _ _ r d).trans ?_
  refine Finset.sum_congr rfl fun e _ => ?_
  refine congrArg₂ (· * ·) ?_ ?_
  · exact (truncf_apply _ bitsLt_bf16_f32 _).trans (pay10_apply x0 x1 x2 m r e)
  · exact congrFun (shapeCast_self nb shapeCasts_S2048x128_S2048x128) _

end Ops

/-- The rescaled weighted sum plus the tile's. -/
theorem pay1_apply (c : FVec Ideal S512x1 .f32) (pv : FVec Ideal S512x128 .f32) (acc : Vec Ideal S512x128 .f32)
    (r : Fin 512) (d : Fin 128) :
    k1_pay1 c pv acc (ix2 r d) = c (ix2 r (0 : Fin 1)) * acc (ix2 r d) + pv (ix2 r d) := by
  unfold k1_pay1
  refine (congrFun (shapeCast_self _ shapeCasts_S512x128_S512x128) _).trans ?_
  refine (addf_apply _ pv _).trans ?_
  refine congrArg (· + pv (ix2 r d)) ?_
  refine (mulf_apply _ acc _).trans ?_
  exact congrArg (· * acc (ix2 r d)) (Keepdims.broadcastTo_a1_ab_apply c broadcasts_S512x1_S512x128 r d (0 : Fin 1))

/-- The last tile's output: the exponential-linear unit of the weighted sum over the normaliser. -/
theorem pay3_apply (acc : Vec Ideal S512x128 .f32) (l : Vec Ideal S512x1 .f32) (r : Fin 512) (d : Fin 128) :
    k1_pay3 acc l (ix2 r d) = Spec.kElu (Ideal.div (acc (ix2 r d)) (l (ix2 r (0 : Fin 1)))) := by
  have h : divf (F := Ideal) (φ := .f32) acc (broadcastTo S512x128 l broadcasts_S512x1_S512x128) (ix2 r d)
      = Ideal.div (acc (ix2 r d)) (l (ix2 r (0 : Fin 1))) := by
    refine (divf_apply acc _ _).trans ?_
    exact congrArg (Ideal.div (acc (ix2 r d))) (Keepdims.broadcastTo_a1_ab_apply l broadcasts_S512x1_S512x128 r d (0 : Fin 1))
  unfold k1_pay3
  refine (select_apply _ _ _ _).trans ?_
  rw [← h]
  rfl

/-- The reset contents: the stand-in for minus infinity, zero, zero. -/
theorem pay4_apply (r : Fin 512) : (k1_pay4 (F := Ideal)) (ix2 r (0 : Fin 1)) = Spec.negBig := by
  unfold k1_pay4
  exact (congrFun (shapeCast_self _ shapeCasts_S512x1_S512x1) _).trans rfl

theorem pay5_apply (r : Fin 512) : (k1_pay5 (F := Ideal)) (ix2 r (0 : Fin 1)) = Spec.zero32 := by
  unfold k1_pay5
  exact (congrFun (shapeCast_self _ shapeCasts_S512x1_S512x1) _).trans rfl

theorem pay6_apply (r : Fin 512) (d : Fin 128) : (k1_pay6 (F := Ideal)) (ix2 r d) = Spec.zero32 := by
  unfold k1_pay6
  exact (congrFun (shapeCast_self _ shapeCasts_S512x128_S512x128) _).trans rfl

theorem pay2_eq (v : FVec Ideal S512x1 .f32) : k1_pay2 v = v := by
  unfold k1_pay2
  exact shapeCast_self _ _

end R1

end Cert.KernelIdeal.Hand
-- ==== Proof.Value1Step.lean ====
/-
  One tile of the streaming softmax on the three scalars of a row and an output column — the running maximum, the
  running normaliser, the running weighted sum — is one step of the specification's recurrence: when the tile's logits
  of the row are the row's logits at the tile's edges and the tile's rows of the neighbour features are the column's
  entries at those edges. The reset contents are the recurrence's initial state.
-/
import proofs.«124032_j64046552318003_2_alg».proof.Proof.Value1Ops

noncomputable section

open scoped BigOperators

namespace Cert.KernelIdeal.Hand

open Idealize.ShloMosaic Idealize.ShloMosaic.ValueIdx Cert.KernelIdeal Cert.KernelIdeal.Gen

namespace R1

/-- The three scalars of row `r` and column `d` in the scratch contents. -/
def scal (s : Step1.St Ideal) (r : Fin 512) (d : Fin 128) : Spec.OS :=
  (s.m (ix2 r (0 : Fin 1)), s.l (ix2 r (0 : Fin 1)), s.acc (ix2 r d))

/-- After the reset they are the initial state. -/
theorem scal_reset (r : Fin 512) (d : Fin 128) : scal Step1.reset r d = Spec.osInit := by
  unfold scal Spec.osInit
  exact congrArg₂ Prod.mk (pay4_apply r) (congrArg₂ Prod.mk (pay5_apply r) (pay6_apply r d))

section Step

variable (x0 x1 : Vec Ideal S512x2048 .f32) (x2 : Vec Ideal S1x2048 .f32) (nb : Vec Ideal S2048x128 .bf16) (s : Step1.St Ideal)

theorem step_m (r : Fin 512) : (Step1.step x0 x1 x2 nb s).m (ix2 r (0 : Fin 1)) = mNew x0 x1 x2 s.m r := by
  show k1_pay2 (k1_pay8 x0 x1 x2 s.m) (ix2 r (0 : Fin 1)) = _
  rw [pay2_eq]
  exact pay8_apply x0 x1 x2 s.m r

theorem step_l (r : Fin 512) : (Step1.step x0 x1 x2 nb s).l (ix2 r (0 : Fin 1))
    = Ideal.exp (s.m (ix2 r (0 : Fin 1)) - mNew x0 x1 x2 s.m r) * s.l (ix2 r (0 : Fin 1))
      + ∑ e : Fin 2048, Ideal.exp (tLogit x0 x1 x2 r e - mNew x0 x1 x2 s.m r) :=
  pay11_apply x0 x1 x2 s.m s.m s.l r

theorem step_acc (r : Fin 512) (d : Fin 128) : (Step1.step x0 x1 x2 nb s).acc (ix2 r d)
    = Ideal.exp (s.m (ix2 r (0 : Fin 1)) - mNew x0 x1 x2 s.m r) * s.acc (ix2 r d)
      + ∑ e : Fin 2048, Ideal.exp (tLogit x0 x1 x2 r e - mNew x0 x1 x2 s.m r) * nb (ix2 e d) := by
  show k1_pay1 (k1_pay9 x0 x1 x2 s.m s.m) (k1_pay12 x0 x1 x2 s.m nb) s.acc (ix2 r d) = _
  rw [pay1_apply, pay9_apply, pay12_apply]

/-- One tile is one step of the recurrence. -/
theorem scal_step (sf nbf : Fin 16384 → EReal) (j : Fin 8) (r : Fin 512) (d : Fin 128)
    (hs : ∀ e : Fin 2048, tLogit x0 x1 x2 r e = sf (Spec.tileIdx j e))
    (hnb : ∀ e : Fin 2048, nb (ix2 e d) = nbf (Spec.tileIdx j e)) :
    scal (Step1.step x0 x1 x2 nb s) r d = Spec.osStep sf nbf j (scal s r d) := by
  have hM : mNew x0 x1 x2 s.m r
      = max (s.m (ix2 r (0 : Fin 1))) (Finset.univ.sup fun e : Fin 2048 => sf (Spec.tileIdx j e)) := by
    unfold mNew
    exact congrArg (max (s.m (ix2 r (0 : Fin 1)))) (congrArg (Finset.sup Finset.univ) (funext hs))
  unfold scal Spec.osStep
  refine congrArg₂ Prod.mk ((step_m x0 x1 x2 nb s r).trans hM) (congrArg₂ Prod.mk ?_ ?_)
  · rw [step_l, hM]
    exact congrArg (_ + ·) (Finset.sum_congr rfl fun e _ => by rw [hs e])
  · rw [step_acc, hM]
    exact congrArg (_ + ·) (Finset.sum_congr rfl fun e _ => by rw [hs e, hnb e])

end Step

/-! ## The recurrence's own equations -/

theorem osRun_succ (sf nbf : Fin 16384 → EReal) (k : ℕ) (h : k + 1 ≤ 8) :
    Spec.osRun sf nbf (k + 1) h = Spec.osStep sf nbf ⟨k, by omega⟩ (Spec.osRun sf nbf k (by omega)) := rfl

theorem osRun_congr (sf nbf : Fin 16384 → EReal) {k k' : ℕ} (e : k = k') (h : k ≤ 8) (h' : k' ≤ 8) :
    Spec.osRun sf nbf k h = Spec.osRun sf nbf k' h' := by
  subst e; rfl

end R1

end Cert.KernelIdeal.Hand
-- ==== Proof.Blocks1.lean ====
import proofs.«124032_j64046552318003_2_alg».proof.Proof.Defs1
import proofs.«124032_j64046552318003_2_alg».proof.Proof.Gen.KernelIdeal.Launch
import proofs.«124032_j64046552318003_2_alg».proof.Proof.Gen.KernelIdeal.Points
import Idealize.ShloMosaic.Lib.Pipeline.Value
import Idealize.ShloMosaic.Lib.ValueIdx

/-!
  Where the node layer's blocks sit in their arrays. The grid has 128 points, 16 row bands of 512 nodes by 8 tiles
  of 2048 edges; point t is tile t % 8 of band t / 8. The matrix and mask blocks are rows 512 (t / 8) … by columns
  2048 (t % 8) … of their arrays; the attention row's block is columns 2048 (t % 8) … of the one row; the neighbour
  features' block is the whole array, of which the point reads rows 2048 (t % 8) …; the output block is rows
  512 (t / 8) …, all columns, written back by a band's last tile only — and every row n of the output array lies in
  the block of the point 8 (n / 512) + 7.
-/

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-! ## A point's rows and columns -/

/-- Row r of point t's row band, as a row of the 8192 nodes. -/
def rowOf (t : Fin cfg1.N) (r : Fin 512) : Fin 8192 :=
  ⟨512 * (t.val / 8) + r.val, by
    have h : t.val < grid1.N := t.isLt
    have hN : grid1.N = 128 := N_1
    have := r.isLt
    omega⟩

/-- Edge e of point t's tile, as one of the 16384 edges. -/
def colOf (t : Fin cfg1.N) (e : Fin 2048) : Fin 16384 :=
  ⟨2048 * (t.val % 8) + e.val, by have := e.isLt; omega⟩

theorem rowOf_val (t : Fin cfg1.N) (r : Fin 512) : (rowOf t r).val = 512 * (t.val / 8) + r.val := rfl
theorem colOf_val (t : Fin cfg1.N) (e : Fin 2048) : (colOf t e).val = 2048 * (t.val % 8) + e.val := rfl

/-! ## The printed index maps and the tile's offset, decided over the grid -/

theorem idx1_0 : ∀ t : Fin cfg1.N, win1_0.index t (0 : Fin 2) = t.val / 8 ∧ win1_0.index t (1 : Fin 2) = t.val % 8 :=
  (by decide +kernel : ∀ t : Fin grid1.N, _)
theorem idx1_1 : ∀ t : Fin cfg1.N, win1_1.index t (0 : Fin 2) = t.val / 8 ∧ win1_1.index t (1 : Fin 2) = t.val % 8 :=
  (by decide +kernel : ∀ t : Fin grid1.N, _)
theorem idx1_2 : ∀ t : Fin cfg1.N, win1_2.index t (0 : Fin 2) = 0 ∧ win1_2.index t (1 : Fin 2) = t.val % 8 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = t.val / 8 ∧ win1_4.index t (1 : Fin 2) = 0 :=
  (by decide +kernel : ∀ t : Fin grid1.N, _)
theorem off1_tile : ∀ t : Fin cfg1.N, k1_off1 (grid1.coords t) (0 : Fin 2) = 2048 * (t.val % 8) ∧ k1_off1 (grid1.coords t) (1 : Fin 2) = 0 :=
  (by decide +kernel : ∀ t : Fin grid1.N, _)

variable (c : Dev nD) (t : Fin cfg1.N)

/-! ## The input blocks read at an index -/

/-- The matrix block at (r, e) is the matrix at (row r of the band, edge e of the tile). -/
theorem iblk1_0_apply (r : Fin 512) (e : Fin 2048) :
    (iblk1 V c 0 t : Vec F S512x2048 .f32) (ix2 r e) = (V c main_arg4 : S8192x16384.Idx → Elt F .f32) (ix2 (rowOf t r) (colOf t e)) := by
  obtain ⟨h0, h1⟩ := idx1_0 t
  unfold iblk1
  rw [View.read_apply]
  show V c main_arg4 _ = V c main_arg4 _
  congr 1
  funext a
  apply Fin.ext
  match a with
  | ⟨0, _⟩ => show win1_0.index t 0 * 512 + 1 * r.val = 512 * (t.val / 8) + r.val; rw [h0]; omega
  | ⟨1, _⟩ => show win1_0.index t 1 * 2048 + 1 * e.val = 2048 * (t.val % 8) + e.val; rw [h1]; omega

/-- The mask block likewise. -/
theorem iblk1_1_apply (r : Fin 512) (e : Fin 2048) :
    (iblk1 V c 1 t : Vec F S512x2048 .f32) (ix2 r e) = (V c main_arg5 : S8192x16384.Idx → Elt F .f32) (ix2 (rowOf t r) (colOf t e)) := by
  obtain ⟨h0, h1⟩ := idx1_1 t
  unfold iblk1
  rw [View.read_apply]
  show V c main_arg5 _ = V c main_arg5 _
  congr 1
  funext a
  apply Fin.ext
  match a with
  | ⟨0, _⟩ => show win1_1.index t 0 * 512 + 1 * r.val = 512 * (t.val / 8) + r.val; rw [h0]; omega
  | ⟨1, _⟩ => show win1_1.index t 1 * 2048 + 1 * e.val = 2048 * (t.val % 8) + e.val; rw [h1]; omega

/-- The attention row's block at (0, e) is the row at edge e of the tile. -/
theorem iblk1_2_apply (e : Fin 2048) :
    (iblk1 V c 2 t : Vec F S1x2048 .f32) (ix2 (0 : Fin 1) e) = (V c main_v1 : S1x16384.Idx → Elt F .f32) (ix2 (0 : Fin 1) (colOf t e)) := by
  obtain ⟨h0, h1⟩ := idx1_2 t
  unfold iblk1
  rw [View.read_apply]
  show V c main_v1 _ = V c main_v1 _
  congr 1
  funext a
  apply Fin.ext
  match a with
  | ⟨0, _⟩ => show win1_2.index t 0 * 1 + 1 * 0 = 0; rw [h0]
  | ⟨1, _⟩ => show win1_2.index t 1 * 2048 + 1 * e.val = 2048 * (t.val % 8) + e.val; rw [h1]; omega

/-- The tile of the neighbour features at (e, d) is the array at (edge e of the tile, d). -/
theorem nbTile_apply (e : Fin 2048) (d : Fin 128) :
    nbTile V c t (ix2 e d) = (V c main_v0_1 : S16384x128.Idx → Elt F .bf16) (ix2 (colOf t e) d) := by
  obtain ⟨h0, h1⟩ := idx1_3 t
  obtain ⟨o0, o1⟩ := off1_tile t
  unfold nbTile iblk1
  show ((cfg1.win 3).blk t).view.read (Elt F) (V c (Pipeline.arrRef spec1 3))
      ((Rect.unit (s := S16384x128) (k1_off1 (grid1.coords t)) S2048x128.size (k1_off1_inb (grid1.coords t))).idx (ix2 e d)) = _
  rw [View.read_apply]
  show V c main_v0_1 _ = V c main_v0_1 _
  congr 1
  funext a
  apply Fin.ext
  match a with
  | ⟨0, _⟩ => show win1_3.index t 0 * 16384 + 1 * (k1_off1 (grid1.coords t) 0 + 1 * e.val) = 2048 * (t.val % 8) + e.val; rw [h0, o0]; omega
  | ⟨1, _⟩ => show win1_3.index t 1 * 128 + 1 * (k1_off1 (grid1.coords t) 1 + 1 * d.val) = d.val; rw [h1, o1]; omega

/-! ## The output block -/

/-- Point t's block of an [8192, 128] array, read at (r, d), is the array at (row r of the band, d). -/
theorem blk4_read (G : (⟨2, ![8192, 128]⟩ : Shape).Idx → Elt F .f32) (r : Fin 512) (d : Fin 128) :
    ((cfg1.win 4).blk t).view.read (Elt F) G (ix2 r d) = G (ix2 (rowOf t r) d) := by
  obtain ⟨h0, h1⟩ := idx1_4 t
  rw [View.read_apply]
  show G _ = G _
  congr 1
  funext a
  apply Fin.ext
  match a with
  | ⟨0, _⟩ => show win1_4.index t 0 * 512 + 1 * r.val = 512 * (t.val / 8) + r.val; rw [h0]; omega
  | ⟨1, _⟩ => show win1_4.index t 1 * 128 + 1 * d.val = d.val; rw [h1]; omega

/-- An index of the output array is in point t's block iff each coordinate is in the block's range on its axis. -/
theorem mem_blk1_4 (i : S8192x128.Idx) :
    i ∈ ((cfg1.win 4).blk t).view.set ↔ ∀ a : Fin 2, win1_4.index t a * S512x128.size a ≤ (i a).val ∧ (i a).val < win1_4.index t a * S512x128.size a + S512x128.size a := by
  show i ∈ ((View.whole main_v2).slice (win1_4.rect t)).set ↔ _
  rw [View.set_slice_whole, Rect.mem_set_unit]
  exact Iff.rfl

/-- Row n of the output array is written back by the last tile of its band, the point 8 (n / 512) + 7. -/
theorem cover1_blk4 (i : S8192x128.Idx) :
    ∃ t : Fin cfg1.N, (cfg1.win 4).flush t = true ∧ i ∈ ((cfg1.win 4).blk t).view.set := by
  have hN : grid1.N = 128 := N_1
  have hi0 : (i 0).val < 8192 := (i 0).isLt
  have hi1 : (i 1).val < 128 := (i 1).isLt
  have ht : 8 * ((i 0).val / 512) + 7 < cfg1.N := by show _ < grid1.N; omega
  obtain ⟨h0, h1⟩ := idx1_4 ⟨8 * ((i 0).val / 512) + 7, ht⟩
  refine ⟨⟨8 * ((i 0).val / 512) + 7, ht⟩, (flush1_4 _).mpr (by show (8 * ((i 0).val / 512) + 7) % 8 = 7; omega), ?_⟩
  rw [mem_blk1_4]
  intro a
  match a with
  | ⟨0, _⟩ =>
    show win1_4.index ⟨8 * ((i 0).val / 512) + 7, ht⟩ 0 * 512 ≤ (i 0).val ∧ (i 0).val < win1_4.index ⟨8 * ((i 0).val / 512) + 7, ht⟩ 0 * 512 + 512
    rw [h0]; show (8 * ((i 0).val / 512) + 7) / 8 * 512 ≤ (i 0).val ∧ (i 0).val < (8 * ((i 0).val / 512) + 7) / 8 * 512 + 512; omega
  | ⟨1, _⟩ =>
    show win1_4.index ⟨8 * ((i 0).val / 512) + 7, ht⟩ 1 * 128 ≤ (i 1).val ∧ (i 1).val < win1_4.index ⟨8 * ((i 0).val / 512) + 7, ht⟩ 1 * 128 + 128
    rw [h1]; omega

end Cert.KernelIdeal.Hand

end
-- ==== Proof.Value1Run.lean ====
/-
  The scratch contents of the node layer's kernel after each grid point, read at a row and an output column: after
  tile `j` of a row band they are the specification's streaming recurrence run over tiles `0 … j` on the row's logits
  and the column of the neighbour features — by induction on the point (a band's first tile starts from the reset
  contents, a later one from what the tile before left). At a band's last tile the stored output block is therefore
  the specification's output at the band's rows.
-/
import proofs.«124032_j64046552318003_2_alg».proof.Proof.Value1Step
import proofs.«124032_j64046552318003_2_alg».proof.Proof.Blocks1

noncomputable section

open scoped BigOperators

namespace Cert.KernelIdeal.Hand

open Idealize.ShloMosaic Idealize.ShloMosaic.ValueIdx Cert.KernelIdeal Cert.KernelIdeal.Gen

namespace R1

open Idealize.ShloMosaic.TcCoe Idealize.SL.Sem

/-- The tile of point `t`. -/
def tileOf (t : Fin cfg1.N) : Fin 8 := ⟨t.val % 8, Nat.mod_lt _ (by decide)⟩

/-- Edge `e` of the tile of point `t` is the specification's edge `e` of that tile. -/
theorem colOf_eq (t : Fin cfg1.N) (e : Fin 2048) : colOf t e = Spec.tileIdx (tileOf t) e := rfl

variable (V : (c : Dev nD) → (b : Ref sig .tc) → Buf (Elt Ideal) ((c : Thread nD τ).loc b)) (c : Dev nD)

/-- The four arrays the region is handed: the matrix, the mask, the attention scalars as one row, the neighbour
    features. -/
abbrev A0 : Spec.Arr 8192 16384 := V c main_arg4
abbrev A1 : Spec.Arr 8192 16384 := V c main_arg5
abbrev A2 : Spec.Arr 1 16384 := V c main_v1
abbrev A3 : Spec.Arr 16384 128 := V c main_v0_1

/-- The logits of node `n`. -/
def sOf (n : Fin 8192) : Fin 16384 → EReal := fun e =>
  A0 V c (ix2 n e) * A2 V c (ix2 (0 : Fin 1) e) + A1 V c (ix2 n e)

/-- Column `d` of the neighbour features. -/
def nbOf (d : Fin 128) : Fin 16384 → EReal := fun e => A3 V c (ix2 e d)

/-- The specification's output at node `n`, column `d`. -/
theorem kOutOf_apply (n : Fin 8192) (d : Fin 128) :
    Spec.kOutOf (A0 V c) (A1 V c) (A2 V c) (A3 V c) (ix2 n d) = Spec.kElu (Spec.kCtx (sOf V c n) (nbOf V c d)) := rfl

/-- One point is one step of the recurrence on the scalars of a row and a column. -/
theorem point_step (t : Fin cfg1.N) (s : Step1.St Ideal) (r : Fin 512) (d : Fin 128) :
    scal (Step1.step (iblk1 V c 0 t) (iblk1 V c 1 t) (iblk1 V c 2 t) (nbTile V c t) s) r d
      = Spec.osStep (sOf V c (rowOf t r)) (nbOf V c d) (tileOf t) (scal s r d) :=
  scal_step (iblk1 V c 0 t) (iblk1 V c 1 t) (iblk1 V c 2 t) (nbTile V c t) s (sOf V c (rowOf t r)) (nbOf V c d)
    (tileOf t) r d
    (fun e => by
      unfold tLogit sOf
      exact congrArg₂ (· + ·) (congrArg₂ (· * ·) (iblk1_0_apply V c t r e) (iblk1_2_apply V c t e)) (iblk1_1_apply V c t r e))
    (fun e => nbTile_apply V c t e d)

/-- A step from the run over the tiles before tile `j` is the run over the tiles up to `j`. -/
theorem osStep_run (sf nbf : Fin 16384 → EReal) (j : Fin 8) (k : ℕ) (hk : k ≤ 8) (e : k = j.val) :
    Spec.osStep sf nbf j (Spec.osRun sf nbf k hk) = Spec.osRun sf nbf (j.val + 1) (by have := j.isLt; omega) := by
  subst e
  cases j
  rfl

/-- After point `n` the scalars of row `r` and column `d` are the recurrence run over the band's tiles up to the
    point's. -/
theorem scal_stAt1 : ∀ (n : ℕ) (hn : n < cfg1.N) (r : Fin 512) (d : Fin 128),
    scal (stAt1 V c n hn) r d
      = Spec.osRun (sOf V c (rowOf ⟨n, hn⟩ r)) (nbOf V c d) (n % 8 + 1) (Nat.succ_le_of_lt (Nat.mod_lt n (by decide)))
  | 0, hn, r, d => by
    show scal (Step1.step (iblk1 V c 0 ⟨0, hn⟩) (iblk1 V c 1 ⟨0, hn⟩) (iblk1 V c 2 ⟨0, hn⟩) (nbTile V c ⟨0, hn⟩) Step1.reset) r d = _
    rw [point_step, scal_reset]
    exact osStep_run _ _ (tileOf ⟨0, hn⟩) 0 (Nat.zero_le _) rfl
  | n + 1, hn, r, d => by
    show scal (Step1.step (iblk1 V c 0 ⟨n + 1, hn⟩) (iblk1 V c 1 ⟨n + 1, hn⟩) (iblk1 V c 2 ⟨n + 1, hn⟩) (nbTile V c ⟨n + 1, hn⟩)
      (if (n + 1) % 8 = 0 then Step1.reset else stAt1 V c n (Nat.lt_of_succ_lt hn))) r d = _
    rw [point_step]
    by_cases h : (n + 1) % 8 = 0
    · rw [if_pos h, scal_reset]
      exact osStep_run _ _ (tileOf ⟨n + 1, hn⟩) 0 (Nat.zero_le _) h.symm
    · rw [if_neg h, scal_stAt1 n (Nat.lt_of_succ_lt hn) r d]
      have hrow : rowOf ⟨n, Nat.lt_of_succ_lt hn⟩ r = rowOf ⟨n + 1, hn⟩ r := Fin.ext (by
        show 512 * (n / 8) + r.val = 512 * ((n + 1) / 8) + r.val
        omega)
      rw [hrow]
      exact osStep_run _ _ (tileOf ⟨n + 1, hn⟩) (n % 8 + 1) _ (by show n % 8 + 1 = (n + 1) % 8; omega)

/-- At a band's last tile the stored output block holds the specification's output at the band's rows. -/
theorem out_apply (t : Fin cfg1.N) (ht : t.val % 8 = 7) (r : Fin 512) (d : Fin 128) :
    Step1.out (stAt1 V c t.val t.isLt) (ix2 r d)
      = Spec.kOutOf (A0 V c) (A1 V c) (A2 V c) (A3 V c) (ix2 (rowOf t r) d) := by
  rw [kOutOf_apply]
  show k1_pay3 (stAt1 V c t.val t.isLt).acc (stAt1 V c t.val t.isLt).l (ix2 r d) = _
  rw [pay3_apply]
  have hs := scal_stAt1 V c t.val t.isLt r d
  have hrun : Spec.osRun (sOf V c (rowOf ⟨t.val, t.isLt⟩ r)) (nbOf V c d) (t.val % 8 + 1)
        (Nat.succ_le_of_lt (Nat.mod_lt t.val (by decide)))
      = Spec.osRun (sOf V c (rowOf t r)) (nbOf V c d) 8 le_rfl :=
    osRun_congr _ _ (by omega) _ _
  rw [hrun] at hs
  unfold Spec.kCtx
  rw [← hs]
  rfl

end R1

end Cert.KernelIdeal.Hand
-- ==== Proof.Final1.lean ====
import proofs.«124032_j64046552318003_2_alg».proof.Proof.Blocks1
import proofs.«124032_j64046552318003_2_alg».proof.Proof.Spec
import Idealize.ShloMosaic.Lib.Pipeline.Value
import Idealize.ShloMosaic.Lib.Pipeline.RegionsLoop
import Idealize.ShloMosaic.Lib.Ring

/-!
  The node layer's output array from its blocks, over the extended reals: for any proof data of the node layer's
  pipeline whose body leaves in the output window, at every point, the output block of the scratch contents after
  that point, if at the last tile of every row band that block is the band's block of one function G of the whole
  array, then the array ends holding G — the sixteen last tiles' blocks cover it.
-/

set_option maxRecDepth 16384

noncomputable section

namespace Cert.KernelIdeal.Hand

open Idealize.ShloMosaic Idealize.ShloMosaic.TcCoe Idealize.ShloMosaic.ValueIdx
open Idealize.SL Idealize.SL.RA Idealize.SL.Sem
open Idealize.ShloMosaic.Rounds
open Idealize.ShloMosaic.Pipeline (Dat Cfg Window)
open Cert.KernelIdeal Cert.KernelIdeal.Gen

variable (V : (c : Dev nD) → (b : Ref sig .tc) → Buf (Elt Ideal) ((c : Thread nD τ).loc b))

/-- The output array after the node layer's region, from its last tiles' blocks. -/
theorem final1_4_of (c : Dev nD) (dat : Dat τ (Elt Ideal) Unit ℕ (UR sig nD τ) ℕ cfg1 c)
    (hA : ∀ w, dat.A w = V c (Pipeline.arrRef spec1 w))
    (hafter : ∀ t : Fin cfg1.N, dat.after 4 t = Step1.out (stAt1 V c t.val t.isLt))
    (G : Cert.Spec.Arr 8192 128)
    (hblock : ∀ t : Fin cfg1.N, t.val % 8 = 7 →
      Step1.out (stAt1 V c t.val t.isLt) = ((cfg1.win 4).blk t).view.read (Elt Ideal) G) :
    dat.arrAt 4 cfg1.N = G :=
  dat.arrAt_eq_of_cover 4 G (fun t hf => by
    show (cfg1.win 4).cut (grid1.coords t) (dat.after 4 t) = _
    rw [hafter]
    exact hblock t ((flush1_4 t).mp hf)) cover1_blk4

end Cert.KernelIdeal.Hand

end
-- ==== Proof.Value1.lean ====
/-
  The node layer's kernel, its value: the output block the last tile of a row band stores is that band's block of the
  specification's output array, and so the output array after the region is the specification's function of the four
  arrays the region is handed.
-/
import proofs.«124032_j64046552318003_2_alg».proof.Proof.Value1Run
import proofs.«124032_j64046552318003_2_alg».proof.Proof.Final1
import Idealize.ShloMosaic.Lib.Pipeline.FrameBody
import Idealize.ShloMosaic.Lib.Pipeline.Value

noncomputable section

open scoped BigOperators

namespace Cert.KernelIdeal.Hand

open Idealize.ShloMosaic Idealize.ShloMosaic.ValueIdx Cert.KernelIdeal Cert.KernelIdeal.Gen
open R1

open Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The specification's output array from the four arrays the region is handed. -/
abbrev G1 : Cert.Spec.Arr 8192 128 :=
  Cert.Spec.kOutOf (V c main_arg4) (V c main_arg5) (V c main_v1) (V c main_v0_1)

/-- The block the last tile of a row band stores is that band's block of the specification's output. -/
theorem out_block (t : Fin cfg1.N) (ht : t.val % 8 = 7) :
    Step1.out (stAt1 V c t.val t.isLt) = ((cfg1.win 4).blk t).view.read (Elt Ideal) (G1 V c) := by
  funext y
  obtain ⟨r, d, rfl⟩ : ∃ (r : Fin 512) (d : Fin 128), y = ix2 r d := ⟨y 0, y 1, eq_ix2 y⟩
  refine (out_apply V c t ht r d).trans ?_
  exact (blk4_read (F := Ideal) (t := t) (G := G1 V c) (r := r) (d := d)).symm

/-- The output array after the region is the specification's output. -/
theorem final1_4 (dat : Dat τ (Elt Ideal) Unit ℕ (UR sig nD τ) ℕ cfg1 c)
    (hA : ∀ w, dat.A w = V c (Pipeline.arrRef spec1 w))
    (hafter : ∀ t : Fin cfg1.N, dat.after 4 t = Step1.out (stAt1 V c t.val t.isLt)) :
    dat.arrAt 4 cfg1.N = G1 V c :=
  final1_4_of V c dat hA hafter (G1 V c) (out_block V c)

end Cert.KernelIdeal.Hand
-- ==== Proof.KValue.lean ====
/-
  The kernel program's two results as the specification's functions of the launch memory: the edge features are the
  per-edge region's first output array; the context features are the node region's output array, a function of the
  matrix and the mask as launched, of the attention scalars (the first region's column, re-laid as one row) and of
  the neighbour features (the first region's second output).
-/
import proofs.«124032_j64046552318003_2_alg».proof.Proof.KRun
import proofs.«124032_j64046552318003_2_alg».proof.Proof.Value0
import proofs.«124032_j64046552318003_2_alg».proof.Proof.Value1
import proofs.«124032_j64046552318003_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Cert.KernelIdeal Cert.KernelIdeal.Gen

/-! ## The two results as the specification's functions of the launch memory -/

section Value

open Idealize.ShloMosaic.ValueIdx

variable (m : (ℓ : Loc nD τ sig) → Buf (Elt Ideal) ℓ) (ρ : Dev nD → PrngReg) (c : Dev nD)

/-- The second region finds the matrix and the mask as launched, -/
theorem V3_arg4 : V3 m ρ c main_arg4 = m ((c : Thread nD τ).loc main_arg4) :=
  (W3_of_ne m ρ c main_arg4 (by decide)).trans ((W2_of_ne m ρ c main_arg4 (by decide)).trans rfl)
theorem V3_arg5 : V3 m ρ c main_arg5 = m ((c : Thread nD τ).loc main_arg5) :=
  (W3_of_ne m ρ c main_arg5 (by decide)).trans ((W2_of_ne m ρ c main_arg5 (by decide)).trans rfl)
/-- the neighbour features as the first region left them, -/
theorem V3_v0_1 : V3 m ρ c main_v0_1 = (dat0 (V1 m ρ) c).arrAt 11 cfg0.N :=
  (W3_of_ne m ρ c main_v0_1 (by decide)).trans (W2_arr m ρ c 11)
/-- and the attention scalars, which the first region left as a column, laid out as one row. -/
theorem V3_v1 : V3 m ρ c main_v1 = shapeCast S1x16384 ((dat0 (V1 m ρ) c).arrAt 12 cfg0.N) shapeCasts_S16384x1_S1x16384 := by
  rw [← W2_arr m ρ c 12]
  show StableHlo.after hostOps1 (W2 m ρ c) (Proc.devRef .tc main_v1) = _
  after_results
  rfl

/-- A column [16384,1] laid out as a row [1,16384]: entry (0, e) is the column's entry (e, 0). -/
theorem row_of_col (x : S16384x1.Idx → EReal) (j : S1x16384.Idx) :
    shapeCast S1x16384 x shapeCasts_S16384x1_S1x16384 j = x (ix2 (⟨(j 1).val, idx2_lt1 j⟩ : Fin 16384) (0 : Fin 1)) := by
  refine shapeCast_apply x _ j _ ?_
  rw [Shape.rowMajor_val_two, Shape.rowMajor_val_two]
  have h0 : (j 0).val = 0 := by have := idx2_lt0 j; omega
  show _ * 1 + 0 = (j 0).val * 16384 + (j 1).val
  rw [h0]; simp

/-- The context features from a row of attention scalars `a` and neighbour features `f`. -/
theorem kOutOf_eq (mat mask : Cert.Spec.Arr 8192 16384) (arow : Cert.Spec.Arr 1 16384) (nbr : Cert.Spec.Arr 16384 128)
    (a : Fin 16384 → EReal) (f : Fin 16384 → Fin 128 → EReal)
    (ha : ∀ e, arow (ix2 (0 : Fin 1) e) = a e) (hf : ∀ e d, nbr (ix2 e d) = f e d) :
    Cert.Spec.kOutOf mat mask arow nbr = fun j => Cert.Spec.kElu (Cert.Spec.kCtx (Cert.Spec.logit mat mask a (j 0)) (fun e => f e (j 1))) := by
  funext j
  unfold Cert.Spec.kOutOf Cert.Spec.logit
  refine congrArg Cert.Spec.kElu (congrArg₂ Cert.Spec.kCtx (funext fun e => ?_) (funext fun e => hf e (j 1)))
  rw [ha e]

/-- The context features the kernel program ends with. -/
theorem out_v2 : W4 m ρ c (Proc.devRef .tc main_v2)
    = Cert.Spec.kOut (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg10)) (m ((c : Thread nD τ).loc main_arg11)) := by
  refine (W4_arr m ρ c 4).trans ?_
  refine (final1_4 (V3 m ρ) c (dat1 (V3 m ρ) c) (A_eq1 (V3 m ρ) c) (after1_4 (V3 m ρ) c)).trans ?_
  show Cert.Spec.kOutOf (V3 m ρ c main_arg4) (V3 m ρ c main_arg5) (V3 m ρ c main_v1) (V3 m ρ c main_v0_1) = _
  rw [V3_arg4, V3_arg5, V3_v0_1, V3_v1, final0_11, final0_12]
  refine (kOutOf_eq _ _ _ _ (Cert.Spec.kA (m ((c : Thread nD τ).loc main_arg2)) (m ((c : Thread nD τ).loc main_arg3)) (m ((c : Thread nD τ).loc main_arg10)) (m ((c : Thread nD τ).loc main_arg11)))
    (fun e d => Cert.Spec.leaky (Cert.Spec.kLin (m ((c : Thread nD τ).loc main_arg0)) (m ((c : Thread nD τ).loc main_arg3)) (m ((c : Thread nD τ).loc main_arg1)) (m ((c : Thread nD τ).loc main_arg6)) (m ((c : Thread nD τ).loc main_arg7)) e d))
    (fun e => row_of_col _ _) (fun e d => rfl)).trans ?_
  unfold Cert.Spec.kOut
  rfl

/-- The edge features the kernel program ends with. -/
theorem out_v0_0 : W4 m ρ c (Proc.devRef .tc main_v0_0)
    = Cert.Spec.kEdge (m ((c : Thread nD τ).loc main_arg0)) (m ((c : Thread nD τ).loc main_arg1)) (m ((c : Thread nD τ).loc main_arg3))
        (m ((c : Thread nD τ).loc main_arg8)) (m ((c : Thread nD τ).loc main_arg9)) :=
  (W4_of_ne m ρ c main_v0_0 (by decide)).trans ((W3_of_ne m ρ c main_v0_0 (by decide)).trans ((W2_arr m ρ c 10).trans (final0_10 (V1 m ρ) c)))

end Value

end Cert.KernelIdeal.Hand

end
-- ==== Proof.LibAfterAssign.lean ====
import Idealize.ShloMosaic.Lib.StableHlo.Run

/-!
# Reading a long straight line of operations one operation at a time

`StableHlo.after ops V` is the contents of every buffer after the operations `ops`, in order, from the
contents `V`: each operation rewrites the buffers it writes and leaves the rest. Read back in one step,
the contents of the last result are the composed term of all the operations, in which a value with
several consumers is repeated once per consumer; for a long line that term is too large to compute.

This module reads the fold one operation at a time instead. Suppose the line is in SINGLE-ASSIGNMENT
form, stated by a list `ws` of references, one per operation: the `k`-th operation writes exactly the
`k`-th reference (`WritesAre ops ws`). Split the line at position `k`, into the `k` operations before and
the rest (`after_take_drop`). Then

* a reference that no operation from position `k` on writes holds, at the end, what it held after the
  first `k` operations (`after_take_at_unwritten`);
* if the result `y` of the `k`-th operation is written by no later operation, then at the end it holds
  what the `k`-th operation put there, computed from the contents after the first `k` operations
  (`after_at_written`).

Together: if moreover no operation from position `k` on writes an operand of the `k`-th operation, then
the final contents satisfy that operation's own equation — at its result, the fold holds the operation's
function of THE FOLD at its operands (`after_nullary`, `after_unary`, `after_binary`, `after_ternary`,
`after_reshape`, one per builder). The equations of a line can then be used in program order, each
rewriting the operands by the equations already obtained, and no composed term is ever formed.

For a literal line the hypotheses are computations: `WritesAre ops ws` is the conjunction of the
builders' `*_writes` facts (each `rfl`), `ops.drop k = op :: post` is `rfl`, and a reference's absence
from `ws.drop k` is decided.
-/

namespace Cert.Lib.AfterAssign

open Idealize.ShloMosaic Idealize.ShloMosaic.StableHlo

variable {τ : Topo} {sig : RefSig} {Val : EltTy → Type}

/-! ## The fold of a concatenation -/

/-- The contents after two lines run one after the other: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line split at position `k`: the fold of the rest over the fold of the first `k` operations. -/
theorem after_take_drop (k : Nat) (ops : List (HloOp τ sig Val)) (V : Valuation τ sig Val) :
    after ops V = after (ops.drop k) (after (ops.take k) V) := by
  rw [← after_append, List.take_append_drop]

/-! ## Single assignment -/

/-- The `k`-th operation of the line writes exactly the `k`-th reference of the list (and the two have
    the same length). -/
def WritesAre : List (HloOp τ sig Val) → List (Ref sig .tc) → Prop
  | [], [] => True
  | op :: ops, w :: ws => op.writes = {Proc.devRef (τ := τ) .tc w} ∧ WritesAre ops ws
  | [], _ :: _ => False
  | _ :: _, [] => False

/-- The rest of a line from position `k` writes the rest of the list from position `k`. -/
theorem WritesAre.drop : ∀ (k : Nat) {ops : List (HloOp τ sig Val)} {ws : List (Ref sig .tc)},
    WritesAre ops ws → WritesAre (ops.drop k) (ws.drop k)
  | 0, _, _, h => h
  | _ + 1, [], [], h => h
  | k + 1, _ :: _, _ :: _, h => WritesAre.drop k h.2
  | _ + 1, [], _ :: _, h => h.elim
  | _ + 1, _ :: _, [], h => h.elim

/-- A reference that is not among the references a line writes keeps its contents. -/
theorem after_of_not_written : ∀ {ops : List (HloOp τ sig Val)} {ws : List (Ref sig .tc)},
    WritesAre ops ws → ∀ (V : Valuation τ sig Val) {r : Ref sig .tc}, r ∉ ws →
      after ops V (Proc.devRef .tc r) = V (Proc.devRef .tc r)
  | [], [], _, _, _, _ => rfl
  | op :: ops, w :: ws, h, V, r, hr => by
    rw [after_cons, after_of_not_written h.2 _ (fun hm => hr (List.mem_cons_of_mem _ hm))]
    refine HloOp.result_of_not_mem _ _ ?_
    rw [h.1, Finset.mem_singleton]
    refine devRef_ne_of_ne (fun e => hr ?_)
    rw [e]
    exact List.mem_cons_self
  | [], _ :: _, h, _, _, _ => h.elim
  | _ :: _, [], h, _, _, _ => h.elim

/-- A reference that no operation from position `k` on writes holds, after the whole line, what it held
    after the first `k` operations. -/
theorem after_take_at_unwritten {ops : List (HloOp τ sig Val)} {ws : List (Ref sig .tc)}
    (h : WritesAre ops ws) (k : Nat) (V : Valuation τ sig Val) {a : Ref sig .tc} (ha : a ∉ ws.drop k) :
    after (ops.take k) V (Proc.devRef .tc a) = after ops V (Proc.devRef .tc a) := by
  rw [after_take_drop k ops V]
  exact (after_of_not_written (WritesAre.drop k h) _ ha).symm

/-- If no operation after the `k`-th writes the reference `y`, the whole line leaves at `y` what the
    `k`-th operation leaves there, from the contents after the first `k` operations. -/
theorem after_at_written {ops : List (HloOp τ sig Val)} {ws : List (Ref sig .tc)}
    (h : WritesAre ops ws) (k : Nat) {op : HloOp τ sig Val} {post : List (HloOp τ sig Val)}
    (hk : ops.drop k = op :: post) (V : Valuation τ sig Val) {y : Ref sig .tc}
    (hy : y ∉ ws.drop (k + 1)) :
    after ops V (Proc.devRef .tc y) = op.result (after (ops.take k) V) (Proc.devRef .tc y) := by
  have hpost : WritesAre post (ws.drop (k + 1)) := by
    have h' := WritesAre.drop (k + 1) h
    rwa [← List.tail_drop (l := ops) (i := k), hk, List.tail_cons] at h'
  rw [after_take_drop k ops V, hk, after_cons]
  exact after_of_not_written hpost _ hy

/-! ## Each builder's equation, at the fold itself -/

/-- A constant: if no later operation writes its result, the whole line leaves the constant there. -/
theorem after_nullary {ops : List (HloOp τ sig Val)} {ws : List (Ref sig .tc)} (h : WritesAre ops ws)
    (k : Nat) {y : Ref sig .tc} {v : y.ty.Contents Val} {hy} {post : List (HloOp τ sig Val)}
    (hk : ops.drop k = nullary (τ := τ) y v hy :: post) (V : Valuation τ sig Val)
    (hyw : y ∉ ws.drop (k + 1)) :
    after ops V (Proc.devRef .tc y) = v := by
  rw [after_at_written h k hk V hyw, nullary_result]

/-- A one-operand operation: if no later operation writes its result and none from it on writes its
    operand, the whole line leaves at the result the operation's function of what the whole line leaves
    at the operand. -/
theorem after_unary {ops : List (HloOp τ sig Val)} {ws : List (Ref sig .tc)} (h : WritesAre ops ws)
    (k : Nat) {x y : Ref sig .tc} {f : x.ty.Contents Val → y.ty.Contents Val} {hx hy}
    {post : List (HloOp τ sig Val)}
    (hk : ops.drop k = unary (τ := τ) x y f hx hy :: post) (V : Valuation τ sig Val)
    (hyw : y ∉ ws.drop (k + 1)) (hxw : x ∉ ws.drop k) :
    after ops V (Proc.devRef .tc y) = f (after ops V (Proc.devRef .tc x)) := by
  rw [after_at_written h k hk V hyw, unary_result, after_take_at_unwritten h k V hxw]

/-- A two-operand operation: if no later operation writes its result and none from it on writes an
    operand, the whole line leaves at the result the operation's function of what the whole line leaves
    at the two operands. -/
theorem after_binary {ops : List (HloOp τ sig Val)} {ws : List (Ref sig .tc)} (h : WritesAre ops ws)
    (k : Nat) {a b y : Ref sig .tc} {f : a.ty.Contents Val → b.ty.Contents Val → y.ty.Contents Val}
    {ha hb hy} {post : List (HloOp τ sig Val)}
    (hk : ops.drop k = binary (τ := τ) a b y f ha hb hy :: post) (V : Valuation τ sig Val)
    (hyw : y ∉ ws.drop (k + 1)) (haw : a ∉ ws.drop k) (hbw : b ∉ ws.drop k) :
    after ops V (Proc.devRef .tc y)
      = f (after ops V (Proc.devRef .tc a)) (after ops V (Proc.devRef .tc b)) := by
  rw [after_at_written h k hk V hyw, binary_result, after_take_at_unwritten h k V haw,
    after_take_at_unwritten h k V hbw]

/-- A three-operand operation, likewise. -/
theorem after_ternary {ops : List (HloOp τ sig Val)} {ws : List (Ref sig .tc)} (h : WritesAre ops ws)
    (k : Nat) {c a b y : Ref sig .tc}
    {f : c.ty.Contents Val → a.ty.Contents Val → b.ty.Contents Val → y.ty.Contents Val}
    {hc ha hb hy} {post : List (HloOp τ sig Val)}
    (hk : ops.drop k = ternary (τ := τ) c a b y f hc ha hb hy :: post) (V : Valuation τ sig Val)
    (hyw : y ∉ ws.drop (k + 1)) (hcw : c ∉ ws.drop k) (haw : a ∉ ws.drop k) (hbw : b ∉ ws.drop k) :
    after ops V (Proc.devRef .tc y)
      = f (after ops V (Proc.devRef .tc c)) (after ops V (Proc.devRef .tc a))
          (after ops V (Proc.devRef .tc b)) := by
  rw [after_at_written h k hk V hyw, ternary_result, after_take_at_unwritten h k V hcw,
    after_take_at_unwritten h k V haw, after_take_at_unwritten h k V hbw]

/-- A reshape: if no later operation writes its result and none from it on writes its operand, the
    whole line leaves at the result the operand's final contents in row-major order at the result's
    shape. -/
theorem after_reshape {ops : List (HloOp τ sig Val)} {ws : List (Ref sig .tc)} (h : WritesAre ops ws)
    (k : Nat) {x y : Ref sig .tc} {he : x.ty.elt = y.ty.elt} {hn : x.ty.shape.ShapeCasts y.ty.shape}
    {hx hy} {post : List (HloOp τ sig Val)}
    (hk : ops.drop k = reshape (τ := τ) (Val := Val) x y he hn hx hy :: post) (V : Valuation τ sig Val)
    (hyw : y ∉ ws.drop (k + 1)) (hxw : x ∉ ws.drop k) :
    after ops V (Proc.devRef .tc y)
      = fun i => he ▸ shapeCast y.ty.shape (after ops V (Proc.devRef .tc x)) hn i := by
  rw [after_at_written h k hk V hyw, reshape_result, after_take_at_unwritten h k V hxw]

end Cert.Lib.AfterAssign
-- ==== Proof.RefOps.lean ====
/-
  The reference program's @main as ONE straight line of seventy host operations: its own thirty-four, and the bodies
  of the four functions it calls written out at their call sites over each call's own buffers (the leaky rectifier
  three times: zero, its broadcast, the comparison, the slope, its broadcast, the product, the select; the
  exponential-linear unit: two comparisons with a broadcast zero, a third zero converted and broadcast, the select
  that feeds the exponential, the exponential less one, the product with a broadcast one, the closing select).
  The line is in single-assignment form: operation k writes exactly reference k of `ws`, and no argument is among them.
  Every weakly fair execution of @main terminates with each buffer at the fold of the line over the launch contents.
-/
import proofs.«124032_j64046552318003_2_alg».proof.Proof.Gen.ReferenceIdeal
import proofs.«124032_j64046552318003_2_alg».proof.Proof.LibAfterAssign
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.Lib.AfterAssign

variable {F : FTy → Type} [FloatOps F]

/-- @main's seventy operations, in order. -/
abbrev ops : List (HloOp τ sig (Elt F)) :=
  [ StableHlo.nary ![main_arg0, main_arg3, main_arg1] main_v0 (fun u => concatenate S16384x272 1 [⟨S16384x128, u 0⟩, ⟨S16384x16, u 1⟩, ⟨S16384x128, u 2⟩] concatenates_S16384x128_S16384x16_S16384x128_S16384x272_d1),
    StableHlo.binary main_v0 main_arg8 main_v1 ((fun l r => Host.dotGeneral dot_S16384x272_S272x128_S16384x128_1_0_0_1_n_n none l r) : (⟨S16384x272, .f32⟩ : BufTy).Contents (Elt F) → (⟨S272x128, .f32⟩ : BufTy).Contents (Elt F) → (⟨S16384x128, .f32⟩ : BufTy).Contents (Elt F)),
    StableHlo.unary main_arg9 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S16384x128 ![0, 1] bcast_S1x128_S16384x128_0_1 : (⟨S1x128, .f32⟩ : BufTy).Contents (Elt F) → (⟨S16384x128, .f32⟩ : BufTy).Contents (Elt F)),
    StableHlo.binary main_v1 main_v3 main_v4 (addf : (⟨S16384x128, .f32⟩ : BufTy).Contents (Elt F) → (⟨S16384x128, .f32⟩ : BufTy).Contents (Elt F) → (⟨S16384x128, .f32⟩ : BufTy).Contents (Elt F)),
    StableHlo.TRef.nullary main_call0.cst (constant S_ .f32 0x00000000#32),
    StableHlo.TRef.unary main_call0.cst main_call0.v0 (broadcastInDim S16384x128 ![] bcast_S_S16384x128),
    StableHlo.TRef.binary (.of main_v4 : StableHlo.TRef sig ⟨S16384x128, .f32⟩) main_call0.v0 main_call0.v1 (cmpf .oge),
    StableHlo.TRef.nullary main_call0.cst_0 (constant S_ .f32 0x3C23D70A#32),
    StableHlo.TRef.unary main_call0.cst_0 main_call0.v2 (broadcastInDim S16384x128 ![] bcast_S_S16384x128),
    StableHlo.TRef.binary main_call0.v2 (.of main_v4 : StableHlo.TRef sig ⟨S16384x128, .f32⟩) main_call0.v3 mulf,
    StableHlo.TRef.ternary main_call0.v1 (.of main_v4 : StableHlo.TRef sig ⟨S16384x128, .f32⟩) main_call0.v3 main_call0.call0.v0 select,
    StableHlo.binary main_v0 main_arg6 main_v6 ((fun l r => Host.dotGeneral dot_S16384x272_S272x128_S16384x128_1_0_0_1_n_n none l r) : (⟨S16384x272, .f32⟩ : BufTy).Contents (Elt F) → (⟨S272x128, .f32⟩ : BufTy).Contents (Elt F) → (⟨S16384x128, .f32⟩ : BufTy).Contents (Elt F)),
    StableHlo.unary main_arg7 main_v7 (broadcastInDim S1x128 ![1] bcast_S128_S1x128_1 : (⟨S128, .f32⟩ : BufTy).Contents (Elt F) → (⟨S1x128, .f32⟩ : BufTy).Contents (Elt F)),
    StableHlo.unary main_v7 main_v8 (broadcastInDim S16384x128 ![0, 1] bcast_S1x128_S16384x128_0_1 : (⟨S1x128, .f32⟩ : BufTy).Contents (Elt F) → (⟨S16384x128, .f32⟩ : BufTy).Contents (Elt F)),
    StableHlo.binary main_v6 main_v8 main_v9 (addf : (⟨S16384x128, .f32⟩ : BufTy).Contents (Elt F) → (⟨S16384x128, .f32⟩ : BufTy).Contents (Elt F) → (⟨S16384x128, .f32⟩ : BufTy).Contents (Elt F)),
    StableHlo.TRef.nullary main_call1.cst (constant S_ .f32 0x00000000#32),
    StableHlo.TRef.unary main_call1.cst main_call1.v0 (broadcastInDim S16384x128 ![] bcast_S_S16384x128),
    StableHlo.TRef.binary (.of main_v9 : StableHlo.TRef sig ⟨S16384x128, .f32⟩) main_call1.v0 main_call1.v1 (cmpf .oge),
    StableHlo.TRef.nullary main_call1.cst_0 (constant S_ .f32 0x3C23D70A#32),
    StableHlo.TRef.unary main_call1.cst_0 main_call1.v2 (broadcastInDim S16384x128 ![] bcast_S_S16384x128),
    StableHlo.TRef.binary main_call1.v2 (.of main_v9 : StableHlo.TRef sig ⟨S16384x128, .f32⟩) main_call1.v3 mulf,
    StableHlo.TRef.ternary main_call1.v1 (.of main_v9 : StableHlo.TRef sig ⟨S16384x128, .f32⟩) main_call1.v3 main_call1.call0.v0 select,
    StableHlo.binary main_arg2 main_arg3 main_v11 ((fun a b => concatenate S16384x144 1 [⟨S16384x128, a⟩, ⟨S16384x16, b⟩] concatenates_S16384x128_S16384x16_S16384x144_d1) : (⟨S16384x128, .f32⟩ : BufTy).Contents (Elt F) → (⟨S16384x16, .f32⟩ : BufTy).Contents (Elt F) → (⟨S16384x144, .f32⟩ : BufTy).Contents (Elt F)),
    StableHlo.binary main_v11 main_arg10 main_v12 ((fun l r => Host.dotGeneral dot_S16384x144_S144x1_S16384x1_1_0_0_1_n_n none l r) : (⟨S16384x144, .f32⟩ : BufTy).Contents (Elt F) → (⟨S144x1, .f32⟩ : BufTy).Contents (Elt F) → (⟨S16384x1, .f32⟩ : BufTy).Contents (Elt F)),
    StableHlo.unary main_arg11 main_v13 (broadcastInDim S1x1 ![1] bcast_S1_S1x1_1 : (⟨S1, .f32⟩ : BufTy).Contents (Elt F) → (⟨S1x1, .f32⟩ : BufTy).Contents (Elt F)),
    StableHlo.unary main_v13 main_v14 (broadcastInDim S16384x1 ![0, 1] bcast_S1x1_S16384x1_0_1 : (⟨S1x1, .f32⟩ : BufTy).Contents (Elt F) → (⟨S16384x1, .f32⟩ : BufTy).Contents (Elt F)),
    StableHlo.binary main_v12 main_v14 main_v15 (addf : (⟨S16384x1, .f32⟩ : BufTy).Contents (Elt F) → (⟨S16384x1, .f32⟩ : BufTy).Contents (Elt F) → (⟨S16384x1, .f32⟩ : BufTy).Contents (Elt F)),
    StableHlo.TRef.nullary main_call2.cst (constant S_ .f32 0x00000000#32),
    StableHlo.TRef.unary main_call2.cst main_call2.v0 (broadcastInDim S16384x1 ![] bcast_S_S16384x1),
    StableHlo.TRef.binary (.of main_v15 : StableHlo.TRef sig ⟨S16384x1, .f32⟩) main_call2.v0 main_call2.v1 (cmpf .oge),
    StableHlo.TRef.nullary main_call2.cst_0 (constant S_ .f32 0x3C23D70A#32),
    StableHlo.TRef.unary main_call2.cst_0 main_call2.v2 (broadcastInDim S16384x1 ![] bcast_S_S16384x1),
    StableHlo.TRef.binary main_call2.v2 (.of main_v15 : StableHlo.TRef sig ⟨S16384x1, .f32⟩) main_call2.v3 mulf,
    StableHlo.TRef.ternary main_call2.v1 (.of main_v15 : StableHlo.TRef sig ⟨S16384x1, .f32⟩) main_call2.v3 main_call2.call0.v0 select,
    StableHlo.reshape main_v16 main_v17 rfl shapeCasts_S16384x1_S16384,
    StableHlo.unary main_v17 main_v18 (broadcastInDim S1x16384 ![1] bcast_S16384_S1x16384_1 : (⟨S16384, .f32⟩ : BufTy).Contents (Elt F) → (⟨S1x16384, .f32⟩ : BufTy).Contents (Elt F)),
    StableHlo.unary main_v18 main_v19 (broadcastInDim S8192x16384 ![0, 1] bcast_S1x16384_S8192x16384_0_1 : (⟨S1x16384, .f32⟩ : BufTy).Contents (Elt F) → (⟨S8192x16384, .f32⟩ : BufTy).Contents (Elt F)),
    StableHlo.binary main_arg4 main_v19 main_v20 (mulf : (⟨S8192x16384, .f32⟩ : BufTy).Contents (Elt F) → (⟨S8192x16384, .f32⟩ : BufTy).Contents (Elt F) → (⟨S8192x16384, .f32⟩ : BufTy).Contents (Elt F)),
    StableHlo.binary main_v20 main_arg5 main_v21 (addf : (⟨S8192x16384, .f32⟩ : BufTy).Contents (Elt F) → (⟨S8192x16384, .f32⟩ : BufTy).Contents (Elt F) → (⟨S8192x16384, .f32⟩ : BufTy).Contents (Elt F)),
    StableHlo.nullary main_cst (constant S_ .f32 0xFF800000#32),
    StableHlo.binary main_v21 main_cst main_v22 ((fun x v => Host.reduce FloatOps.maximumf x v reducesTo_S8192x16384_S8192_d1 h_S_) : (⟨S8192x16384, .f32⟩ : BufTy).Contents (Elt F) → (⟨S_, .f32⟩ : BufTy).Contents (Elt F) → (⟨S8192, .f32⟩ : BufTy).Contents (Elt F)),
    StableHlo.nullary main_cst_0 (constant S_ .f32 0xFF800000#32),
    StableHlo.unary main_cst_0 main_v23 (broadcastInDim S8192 ![] bcast_S_S8192 : (⟨S_, .f32⟩ : BufTy).Contents (Elt F) → (⟨S8192, .f32⟩ : BufTy).Contents (Elt F)),
    StableHlo.binary main_v23 main_v22 main_v24 (maximumf : (⟨S8192, .f32⟩ : BufTy).Contents (Elt F) → (⟨S8192, .f32⟩ : BufTy).Contents (Elt F) → (⟨S8192, .f32⟩ : BufTy).Contents (Elt F)),
    StableHlo.unary main_v24 main_v25 (broadcastInDim S8192x1 ![0] bcast_S8192_S8192x1_0 : (⟨S8192, .f32⟩ : BufTy).Contents (Elt F) → (⟨S8192x1, .f32⟩ : BufTy).Contents (Elt F)),
    StableHlo.unary main_v25 main_v26 (broadcastInDim S8192x16384 ![0, 1] bcast_S8192x1_S8192x16384_0_1 : (⟨S8192x1, .f32⟩ : BufTy).Contents (Elt F) → (⟨S8192x16384, .f32⟩ : BufTy).Contents (Elt F)),
    StableHlo.binary main_v21 main_v26 main_v27 (subf : (⟨S8192x16384, .f32⟩ : BufTy).Contents (Elt F) → (⟨S8192x16384, .f32⟩ : BufTy).Contents (Elt F) → (⟨S8192x16384, .f32⟩ : BufTy).Contents (Elt F)),
    StableHlo.unary main_v27 main_v28 (Host.exp : (⟨S8192x16384, .f32⟩ : BufTy).Contents (Elt F) → (⟨S8192x16384, .f32⟩ : BufTy).Contents (Elt F)),
    StableHlo.nullary main_cst_1 (constant S_ .f32 0x00000000#32),
    StableHlo.binary main_v28 main_cst_1 main_v29 ((fun x v => Host.reduceAdd x v reducesTo_S8192x16384_S8192_d1 h_S_) : (⟨S8192x16384, .f32⟩ : BufTy).Contents (Elt F) → (⟨S_, .f32⟩ : BufTy).Contents (Elt F) → (⟨S8192, .f32⟩ : BufTy).Contents (Elt F)),
    StableHlo.unary main_v29 main_v30 (broadcastInDim S8192x1 ![0] bcast_S8192_S8192x1_0 : (⟨S8192, .f32⟩ : BufTy).Contents (Elt F) → (⟨S8192x1, .f32⟩ : BufTy).Contents (Elt F)),
    StableHlo.unary main_v30 main_v31 (broadcastInDim S8192x16384 ![0, 1] bcast_S8192x1_S8192x16384_0_1 : (⟨S8192x1, .f32⟩ : BufTy).Contents (Elt F) → (⟨S8192x16384, .f32⟩ : BufTy).Contents (Elt F)),
    StableHlo.binary main_v28 main_v31 main_v32 (Host.divf : (⟨S8192x16384, .f32⟩ : BufTy).Contents (Elt F) → (⟨S8192x16384, .f32⟩ : BufTy).Contents (Elt F) → (⟨S8192x16384, .f32⟩ : BufTy).Contents (Elt F)),
    StableHlo.binary main_v32 main_v10 main_v33 ((fun l r => Host.dotGeneral dot_S8192x16384_S16384x128_S8192x128_1_0_0_1_n_n none l r) : (⟨S8192x16384, .f32⟩ : BufTy).Contents (Elt F) → (⟨S16384x128, .f32⟩ : BufTy).Contents (Elt F) → (⟨S8192x128, .f32⟩ : BufTy).Contents (Elt F)),
    StableHlo.TRef.nullary main_call3.cst (constant S_ .f32 0x00000000#32),
    StableHlo.TRef.unary main_call3.cst main_call3.v0 (broadcastInDim S8192x128 ![] bcast_S_S8192x128),
    StableHlo.TRef.binary (.of main_v33 : StableHlo.TRef sig ⟨S8192x128, .f32⟩) main_call3.v0 main_call3.v1 (cmpf .ogt),
    StableHlo.TRef.nullary main_call3.cst_0 (constant S_ .f32 0x00000000#32),
    StableHlo.TRef.unary main_call3.cst_0 main_call3.v2 (broadcastInDim S8192x128 ![] bcast_S_S8192x128),
    StableHlo.TRef.binary (.of main_v33 : StableHlo.TRef sig ⟨S8192x128, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S8192x128 ![] bcast_S_S8192x128),
    StableHlo.TRef.ternary main_call3.v3 main_call3.call0.v1 (.of main_v33 : StableHlo.TRef sig ⟨S8192x128, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S8192x128 ![] bcast_S_S8192x128),
    StableHlo.TRef.binary main_call3.v6 main_call3.v5 main_call3.v7 mulf,
    StableHlo.TRef.ternary main_call3.v1 (.of main_v33 : StableHlo.TRef sig ⟨S8192x128, .f32⟩) main_call3.v7 main_call3.call1.v0 select ]

set_option maxRecDepth 4096 in
set_option maxHeartbeats 1600000 in
/-- @main is that straight line: the functions' definitions unfolded at their calls, both sides are one chain of
    steps once sequencing is reassociated. -/
theorem main_eq (c : Dev nD) : main (F := F) c = seq ops := by
  simp only [main, fn_leaky_relu.body, fn_leaky_relu_0.body, fn_elu.body, fn_where.body, fn_where_1.body, fn_where_2.body,
    fn_where_3.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., binary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., reshape_bufs_sub ..,
    unary_bufs_sub .., unary_bufs_sub .., binary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub ..⟩

/-- The reference each operation writes, in order. -/
abbrev ws : List (Ref sig .tc) :=
  [ main_v0, main_v1, main_v2, main_v3, main_v4, main_call0_cst, main_call0_v0, main_call0_v1,
    main_call0_cst_0, main_call0_v2, main_call0_v3, main_v5, main_v6, main_v7, main_v8, main_v9,
    main_call1_cst, main_call1_v0, main_call1_v1, main_call1_cst_0, main_call1_v2, main_call1_v3, main_v10, main_v11,
    main_v12, main_v13, main_v14, main_v15, main_call2_cst, main_call2_v0, main_call2_v1, main_call2_cst_0,
    main_call2_v2, main_call2_v3, main_v16, main_v17, main_v18, main_v19, main_v20, main_v21,
    main_cst, main_v22, main_cst_0, main_v23, main_v24, main_v25, main_v26, main_v27,
    main_v28, main_cst_1, main_v29, main_v30, main_v31, main_v32, main_v33, main_call3_cst,
    main_call3_v0, main_call3_v1, main_call3_cst_0, main_call3_v2, main_call3_v3, main_call3_cst_1, main_call3_call0_v0, main_call3_call0_v1,
    main_call3_v4, main_call3_v5, main_call3_cst_2, main_call3_v6, main_call3_v7, main_v34 ]

/-- Operation k writes exactly reference k. -/
theorem writesAre : WritesAre (τ := τ) (ops : List (HloOp τ sig (Elt F))) ws :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, trivial⟩

/-- Every weakly fair execution of @main on the TensorCores terminates, and every final state has each buffer at the
    fold of the line over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- A buffer the line does not write keeps its launch contents. -/
theorem after_unwritten (V : Valuation τ sig (Elt F)) {r : Ref sig .tc} (hr : r ∉ ws) :
    after ops V (r : DevRef τ sig) = V (r : DevRef τ sig) :=
  after_of_not_written writesAre V hr

end Cert.ReferenceIdeal.RefValue

end
-- ==== Proof.RefEqns.lean ====
/-
  The straight line read one operation at a time: what the whole line leaves at an operation's result is that
  operation's function of what the whole line leaves at its operands (the line is in single-assignment form and no
  operation writes a reference a later one reads before). One equation per operation, seventy in all, and one per
  argument: the line leaves an argument as it found it. No composed term is formed.
-/
import proofs.«124032_j64046552318003_2_alg».proof.Proof.RefOps

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.Lib.AfterAssign

variable {F : FTy → Type} [FloatOps F]
/-- A several-operand operation: if no later operation writes its result and none from it on writes an operand, the
    whole line leaves at the result the operation's function of what the whole line leaves at the operands. -/
theorem after_nary {τ : Topo} {sig : RefSig} {Val : EltTy → Type} {ops : List (HloOp τ sig Val)} {ws : List (Ref sig .tc)}
    (h : WritesAre ops ws) (k : Nat) {n : Nat} {xs : Fin n → Ref sig .tc} {y : Ref sig .tc}
    {f : ((i : Fin n) → (xs i).ty.Contents Val) → y.ty.Contents Val} {hxs hy} {post : List (HloOp τ sig Val)}
    (hk : ops.drop k = nary (τ := τ) xs y f hxs hy :: post) (V : Valuation τ sig Val)
    (hyw : y ∉ ws.drop (k + 1)) (hxw : ∀ i, xs i ∉ ws.drop k) :
    after ops V (Proc.devRef .tc y) = f (fun i => after ops V (Proc.devRef .tc (xs i))) := by
  rw [after_at_written h k hk V hyw, nary_result]
  congr 1
  funext i
  exact after_take_at_unwritten h k V (hxw i)

/-- What the whole line leaves at a reference. -/
abbrev fin (V : Valuation τ sig (Elt F)) (r : Ref sig .tc) : (Proc.devRef (τ := τ) .tc r).ty.Contents (Elt F) :=
  after ops V (Proc.devRef .tc r)

variable (V : Valuation τ sig (Elt F))

theorem e_arg0 : fin V main_arg0 = V (main_arg0 : DevRef τ sig) := after_unwritten V (by decide)
theorem e_arg1 : fin V main_arg1 = V (main_arg1 : DevRef τ sig) := after_unwritten V (by decide)
theorem e_arg2 : fin V main_arg2 = V (main_arg2 : DevRef τ sig) := after_unwritten V (by decide)
theorem e_arg3 : fin V main_arg3 = V (main_arg3 : DevRef τ sig) := after_unwritten V (by decide)
theorem e_arg4 : fin V main_arg4 = V (main_arg4 : DevRef τ sig) := after_unwritten V (by decide)
theorem e_arg5 : fin V main_arg5 = V (main_arg5 : DevRef τ sig) := after_unwritten V (by decide)
theorem e_arg6 : fin V main_arg6 = V (main_arg6 : DevRef τ sig) := after_unwritten V (by decide)
theorem e_arg7 : fin V main_arg7 = V (main_arg7 : DevRef τ sig) := after_unwritten V (by decide)
theorem e_arg8 : fin V main_arg8 = V (main_arg8 : DevRef τ sig) := after_unwritten V (by decide)
theorem e_arg9 : fin V main_arg9 = V (main_arg9 : DevRef τ sig) := after_unwritten V (by decide)
theorem e_arg10 : fin V main_arg10 = V (main_arg10 : DevRef τ sig) := after_unwritten V (by decide)
theorem e_arg11 : fin V main_arg11 = V (main_arg11 : DevRef τ sig) := after_unwritten V (by decide)

set_option maxHeartbeats 400000 in
theorem e_v0 :
    (fin V main_v0 : (⟨S16384x272, .f32⟩ : BufTy).Contents (Elt F)) = concatenate S16384x272 1 [⟨S16384x128, (fin V main_arg0 : (⟨S16384x128, .f32⟩ : BufTy).Contents (Elt F))⟩, ⟨S16384x16, (fin V main_arg3 : (⟨S16384x16, .f32⟩ : BufTy).Contents (Elt F))⟩, ⟨S16384x128, (fin V main_arg1 : (⟨S16384x128, .f32⟩ : BufTy).Contents (Elt F))⟩] concatenates_S16384x128_S16384x16_S16384x128_S16384x272_d1 := by
  have h := after_nary (writesAre (F := F)) 0 rfl V (by decide) (by decide)
  exact h

set_option maxHeartbeats 400000 in
theorem e_v1 :
    (fin V main_v1 : (⟨S16384x128, .f32⟩ : BufTy).Contents (Elt F)) = Host.dotGeneral dot_S16384x272_S272x128_S16384x128_1_0_0_1_n_n none (fin V main_v0 : (⟨S16384x272, .f32⟩ : BufTy).Contents (Elt F)) (fin V main_arg8 : (⟨S272x128, .f32⟩ : BufTy).Contents (Elt F)) := by
  have h := after_binary (writesAre (F := F)) 1 rfl V (by decide) (by decide) (by decide)
  exact h

set_option maxHeartbeats 400000 in
theorem e_v2 :
    (fin V main_v2 : (⟨S1x128, .f32⟩ : BufTy).Contents (Elt F)) = (broadcastInDim S1x128 ![1] bcast_S128_S1x128_1) (fin V main_arg9 : (⟨S128, .f32⟩ : BufTy).Contents (Elt F)) := by
  have h := after_unary (writesAre (F := F)) 2 rfl V (by decide) (by decide)
  exact h

set_option maxHeartbeats 400000 in
theorem e_v3 :
    (fin V main_v3 : (⟨S16384x128, .f32⟩ : BufTy).Contents (Elt F)) = (broadcastInDim S16384x128 ![0, 1] bcast_S1x128_S16384x128_0_1) (fin V main_v2 : (⟨S1x128, .f32⟩ : BufTy).Contents (Elt F)) := by
  have h := after_unary (writesAre (F := F)) 3 rfl V (by decide) (by decide)
  exact h

set_option maxHeartbeats 400000 in
theorem e_v4 :
    (fin V main_v4 : (⟨S16384x128, .f32⟩ : BufTy).Contents (Elt F)) = addf (fin V main_v1 : (⟨S16384x128, .f32⟩ : BufTy).Contents (Elt F)) (fin V main_v3 : (⟨S16384x128, .f32⟩ : BufTy).Contents (Elt F)) := by
  have h := after_binary (writesAre (F := F)) 4 rfl V (by decide) (by decide) (by decide)
  exact h

set_option maxHeartbeats 400000 in
theorem e_call0_cst :
    (fin V main_call0_cst : (⟨S_, .f32⟩ : BufTy).Contents (Elt F)) = (constant S_ .f32 0x00000000#32) := by
  have h := after_nullary (writesAre (F := F)) 5 rfl V (by decide)
  exact h

set_option maxHeartbeats 400000 in
theorem e_call0_v0 :
    (fin V main_call0_v0 : (⟨S16384x128, .f32⟩ : BufTy).Contents (Elt F)) = (broadcastInDim S16384x128 ![] bcast_S_S16384x128) (fin V main_call0_cst : (⟨S_, .f32⟩ : BufTy).Contents (Elt F)) := by
  have h := after_unary (writesAre (F := F)) 6 rfl V (by decide) (by decide)
  exact h

set_option maxHeartbeats 400000 in
theorem e_call0_v1 :
    (fin V main_call0_v1 : (⟨S16384x128, .i1⟩ : BufTy).Contents (Elt F)) = (cmpf .oge) (fin V main_v4 : (⟨S16384x128, .f32⟩ : BufTy).Contents (Elt F)) (fin V main_call0_v0 : (⟨S16384x128, .f32⟩ : BufTy).Contents (Elt F)) := by
  have h := after_binary (writesAre (F := F)) 7 rfl V (by decide) (by decide) (by decide)
  exact h

set_option maxHeartbeats 400000 in
theorem e_call0_cst_0 :
    (fin V main_call0_cst_0 : (⟨S_, .f32⟩ : BufTy).Contents (Elt F)) = (constant S_ .f32 0x3C23D70A#32) := by
  have h := after_nullary (writesAre (F := F)) 8 rfl V (by decide)
  exact h

set_option maxHeartbeats 400000 in
theorem e_call0_v2 :
    (fin V main_call0_v2 : (⟨S16384x128, .f32⟩ : BufTy).Contents (Elt F)) = (broadcastInDim S16384x128 ![] bcast_S_S16384x128) (fin V main_call0_cst_0 : (⟨S_, .f32⟩ : BufTy).Contents (Elt F)) := by
  have h := after_unary (writesAre (F := F)) 9 rfl V (by decide) (by decide)
  exact h

set_option maxHeartbeats 400000 in
theorem e_call0_v3 :
    (fin V main_call0_v3 : (⟨S16384x128, .f32⟩ : BufTy).Contents (Elt F)) = mulf (fin V main_call0_v2 : (⟨S16384x128, .f32⟩ : BufTy).Contents (Elt F)) (fin V main_v4 : (⟨S16384x128, .f32⟩ : BufTy).Contents (Elt F)) := by
  have h := after_binary (writesAre (F := F)) 10 rfl V (by decide) (by decide) (by decide)
  exact h

set_option maxHeartbeats 400000 in
theorem e_v5 :
    (fin V main_v5 : (⟨S16384x128, .f32⟩ : BufTy).Contents (Elt F)) = select (fin V main_call0_v1 : (⟨S16384x128, .i1⟩ : BufTy).Contents (Elt F)) (fin V main_v4 : (⟨S16384x128, .f32⟩ : BufTy).Contents (Elt F)) (fin V main_call0_v3 : (⟨S16384x128, .f32⟩ : BufTy).Contents (Elt F)) := by
  have h := after_ternary (writesAre (F := F)) 11 rfl V (by decide) (by decide) (by decide) (by decide)
  simp only [TRef.toBuf, TRef.ofBuf, cast_eq] at h
  exact h

set_option maxHeartbeats 400000 in
theorem e_v6 :
    (fin V main_v6 : (⟨S16384x128, .f32⟩ : BufTy).Contents (Elt F)) = Host.dotGeneral dot_S16384x272_S272x128_S16384x128_1_0_0_1_n_n none (fin V main_v0 : (⟨S16384x272, .f32⟩ : BufTy).Contents (Elt F)) (fin V main_arg6 : (⟨S272x128, .f32⟩ : BufTy).Contents (Elt F)) := by
  have h := after_binary (writesAre (F := F)) 12 rfl V (by decide) (by decide) (by decide)
  exact h

set_option maxHeartbeats 400000 in
theorem e_v7 :
    (fin V main_v7 : (⟨S1x128, .f32⟩ : BufTy).Contents (Elt F)) = (broadcastInDim S1x128 ![1] bcast_S128_S1x128_1) (fin V main_arg7 : (⟨S128, .f32⟩ : BufTy).Contents (Elt F)) := by
  have h := after_unary (writesAre (F := F)) 13 rfl V (by decide) (by decide)
  exact h

set_option maxHeartbeats 400000 in
theorem e_v8 :
    (fin V main_v8 : (⟨S16384x128, .f32⟩ : BufTy).Contents (Elt F)) = (broadcastInDim S16384x128 ![0, 1] bcast_S1x128_S16384x128_0_1) (fin V main_v7 : (⟨S1x128, .f32⟩ : BufTy).Contents (Elt F)) := by
  have h := after_unary (writesAre (F := F)) 14 rfl V (by decide) (by decide)
  exact h

set_option maxHeartbeats 400000 in
theorem e_v9 :
    (fin V main_v9 : (⟨S16384x128, .f32⟩ : BufTy).Contents (Elt F)) = addf (fin V main_v6 : (⟨S16384x128, .f32⟩ : BufTy).Contents (Elt F)) (fin V main_v8 : (⟨S16384x128, .f32⟩ : BufTy).Contents (Elt F)) := by
  have h := after_binary (writesAre (F := F)) 15 rfl V (by decide) (by decide) (by decide)
  exact h

set_option maxHeartbeats 400000 in
theorem e_call1_cst :
    (fin V main_call1_cst : (⟨S_, .f32⟩ : BufTy).Contents (Elt F)) = (constant S_ .f32 0x00000000#32) := by
  have h := after_nullary (writesAre (F := F)) 16 rfl V (by decide)
  exact h

set_option maxHeartbeats 400000 in
theorem e_call1_v0 :
    (fin V main_call1_v0 : (⟨S16384x128, .f32⟩ : BufTy).Contents (Elt F)) = (broadcastInDim S16384x128 ![] bcast_S_S16384x128) (fin V main_call1_cst : (⟨S_, .f32⟩ : BufTy).Contents (Elt F)) := by
  have h := after_unary (writesAre (F := F)) 17 rfl V (by decide) (by decide)
  exact h

set_option maxHeartbeats 400000 in
theorem e_call1_v1 :
    (fin V main_call1_v1 : (⟨S16384x128, .i1⟩ : BufTy).Contents (Elt F)) = (cmpf .oge) (fin V main_v9 : (⟨S16384x128, .f32⟩ : BufTy).Contents (Elt F)) (fin V main_call1_v0 : (⟨S16384x128, .f32⟩ : BufTy).Contents (Elt F)) := by
  have h := after_binary (writesAre (F := F)) 18 rfl V (by decide) (by decide) (by decide)
  exact h

set_option maxHeartbeats 400000 in
theorem e_call1_cst_0 :
    (fin V main_call1_cst_0 : (⟨S_, .f32⟩ : BufTy).Contents (Elt F)) = (constant S_ .f32 0x3C23D70A#32) := by
  have h := after_nullary (writesAre (F := F)) 19 rfl V (by decide)
  exact h

set_option maxHeartbeats 400000 in
theorem e_call1_v2 :
    (fin V main_call1_v2 : (⟨S16384x128, .f32⟩ : BufTy).Contents (Elt F)) = (broadcastInDim S16384x128 ![] bcast_S_S16384x128) (fin V main_call1_cst_0 : (⟨S_, .f32⟩ : BufTy).Contents (Elt F)) := by
  have h := after_unary (writesAre (F := F)) 20 rfl V (by decide) (by decide)
  exact h

set_option maxHeartbeats 400000 in
theorem e_call1_v3 :
    (fin V main_call1_v3 : (⟨S16384x128, .f32⟩ : BufTy).Contents (Elt F)) = mulf (fin V main_call1_v2 : (⟨S16384x128, .f32⟩ : BufTy).Contents (Elt F)) (fin V main_v9 : (⟨S16384x128, .f32⟩ : BufTy).Contents (Elt F)) := by
  have h := after_binary (writesAre (F := F)) 21 rfl V (by decide) (by decide) (by decide)
  exact h

set_option maxHeartbeats 400000 in
theorem e_v10 :
    (fin V main_v10 : (⟨S16384x128, .f32⟩ : BufTy).Contents (Elt F)) = select (fin V main_call1_v1 : (⟨S16384x128, .i1⟩ : BufTy).Contents (Elt F)) (fin V main_v9 : (⟨S16384x128, .f32⟩ : BufTy).Contents (Elt F)) (fin V main_call1_v3 : (⟨S16384x128, .f32⟩ : BufTy).Contents (Elt F)) := by
  have h := after_ternary (writesAre (F := F)) 22 rfl V (by decide) (by decide) (by decide) (by decide)
  simp only [TRef.toBuf, TRef.ofBuf, cast_eq] at h
  exact h

set_option maxHeartbeats 400000 in
theorem e_v11 :
    (fin V main_v11 : (⟨S16384x144, .f32⟩ : BufTy).Contents (Elt F)) = concatenate S16384x144 1 [⟨S16384x128, (fin V main_arg2 : (⟨S16384x128, .f32⟩ : BufTy).Contents (Elt F))⟩, ⟨S16384x16, (fin V main_arg3 : (⟨S16384x16, .f32⟩ : BufTy).Contents (Elt F))⟩] concatenates_S16384x128_S16384x16_S16384x144_d1 := by
  have h := after_binary (writesAre (F := F)) 23 rfl V (by decide) (by decide) (by decide)
  exact h

set_option maxHeartbeats 400000 in
theorem e_v12 :
    (fin V main_v12 : (⟨S16384x1, .f32⟩ : BufTy).Contents (Elt F)) = Host.dotGeneral dot_S16384x144_S144x1_S16384x1_1_0_0_1_n_n none (fin V main_v11 : (⟨S16384x144, .f32⟩ : BufTy).Contents (Elt F)) (fin V main_arg10 : (⟨S144x1, .f32⟩ : BufTy).Contents (Elt F)) := by
  have h := after_binary (writesAre (F := F)) 24 rfl V (by decide) (by decide) (by decide)
  exact h

set_option maxHeartbeats 400000 in
theorem e_v13 :
    (fin V main_v13 : (⟨S1x1, .f32⟩ : BufTy).Contents (Elt F)) = (broadcastInDim S1x1 ![1] bcast_S1_S1x1_1) (fin V main_arg11 : (⟨S1, .f32⟩ : BufTy).Contents (Elt F)) := by
  have h := after_unary (writesAre (F := F)) 25 rfl V (by decide) (by decide)
  exact h

set_option maxHeartbeats 400000 in
theorem e_v14 :
    (fin V main_v14 : (⟨S16384x1, .f32⟩ : BufTy).Contents (Elt F)) = (broadcastInDim S16384x1 ![0, 1] bcast_S1x1_S16384x1_0_1) (fin V main_v13 : (⟨S1x1, .f32⟩ : BufTy).Contents (Elt F)) := by
  have h := after_unary (writesAre (F := F)) 26 rfl V (by decide) (by decide)
  exact h

set_option maxHeartbeats 400000 in
theorem e_v15 :
    (fin V main_v15 : (⟨S16384x1, .f32⟩ : BufTy).Contents (Elt F)) = addf (fin V main_v12 : (⟨S16384x1, .f32⟩ : BufTy).Contents (Elt F)) (fin V main_v14 : (⟨S16384x1, .f32⟩ : BufTy).Contents (Elt F)) := by
  have h := after_binary (writesAre (F := F)) 27 rfl V (by decide) (by decide) (by decide)
  exact h

set_option maxHeartbeats 400000 in
theorem e_call2_cst :
    (fin V main_call2_cst : (⟨S_, .f32⟩ : BufTy).Contents (Elt F)) = (constant S_ .f32 0x00000000#32) := by
  have h := after_nullary (writesAre (F := F)) 28 rfl V (by decide)
  exact h

set_option maxHeartbeats 400000 in
theorem e_call2_v0 :
    (fin V main_call2_v0 : (⟨S16384x1, .f32⟩ : BufTy).Contents (Elt F)) = (broadcastInDim S16384x1 ![] bcast_S_S16384x1) (fin V main_call2_cst : (⟨S_, .f32⟩ : BufTy).Contents (Elt F)) := by
  have h := after_unary (writesAre (F := F)) 29 rfl V (by decide) (by decide)
  exact h

set_option maxHeartbeats 400000 in
theorem e_call2_v1 :
    (fin V main_call2_v1 : (⟨S16384x1, .i1⟩ : BufTy).Contents (Elt F)) = (cmpf .oge) (fin V main_v15 : (⟨S16384x1, .f32⟩ : BufTy).Contents (Elt F)) (fin V main_call2_v0 : (⟨S16384x1, .f32⟩ : BufTy).Contents (Elt F)) := by
  have h := after_binary (writesAre (F := F)) 30 rfl V (by decide) (by decide) (by decide)
  exact h

set_option maxHeartbeats 400000 in
theorem e_call2_cst_0 :
    (fin V main_call2_cst_0 : (⟨S_, .f32⟩ : BufTy).Contents (Elt F)) = (constant S_ .f32 0x3C23D70A#32) := by
  have h := after_nullary (writesAre (F := F)) 31 rfl V (by decide)
  exact h

set_option maxHeartbeats 400000 in
theorem e_call2_v2 :
    (fin V main_call2_v2 : (⟨S16384x1, .f32⟩ : BufTy).Contents (Elt F)) = (broadcastInDim S16384x1 ![] bcast_S_S16384x1) (fin V main_call2_cst_0 : (⟨S_, .f32⟩ : BufTy).Contents (Elt F)) := by
  have h := after_unary (writesAre (F := F)) 32 rfl V (by decide) (by decide)
  exact h

set_option maxHeartbeats 400000 in
theorem e_call2_v3 :
    (fin V main_call2_v3 : (⟨S16384x1, .f32⟩ : BufTy).Contents (Elt F)) = mulf (fin V main_call2_v2 : (⟨S16384x1, .f32⟩ : BufTy).Contents (Elt F)) (fin V main_v15 : (⟨S16384x1, .f32⟩ : BufTy).Contents (Elt F)) := by
  have h := after_binary (writesAre (F := F)) 33 rfl V (by decide) (by decide) (by decide)
  exact h

set_option maxHeartbeats 400000 in
theorem e_v16 :
    (fin V main_v16 : (⟨S16384x1, .f32⟩ : BufTy).Contents (Elt F)) = select (fin V main_call2_v1 : (⟨S16384x1, .i1⟩ : BufTy).Contents (Elt F)) (fin V main_v15 : (⟨S16384x1, .f32⟩ : BufTy).Contents (Elt F)) (fin V main_call2_v3 : (⟨S16384x1, .f32⟩ : BufTy).Contents (Elt F)) := by
  have h := after_ternary (writesAre (F := F)) 34 rfl V (by decide) (by decide) (by decide) (by decide)
  simp only [TRef.toBuf, TRef.ofBuf, cast_eq] at h
  exact h

set_option maxHeartbeats 400000 in
theorem e_v17 :
    (fin V main_v17 : (⟨S16384, .f32⟩ : BufTy).Contents (Elt F)) = shapeCast S16384 (fin V main_v16 : (⟨S16384x1, .f32⟩ : BufTy).Contents (Elt F)) shapeCasts_S16384x1_S16384 := by
  have h := after_reshape (writesAre (F := F)) 35 rfl V (by decide) (by decide)
  exact h

set_option maxHeartbeats 400000 in
theorem e_v18 :
    (fin V main_v18 : (⟨S1x16384, .f32⟩ : BufTy).Contents (Elt F)) = (broadcastInDim S1x16384 ![1] bcast_S16384_S1x16384_1) (fin V main_v17 : (⟨S16384, .f32⟩ : BufTy).Contents (Elt F)) := by
  have h := after_unary (writesAre (F := F)) 36 rfl V (by decide) (by decide)
  exact h

set_option maxHeartbeats 400000 in
theorem e_v19 :
    (fin V main_v19 : (⟨S8192x16384, .f32⟩ : BufTy).Contents (Elt F)) = (broadcastInDim S8192x16384 ![0, 1] bcast_S1x16384_S8192x16384_0_1) (fin V main_v18 : (⟨S1x16384, .f32⟩ : BufTy).Contents (Elt F)) := by
  have h := after_unary (writesAre (F := F)) 37 rfl V (by decide) (by decide)
  exact h

set_option maxHeartbeats 400000 in
theorem e_v20 :
    (fin V main_v20 : (⟨S8192x16384, .f32⟩ : BufTy).Contents (Elt F)) = mulf (fin V main_arg4 : (⟨S8192x16384, .f32⟩ : BufTy).Contents (Elt F)) (fin V main_v19 : (⟨S8192x16384, .f32⟩ : BufTy).Contents (Elt F)) := by
  have h := after_binary (writesAre (F := F)) 38 rfl V (by decide) (by decide) (by decide)
  exact h

set_option maxHeartbeats 400000 in
theorem e_v21 :
    (fin V main_v21 : (⟨S8192x16384, .f32⟩ : BufTy).Contents (Elt F)) = addf (fin V main_v20 : (⟨S8192x16384, .f32⟩ : BufTy).Contents (Elt F)) (fin V main_arg5 : (⟨S8192x16384, .f32⟩ : BufTy).Contents (Elt F)) := by
  have h := after_binary (writesAre (F := F)) 39 rfl V (by decide) (by decide) (by decide)
  exact h

set_option maxHeartbeats 400000 in
theorem e_cst :
    (fin V main_cst : (⟨S_, .f32⟩ : BufTy).Contents (Elt F)) = (constant S_ .f32 0xFF800000#32) := by
  have h := after_nullary (writesAre (F := F)) 40 rfl V (by decide)
  exact h

set_option maxHeartbeats 400000 in
theorem e_v22 :
    (fin V main_v22 : (⟨S8192, .f32⟩ : BufTy).Contents (Elt F)) = Host.reduce FloatOps.maximumf (fin V main_v21 : (⟨S8192x16384, .f32⟩ : BufTy).Contents (Elt F)) (fin V main_cst : (⟨S_, .f32⟩ : BufTy).Contents (Elt F)) reducesTo_S8192x16384_S8192_d1 h_S_ := by
  have h := after_binary (writesAre (F := F)) 41 rfl V (by decide) (by decide) (by decide)
  exact h

set_option maxHeartbeats 400000 in
theorem e_cst_0 :
    (fin V main_cst_0 : (⟨S_, .f32⟩ : BufTy).Contents (Elt F)) = (constant S_ .f32 0xFF800000#32) := by
  have h := after_nullary (writesAre (F := F)) 42 rfl V (by decide)
  exact h

set_option maxHeartbeats 400000 in
theorem e_v23 :
    (fin V main_v23 : (⟨S8192, .f32⟩ : BufTy).Contents (Elt F)) = (broadcastInDim S8192 ![] bcast_S_S8192) (fin V main_cst_0 : (⟨S_, .f32⟩ : BufTy).Contents (Elt F)) := by
  have h := after_unary (writesAre (F := F)) 43 rfl V (by decide) (by decide)
  exact h

set_option maxHeartbeats 400000 in
theorem e_v24 :
    (fin V main_v24 : (⟨S8192, .f32⟩ : BufTy).Contents (Elt F)) = maximumf (fin V main_v23 : (⟨S8192, .f32⟩ : BufTy).Contents (Elt F)) (fin V main_v22 : (⟨S8192, .f32⟩ : BufTy).Contents (Elt F)) := by
  have h := after_binary (writesAre (F := F)) 44 rfl V (by decide) (by decide) (by decide)
  exact h

set_option maxHeartbeats 400000 in
theorem e_v25 :
    (fin V main_v25 : (⟨S8192x1, .f32⟩ : BufTy).Contents (Elt F)) = (broadcastInDim S8192x1 ![0] bcast_S8192_S8192x1_0) (fin V main_v24 : (⟨S8192, .f32⟩ : BufTy).Contents (Elt F)) := by
  have h := after_unary (writesAre (F := F)) 45 rfl V (by decide) (by decide)
  exact h

set_option maxHeartbeats 400000 in
theorem e_v26 :
    (fin V main_v26 : (⟨S8192x16384, .f32⟩ : BufTy).Contents (Elt F)) = (broadcastInDim S8192x16384 ![0, 1] bcast_S8192x1_S8192x16384_0_1) (fin V main_v25 : (⟨S8192x1, .f32⟩ : BufTy).Contents (Elt F)) := by
  have h := after_unary (writesAre (F := F)) 46 rfl V (by decide) (by decide)
  exact h

set_option maxHeartbeats 400000 in
theorem e_v27 :
    (fin V main_v27 : (⟨S8192x16384, .f32⟩ : BufTy).Contents (Elt F)) = subf (fin V main_v21 : (⟨S8192x16384, .f32⟩ : BufTy).Contents (Elt F)) (fin V main_v26 : (⟨S8192x16384, .f32⟩ : BufTy).Contents (Elt F)) := by
  have h := after_binary (writesAre (F := F)) 47 rfl V (by decide) (by decide) (by decide)
  exact h

set_option maxHeartbeats 400000 in
theorem e_v28 :
    (fin V main_v28 : (⟨S8192x16384, .f32⟩ : BufTy).Contents (Elt F)) = Host.exp (fin V main_v27 : (⟨S8192x16384, .f32⟩ : BufTy).Contents (Elt F)) := by
  have h := after_unary (writesAre (F := F)) 48 rfl V (by decide) (by decide)
  exact h

set_option maxHeartbeats 400000 in
theorem e_cst_1 :
    (fin V main_cst_1 : (⟨S_, .f32⟩ : BufTy).Contents (Elt F)) = (constant S_ .f32 0x00000000#32) := by
  have h := after_nullary (writesAre (F := F)) 49 rfl V (by decide)
  exact h

set_option maxHeartbeats 400000 in
theorem e_v29 :
    (fin V main_v29 : (⟨S8192, .f32⟩ : BufTy).Contents (Elt F)) = Host.reduceAdd (fin V main_v28 : (⟨S8192x16384, .f32⟩ : BufTy).Contents (Elt F)) (fin V main_cst_1 : (⟨S_, .f32⟩ : BufTy).Contents (Elt F)) reducesTo_S8192x16384_S8192_d1 h_S_ := by
  have h := after_binary (writesAre (F := F)) 50 rfl V (by decide) (by decide) (by decide)
  exact h

set_option maxHeartbeats 400000 in
theorem e_v30 :
    (fin V main_v30 : (⟨S8192x1, .f32⟩ : BufTy).Contents (Elt F)) = (broadcastInDim S8192x1 ![0] bcast_S8192_S8192x1_0) (fin V main_v29 : (⟨S8192, .f32⟩ : BufTy).Contents (Elt F)) := by
  have h := after_unary (writesAre (F := F)) 51 rfl V (by decide) (by decide)
  exact h

set_option maxHeartbeats 400000 in
theorem e_v31 :
    (fin V main_v31 : (⟨S8192x16384, .f32⟩ : BufTy).Contents (Elt F)) = (broadcastInDim S8192x16384 ![0, 1] bcast_S8192x1_S8192x16384_0_1) (fin V main_v30 : (⟨S8192x1, .f32⟩ : BufTy).Contents (Elt F)) := by
  have h := after_unary (writesAre (F := F)) 52 rfl V (by decide) (by decide)
  exact h

set_option maxHeartbeats 400000 in
theorem e_v32 :
    (fin V main_v32 : (⟨S8192x16384, .f32⟩ : BufTy).Contents (Elt F)) = Host.divf (fin V main_v28 : (⟨S8192x16384, .f32⟩ : BufTy).Contents (Elt F)) (fin V main_v31 : (⟨S8192x16384, .f32⟩ : BufTy).Contents (Elt F)) := by
  have h := after_binary (writesAre (F := F)) 53 rfl V (by decide) (by decide) (by decide)
  exact h

set_option maxHeartbeats 400000 in
theorem e_v33 :
    (fin V main_v33 : (⟨S8192x128, .f32⟩ : BufTy).Contents (Elt F)) = Host.dotGeneral dot_S8192x16384_S16384x128_S8192x128_1_0_0_1_n_n none (fin V main_v32 : (⟨S8192x16384, .f32⟩ : BufTy).Contents (Elt F)) (fin V main_v10 : (⟨S16384x128, .f32⟩ : BufTy).Contents (Elt F)) := by
  have h := after_binary (writesAre (F := F)) 54 rfl V (by decide) (by decide) (by decide)
  exact h

set_option maxHeartbeats 400000 in
theorem e_call3_cst :
    (fin V main_call3_cst : (⟨S_, .f32⟩ : BufTy).Contents (Elt F)) = (constant S_ .f32 0x00000000#32) := by
  have h := after_nullary (writesAre (F := F)) 55 rfl V (by decide)
  exact h

set_option maxHeartbeats 400000 in
theorem e_call3_v0 :
    (fin V main_call3_v0 : (⟨S8192x128, .f32⟩ : BufTy).Contents (Elt F)) = (broadcastInDim S8192x128 ![] bcast_S_S8192x128) (fin V main_call3_cst : (⟨S_, .f32⟩ : BufTy).Contents (Elt F)) := by
  have h := after_unary (writesAre (F := F)) 56 rfl V (by decide) (by decide)
  exact h

set_option maxHeartbeats 400000 in
theorem e_call3_v1 :
    (fin V main_call3_v1 : (⟨S8192x128, .i1⟩ : BufTy).Contents (Elt F)) = (cmpf .ogt) (fin V main_v33 : (⟨S8192x128, .f32⟩ : BufTy).Contents (Elt F)) (fin V main_call3_v0 : (⟨S8192x128, .f32⟩ : BufTy).Contents (Elt F)) := by
  have h := after_binary (writesAre (F := F)) 57 rfl V (by decide) (by decide) (by decide)
  exact h

set_option maxHeartbeats 400000 in
theorem e_call3_cst_0 :
    (fin V main_call3_cst_0 : (⟨S_, .f32⟩ : BufTy).Contents (Elt F)) = (constant S_ .f32 0x00000000#32) := by
  have h := after_nullary (writesAre (F := F)) 58 rfl V (by decide)
  exact h

set_option maxHeartbeats 400000 in
theorem e_call3_v2 :
    (fin V main_call3_v2 : (⟨S8192x128, .f32⟩ : BufTy).Contents (Elt F)) = (broadcastInDim S8192x128 ![] bcast_S_S8192x128) (fin V main_call3_cst_0 : (⟨S_, .f32⟩ : BufTy).Contents (Elt F)) := by
  have h := after_unary (writesAre (F := F)) 59 rfl V (by decide) (by decide)
  exact h

set_option maxHeartbeats 400000 in
theorem e_call3_v3 :
    (fin V main_call3_v3 : (⟨S8192x128, .i1⟩ : BufTy).Contents (Elt F)) = (cmpf .ogt) (fin V main_v33 : (⟨S8192x128, .f32⟩ : BufTy).Contents (Elt F)) (fin V main_call3_v2 : (⟨S8192x128, .f32⟩ : BufTy).Contents (Elt F)) := by
  have h := after_binary (writesAre (F := F)) 60 rfl V (by decide) (by decide) (by decide)
  exact h

set_option maxHeartbeats 400000 in
theorem e_call3_cst_1 :
    (fin V main_call3_cst_1 : (⟨S_, .f32⟩ : BufTy).Contents (Elt F)) = (constant S_ .f32 0x00000000#32) := by
  have h := after_nullary (writesAre (F := F)) 61 rfl V (by decide)
  exact h

set_option maxHeartbeats 400000 in
theorem e_call3_call0_v0 :
    (fin V main_call3_call0_v0 : (⟨S_, .f32⟩ : BufTy).Contents (Elt F)) = id (fin V main_call3_cst_1 : (⟨S_, .f32⟩ : BufTy).Contents (Elt F)) := by
  have h := after_unary (writesAre (F := F)) 62 rfl V (by decide) (by decide)
  exact h

set_option maxHeartbeats 400000 in
theorem e_call3_call0_v1 :
    (fin V main_call3_call0_v1 : (⟨S8192x128, .f32⟩ : BufTy).Contents (Elt F)) = (broadcastInDim S8192x128 ![] bcast_S_S8192x128) (fin V main_call3_call0_v0 : (⟨S_, .f32⟩ : BufTy).Contents (Elt F)) := by
  have h := after_unary (writesAre (F := F)) 63 rfl V (by decide) (by decide)
  exact h

set_option maxHeartbeats 400000 in
theorem e_call3_v4 :
    (fin V main_call3_v4 : (⟨S8192x128, .f32⟩ : BufTy).Contents (Elt F)) = select (fin V main_call3_v3 : (⟨S8192x128, .i1⟩ : BufTy).Contents (Elt F)) (fin V main_call3_call0_v1 : (⟨S8192x128, .f32⟩ : BufTy).Contents (Elt F)) (fin V main_v33 : (⟨S8192x128, .f32⟩ : BufTy).Contents (Elt F)) := by
  have h := after_ternary (writesAre (F := F)) 64 rfl V (by decide) (by decide) (by decide) (by decide)
  simp only [TRef.toBuf, TRef.ofBuf, cast_eq] at h
  exact h

set_option maxHeartbeats 400000 in
theorem e_call3_v5 :
    (fin V main_call3_v5 : (⟨S8192x128, .f32⟩ : BufTy).Contents (Elt F)) = Host.expm1 (fin V main_call3_v4 : (⟨S8192x128, .f32⟩ : BufTy).Contents (Elt F)) := by
  have h := after_unary (writesAre (F := F)) 65 rfl V (by decide) (by decide)
  exact h

set_option maxHeartbeats 400000 in
theorem e_call3_cst_2 :
    (fin V main_call3_cst_2 : (⟨S_, .f32⟩ : BufTy).Contents (Elt F)) = (constant S_ .f32 0x3F800000#32) := by
  have h := after_nullary (writesAre (F := F)) 66 rfl V (by decide)
  exact h

set_option maxHeartbeats 400000 in
theorem e_call3_v6 :
    (fin V main_call3_v6 : (⟨S8192x128, .f32⟩ : BufTy).Contents (Elt F)) = (broadcastInDim S8192x128 ![] bcast_S_S8192x128) (fin V main_call3_cst_2 : (⟨S_, .f32⟩ : BufTy).Contents (Elt F)) := by
  have h := after_unary (writesAre (F := F)) 67 rfl V (by decide) (by decide)
  exact h

set_option maxHeartbeats 400000 in
theorem e_call3_v7 :
    (fin V main_call3_v7 : (⟨S8192x128, .f32⟩ : BufTy).Contents (Elt F)) = mulf (fin V main_call3_v6 : (⟨S8192x128, .f32⟩ : BufTy).Contents (Elt F)) (fin V main_call3_v5 : (⟨S8192x128, .f32⟩ : BufTy).Contents (Elt F)) := by
  have h := after_binary (writesAre (F := F)) 68 rfl V (by decide) (by decide) (by decide)
  exact h

set_option maxHeartbeats 400000 in
theorem e_v34 :
    (fin V main_v34 : (⟨S8192x128, .f32⟩ : BufTy).Contents (Elt F)) = select (fin V main_call3_v1 : (⟨S8192x128, .i1⟩ : BufTy).Contents (Elt F)) (fin V main_v33 : (⟨S8192x128, .f32⟩ : BufTy).Contents (Elt F)) (fin V main_call3_v7 : (⟨S8192x128, .f32⟩ : BufTy).Contents (Elt F)) := by
  have h := after_ternary (writesAre (F := F)) 69 rfl V (by decide) (by decide) (by decide) (by decide)
  simp only [TRef.toBuf, TRef.ofBuf, cast_eq] at h
  exact h

end Cert.ReferenceIdeal.RefValue

end
-- ==== Proof.LibConcatCols.lean ====
/-
  Matrices laid side by side, read at an entry.

  Two or three matrices with the same number of rows, joined along the column axis, form one matrix. Its entry at row
  `a` and column `j` belongs to the piece whose span of columns holds `j`, and is that piece's entry at row `a` and at the
  column `j` less the widths of the pieces before it.
-/
import Idealize.ShloMosaic.Lib.ValueIdx
import Idealize.ShloMosaic.Lib.Pipeline.Value
noncomputable section
namespace Cert.ConcatCols
open Idealize.ShloMosaic Idealize.ShloMosaic.ValueIdx

variable {α : Type} {A B0 B1 B2 T : Nat}

/-- Two pieces: a column inside the first piece's width reads the first piece at that column. -/
theorem pair_left (x0 : (⟨2, ![A, B0]⟩ : Shape).Idx → α) (x1 : (⟨2, ![A, B1]⟩ : Shape).Idx → α)
    (h : Shape.Concatenates [⟨2, ![A, B0]⟩, ⟨2, ![A, B1]⟩] ⟨2, ![A, T]⟩ 1) (a : Fin A) (b : Fin B0) (j : Fin T)
    (hj : j.val = b.val) :
    concatenate ⟨2, ![A, T]⟩ 1 [⟨⟨2, ![A, B0]⟩, x0⟩, ⟨⟨2, ![A, B1]⟩, x1⟩] h (ix2 a j) = x0 (ix2 a b) :=
  concatenate_pair_apply_left 1 x0 x1 h (ix2 a j) rfl (ix2 a b) (fun c => match c with
    | ⟨0, _⟩ => rfl
    | ⟨1, _⟩ => hj.symm)

/-- Two pieces: a column past the first piece's width reads the second piece at the column less that width. -/
theorem pair_right (x0 : (⟨2, ![A, B0]⟩ : Shape).Idx → α) (x1 : (⟨2, ![A, B1]⟩ : Shape).Idx → α)
    (h : Shape.Concatenates [⟨2, ![A, B0]⟩, ⟨2, ![A, B1]⟩] ⟨2, ![A, T]⟩ 1) (a : Fin A) (b : Fin B1) (j : Fin T)
    (hj : j.val = B0 + b.val) :
    concatenate ⟨2, ![A, T]⟩ 1 [⟨⟨2, ![A, B0]⟩, x0⟩, ⟨⟨2, ![A, B1]⟩, x1⟩] h (ix2 a j) = x1 (ix2 a b) :=
  concatenate_pair_apply_right 1 x0 x1 h (ix2 a j) rfl rfl (ix2 a b) (fun c hc => match c, hc with
    | ⟨0, _⟩, _ => rfl
    | ⟨1, _⟩, hc => absurd rfl hc)
    (by show b.val + B0 = j.val; omega)

/-- Three pieces: a column inside the first piece's width reads the first piece at that column. -/
theorem triple_fst (x0 : (⟨2, ![A, B0]⟩ : Shape).Idx → α) (x1 : (⟨2, ![A, B1]⟩ : Shape).Idx → α)
    (x2 : (⟨2, ![A, B2]⟩ : Shape).Idx → α)
    (h : Shape.Concatenates [⟨2, ![A, B0]⟩, ⟨2, ![A, B1]⟩, ⟨2, ![A, B2]⟩] ⟨2, ![A, T]⟩ 1) (a : Fin A) (b : Fin B0) (j : Fin T)
    (hj : j.val = b.val) :
    concatenate ⟨2, ![A, T]⟩ 1 [⟨⟨2, ![A, B0]⟩, x0⟩, ⟨⟨2, ![A, B1]⟩, x1⟩, ⟨⟨2, ![A, B2]⟩, x2⟩] h (ix2 a j) = x0 (ix2 a b) :=
  concatenate_apply_piece (t := ⟨2, ![A, T]⟩) 1 [⟨⟨2, ![A, B0]⟩, x0⟩, ⟨⟨2, ![A, B1]⟩, x1⟩, ⟨⟨2, ![A, B2]⟩, x2⟩] h (ix2 a j) 0 (by show 0 < 3; omega) ⟨2, ![A, B0]⟩ x0 rfl rfl 0 rfl (ix2 a b)
    (fun c hc => match c, hc with
      | ⟨0, _⟩, _ => rfl
      | ⟨1, _⟩, hc => absurd rfl hc)
    (by show 0 + b.val = j.val; omega)

/-- Three pieces: a column in the second piece's span reads the second piece at the column less the first width. -/
theorem triple_snd (x0 : (⟨2, ![A, B0]⟩ : Shape).Idx → α) (x1 : (⟨2, ![A, B1]⟩ : Shape).Idx → α)
    (x2 : (⟨2, ![A, B2]⟩ : Shape).Idx → α)
    (h : Shape.Concatenates [⟨2, ![A, B0]⟩, ⟨2, ![A, B1]⟩, ⟨2, ![A, B2]⟩] ⟨2, ![A, T]⟩ 1) (a : Fin A) (b : Fin B1) (j : Fin T)
    (hj : j.val = B0 + b.val) :
    concatenate ⟨2, ![A, T]⟩ 1 [⟨⟨2, ![A, B0]⟩, x0⟩, ⟨⟨2, ![A, B1]⟩, x1⟩, ⟨⟨2, ![A, B2]⟩, x2⟩] h (ix2 a j) = x1 (ix2 a b) :=
  concatenate_apply_piece (t := ⟨2, ![A, T]⟩) 1 [⟨⟨2, ![A, B0]⟩, x0⟩, ⟨⟨2, ![A, B1]⟩, x1⟩, ⟨⟨2, ![A, B2]⟩, x2⟩] h (ix2 a j) 1 (by show 1 < 3; omega) ⟨2, ![A, B1]⟩ x1 rfl rfl B0 rfl (ix2 a b)
    (fun c hc => match c, hc with
      | ⟨0, _⟩, _ => rfl
      | ⟨1, _⟩, hc => absurd rfl hc)
    (by show B0 + b.val = j.val; omega)

/-- Three pieces: a column in the third piece's span reads the third piece at the column less the first two widths. -/
theorem triple_thd (x0 : (⟨2, ![A, B0]⟩ : Shape).Idx → α) (x1 : (⟨2, ![A, B1]⟩ : Shape).Idx → α)
    (x2 : (⟨2, ![A, B2]⟩ : Shape).Idx → α)
    (h : Shape.Concatenates [⟨2, ![A, B0]⟩, ⟨2, ![A, B1]⟩, ⟨2, ![A, B2]⟩] ⟨2, ![A, T]⟩ 1) (a : Fin A) (b : Fin B2) (j : Fin T)
    (hj : j.val = B0 + B1 + b.val) :
    concatenate ⟨2, ![A, T]⟩ 1 [⟨⟨2, ![A, B0]⟩, x0⟩, ⟨⟨2, ![A, B1]⟩, x1⟩, ⟨⟨2, ![A, B2]⟩, x2⟩] h (ix2 a j) = x2 (ix2 a b) :=
  concatenate_apply_piece (t := ⟨2, ![A, T]⟩) 1 [⟨⟨2, ![A, B0]⟩, x0⟩, ⟨⟨2, ![A, B1]⟩, x1⟩, ⟨⟨2, ![A, B2]⟩, x2⟩] h (ix2 a j) 2 (by show 2 < 3; omega) ⟨2, ![A, B2]⟩ x2 rfl rfl (B0 + B1) rfl (ix2 a b)
    (fun c hc => match c, hc with
      | ⟨0, _⟩, _ => rfl
      | ⟨1, _⟩, hc => absurd rfl hc)
    (by show B0 + B1 + b.val = j.val; omega)

end Cert.ConcatCols
-- ==== Proof.RefStages.lean ====
/-
  The reference's layout and pointwise stages read at an index, over the extended reals: three (two) matrices laid
  side by side are the concatenated row of the specification; a vector broadcast to one row and then down the rows
  reads the vector at the column; a vector broadcast to one column and then along the rows reads the vector at the
  row; the leaky rectifier spelt with a broadcast zero, a broadcast slope and a select is the specification's; the
  exponential-linear unit spelt with two comparisons, the exponential less one of the clamped argument and a product
  with a broadcast one is the specification's.
-/
import Idealize.ShloMosaic.PureOps.Ideal.Laws
import Idealize.ShloMosaic.Lib.ValueIdx
import Idealize.ShloMosaic.Lib.IdealHost
import Idealize.ShloMosaic.Lib.Pipeline.Value
import proofs.«124032_j64046552318003_2_alg».proof.Proof.Spec
import proofs.«124032_j64046552318003_2_alg».proof.Proof.LibConcatCols

noncomputable section

open scoped BigOperators

namespace Cert.ReferenceIdeal.Stage

open Idealize.ShloMosaic Idealize.ShloMosaic.ValueIdx Cert.Spec

/-- Three matrices side by side, read at row `e` and column `k`: the concatenated row of the specification. -/
theorem cat3_read (u : Arr 16384 128) (p : Arr 16384 16) (v : Arr 16384 128)
    (h : Shape.Concatenates [⟨2, ![16384, 128]⟩, ⟨2, ![16384, 16]⟩, ⟨2, ![16384, 128]⟩] ⟨2, ![16384, 272]⟩ 1)
    (e : Fin 16384) (k : Fin 272) :
    concatenate ⟨2, ![16384, 272]⟩ 1 [⟨⟨2, ![16384, 128]⟩, u⟩, ⟨⟨2, ![16384, 16]⟩, p⟩, ⟨⟨2, ![16384, 128]⟩, v⟩] h (ix2 e k)
      = cat3 u p v e k := by
  unfold cat3
  by_cases h1 : k.val < 128
  · rw [dif_pos h1]
    exact Cert.ConcatCols.triple_fst u p v h e ⟨k.val, h1⟩ k rfl
  · rw [dif_neg h1]
    by_cases h2 : k.val < 144
    · rw [dif_pos h2]
      exact Cert.ConcatCols.triple_snd u p v h e ⟨k.val - 128, by omega⟩ k (by show k.val = 128 + (k.val - 128); omega)
    · rw [dif_neg h2]
      exact Cert.ConcatCols.triple_thd u p v h e ⟨k.val - 144, by have := k.isLt; omega⟩ k
        (by show k.val = 128 + 16 + (k.val - 144); omega)

/-- Two matrices side by side, read at row `e` and column `k`. -/
theorem cat2_read (x : Arr 16384 128) (p : Arr 16384 16)
    (h : Shape.Concatenates [⟨2, ![16384, 128]⟩, ⟨2, ![16384, 16]⟩] ⟨2, ![16384, 144]⟩ 1)
    (e : Fin 16384) (k : Fin 144) :
    concatenate ⟨2, ![16384, 144]⟩ 1 [⟨⟨2, ![16384, 128]⟩, x⟩, ⟨⟨2, ![16384, 16]⟩, p⟩] h (ix2 e k) = cat2 x p e k := by
  unfold cat2
  by_cases h1 : k.val < 128
  · rw [dif_pos h1]
    exact Cert.ConcatCols.pair_left x p h e ⟨k.val, h1⟩ k rfl
  · rw [dif_neg h1]
    exact Cert.ConcatCols.pair_right x p h e ⟨k.val - 128, by have := k.isLt; omega⟩ k
      (by show k.val = 128 + (k.val - 128); omega)

/-- A vector laid as one row and copied down `M` rows reads, at `(i, d)`, the vector at `d`. -/
theorem rowBcast_read {α : Type} {M N : Nat} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (i : Fin M) (d : Fin N) :
    broadcastInDim ⟨2, ![M, N]⟩ ![0, 1] h2 (broadcastInDim ⟨2, ![1, N]⟩ ![1] h1 b) (ix2 i d) = b (ix1 d) := by
  rw [broadcastInDim_apply ![0, 1] h2 _ (ix2 i d) (ix2 (0 : Fin 1) d) (fun a => ?_),
    broadcastInDim_apply ![1] h1 b (ix2 (0 : Fin 1) d) (ix1 d) (fun a => ?_)]
  · match a with
    | ⟨0, _⟩ =>
      show d.val = if N = 1 then 0 else d.val
      split
      · have := d.isLt; omega
      · rfl
  · match a with
    | ⟨0, _⟩ =>
      show (0 : ℕ) = if (1 : ℕ) = 1 then 0 else i.val
      rw [if_pos rfl]
    | ⟨1, _⟩ =>
      show d.val = if N = 1 then 0 else d.val
      split
      · have := d.isLt; omega
      · rfl

/-- A vector laid as one column and copied along `N` columns reads, at `(i, d)`, the vector at `i`. -/
theorem colBcast_read {α : Type} {M N : Nat} (b : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, N]⟩ ![0, 1]) (i : Fin M) (d : Fin N) :
    broadcastInDim ⟨2, ![M, N]⟩ ![0, 1] h2 (broadcastInDim ⟨2, ![M, 1]⟩ ![0] h1 b) (ix2 i d) = b (ix1 i) := by
  rw [broadcastInDim_apply ![0, 1] h2 _ (ix2 i d) (ix2 i (0 : Fin 1)) (fun a => ?_),
    broadcastInDim_apply ![0] h1 b (ix2 i (0 : Fin 1)) (ix1 i) (fun a => ?_)]
  · match a with
    | ⟨0, _⟩ =>
      show i.val = if M = 1 then 0 else i.val
      split
      · have := i.isLt; omega
      · rfl
  · match a with
    | ⟨0, _⟩ =>
      show i.val = if M = 1 then 0 else i.val
      split
      · have := i.isLt; omega
      · rfl
    | ⟨1, _⟩ =>
      show (0 : ℕ) = if (1 : ℕ) = 1 then 0 else d.val
      rw [if_pos rfl]

/-- The leaky rectifier as the reference spells it, at an index. -/
theorem leaky_read {S : Shape} (hb : (⟨0, ![]⟩ : Shape).BroadcastsInDim S ![]) (x : FVec Ideal S .f32) (j : S.Idx) :
    select (cmpf .oge x (broadcastInDim S ![] hb (constant (F := Ideal) ⟨0, ![]⟩ .f32 0x00000000#32))) x
        (mulf (broadcastInDim S ![] hb (constant (F := Ideal) ⟨0, ![]⟩ .f32 0x3C23D70A#32)) x) j
      = leaky (x j) := by
  rw [select_apply, cmpf_apply, mulf_apply, broadcastInDim_scalar_apply, broadcastInDim_scalar_apply]
  rfl

/-- The exponential-linear unit as the reference spells it, at an index. -/
theorem elu_read {S : Shape} (hb : (⟨0, ![]⟩ : Shape).BroadcastsInDim S ![]) (x : FVec Ideal S .f32) (j : S.Idx) :
    select (cmpf .ogt x (broadcastInDim S ![] hb (constant (F := Ideal) ⟨0, ![]⟩ .f32 0x00000000#32))) x
        (mulf (broadcastInDim S ![] hb (constant (F := Ideal) ⟨0, ![]⟩ .f32 0x3F800000#32))
          (Host.expm1 (select (cmpf .ogt x (broadcastInDim S ![] hb (constant (F := Ideal) ⟨0, ![]⟩ .f32 0x00000000#32)))
            (broadcastInDim S ![] hb (id (constant (F := Ideal) ⟨0, ![]⟩ .f32 0x00000000#32))) x))) j
      = rElu (x j) := by
  rw [select_apply, cmpf_apply, mulf_apply]
  simp only [broadcastInDim_scalar_apply]
  rfl

end Cert.ReferenceIdeal.Stage

end
-- ==== Proof.RefReadLin.lean ====
/-
  The two edge layers of the reference read at an index: the concatenated rows, their product with the 272-row weight
  matrix as a sum over the 272 columns, the bias, and the leaky rectifier — once with the edge weights (the new edge
  features, the program's second result) and once with the neighbour weights (the neighbour features the node layer
  consumes).
-/
import proofs.«124032_j64046552318003_2_alg».proof.Proof.RefEqns
import proofs.«124032_j64046552318003_2_alg».proof.Proof.RefStages
import proofs.«124032_j64046552318003_2_alg».proof.Proof.LibMatmul

noncomputable section

open scoped BigOperators

namespace Cert.ReferenceIdeal.RefValue

open Cert.ReferenceIdeal Idealize.ShloMosaic Idealize.ShloMosaic.TcCoe Idealize.SL.Sem Idealize.ShloMosaic.StableHlo
open Idealize.ShloMosaic.ValueIdx Cert.ReferenceIdeal.Facts₀

variable (V : Valuation τ sig (Elt Ideal))

/-- The twelve arguments as the line finds them, at the specification's array types. -/
abbrev aU : Spec.Arr 16384 128 := V (main_arg0 : DevRef τ sig)
abbrev aV : Spec.Arr 16384 128 := V (main_arg1 : DevRef τ sig)
abbrev aEdge : Spec.Arr 16384 128 := V (main_arg2 : DevRef τ sig)
abbrev aPos : Spec.Arr 16384 16 := V (main_arg3 : DevRef τ sig)
abbrev aMat : Spec.Arr 8192 16384 := V (main_arg4 : DevRef τ sig)
abbrev aMask : Spec.Arr 8192 16384 := V (main_arg5 : DevRef τ sig)
abbrev aWl : Spec.Arr 272 128 := V (main_arg6 : DevRef τ sig)
abbrev aBl : Spec.Arr1 128 := V (main_arg7 : DevRef τ sig)
abbrev aWe : Spec.Arr 272 128 := V (main_arg8 : DevRef τ sig)
abbrev aBe : Spec.Arr1 128 := V (main_arg9 : DevRef τ sig)
abbrev aWa : Spec.Arr 144 1 := V (main_arg10 : DevRef τ sig)
abbrev aBa : Spec.Arr1 1 := V (main_arg11 : DevRef τ sig)

/-- The concatenated rows `[u | pos | v]`, at `(e, k)`. -/
theorem r_v0 (e : Fin 16384) (k : Fin 272) :
    (fin V main_v0 : Spec.Arr 16384 272) (ix2 e k) = Spec.cat3 (aU V) (aPos V) (aV V) e k := by
  rw [e_v0, e_arg0, e_arg3, e_arg1]
  exact Stage.cat3_read _ _ _ _ e k

/-- The product of the concatenated rows with the weight matrix, at `(e, d)`. -/
theorem r_v1 (e : Fin 16384) (d : Fin 128) :
    (fin V main_v1 : Spec.Arr 16384 128) (ix2 e d)
      = ∑ k : Fin 272, Spec.cat3 (aU V) (aPos V) (aV V) e k * aWe V (ix2 k d) := by
  rw [e_v1, e_arg8]
  refine (Cert.MatOps.dotGeneral_plain_apply (φ₁ := .f32) (φ₂ := .f32) none _ _ e d).trans ?_
  exact Finset.sum_congr rfl fun k _ => by rw [r_v0]

/-- The bias laid as a row and copied down the rows, at `(e, d)`. -/
theorem r_v3 (e : Fin 16384) (d : Fin 128) :
    (fin V main_v3 : Spec.Arr 16384 128) (ix2 e d) = aBe V (ix1 d) := by
  rw [e_v3, e_v2, e_arg9]
  exact Stage.rowBcast_read _ _ _ e d

/-- The linear layer, at `(e, d)`. -/
theorem r_v4 (e : Fin 16384) (d : Fin 128) :
    (fin V main_v4 : Spec.Arr 16384 128) (ix2 e d)
      = Spec.rLin (aU V) (aPos V) (aV V) (aWe V) (aBe V) e d := by
  rw [e_v4, addf_apply, r_v1, r_v3]
  rfl

/-- The leaky rectifier of the linear layer, at `(e, d)`. -/
theorem r_v5 (e : Fin 16384) (d : Fin 128) :
    (fin V main_v5 : Spec.Arr 16384 128) (ix2 e d)
      = Spec.leaky (Spec.rLin (aU V) (aPos V) (aV V) (aWe V) (aBe V) e d) := by
  rw [e_v5, e_call0_v1, e_call0_v3, e_call0_v0, e_call0_v2, e_call0_cst, e_call0_cst_0]
  refine (Stage.leaky_read _ (fin V main_v4) (ix2 e d)).trans ?_
  rw [r_v4]

/-- The product of the concatenated rows with the weight matrix, at `(e, d)`. -/
theorem r_v6 (e : Fin 16384) (d : Fin 128) :
    (fin V main_v6 : Spec.Arr 16384 128) (ix2 e d)
      = ∑ k : Fin 272, Spec.cat3 (aU V) (aPos V) (aV V) e k * aWl V (ix2 k d) := by
  rw [e_v6, e_arg6]
  refine (Cert.MatOps.dotGeneral_plain_apply (φ₁ := .f32) (φ₂ := .f32) none _ _ e d).trans ?_
  exact Finset.sum_congr rfl fun k _ => by rw [r_v0]

/-- The bias laid as a row and copied down the rows, at `(e, d)`. -/
theorem r_v8 (e : Fin 16384) (d : Fin 128) :
    (fin V main_v8 : Spec.Arr 16384 128) (ix2 e d) = aBl V (ix1 d) := by
  rw [e_v8, e_v7, e_arg7]
  exact Stage.rowBcast_read _ _ _ e d

/-- The linear layer, at `(e, d)`. -/
theorem r_v9 (e : Fin 16384) (d : Fin 128) :
    (fin V main_v9 : Spec.Arr 16384 128) (ix2 e d)
      = Spec.rLin (aU V) (aPos V) (aV V) (aWl V) (aBl V) e d := by
  rw [e_v9, addf_apply, r_v6, r_v8]
  rfl

/-- The leaky rectifier of the linear layer, at `(e, d)`. -/
theorem r_v10 (e : Fin 16384) (d : Fin 128) :
    (fin V main_v10 : Spec.Arr 16384 128) (ix2 e d)
      = Spec.leaky (Spec.rLin (aU V) (aPos V) (aV V) (aWl V) (aBl V) e d) := by
  rw [e_v10, e_call1_v1, e_call1_v3, e_call1_v0, e_call1_v2, e_call1_cst, e_call1_cst_0]
  refine (Stage.leaky_read _ (fin V main_v9) (ix2 e d)).trans ?_
  rw [r_v9]

/-- The program's second result: the new edge features of the specification. -/
theorem edge_eq :
    (fin V main_v5 : Spec.Arr 16384 128) = Spec.rEdge (aU V) (aV V) (aPos V) (aWe V) (aBe V) := by
  funext j
  obtain ⟨e, d, rfl⟩ : ∃ (e : Fin 16384) (d : Fin 128), j = ix2 e d := ⟨j 0, j 1, eq_ix2 j⟩
  exact r_v5 V e d

end Cert.ReferenceIdeal.RefValue

end
-- ==== Proof.LibColumn.lean ====
/-
  A column read as a vector.

  An `[a, 1]` column cast to a vector of `a` numbers keeps entry `(i, 0)` at `i`: both have row-major position `i`.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a, 1]` column cast to `[a]` reads, at `i`, the column's entry of row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.Column
-- ==== Proof.RefReadAtt.lean ====
/-
  The attention scalars and the logits of the reference read at an index: the concatenated rows `[edge | pos]`, their
  product with the 144-row column of weights, the bias, the leaky rectifier; the column of scalars read as a vector,
  laid as one row and copied down the 8192 rows; the logits `mat * a + mask`.
-/
import proofs.«124032_j64046552318003_2_alg».proof.Proof.RefReadLin
import proofs.«124032_j64046552318003_2_alg».proof.Proof.LibColumn

noncomputable section

open scoped BigOperators

namespace Cert.ReferenceIdeal.RefValue

open Cert.ReferenceIdeal Idealize.ShloMosaic Idealize.ShloMosaic.TcCoe Idealize.SL.Sem Idealize.ShloMosaic.StableHlo
open Idealize.ShloMosaic.ValueIdx Cert.ReferenceIdeal.Facts₀

variable (V : Valuation τ sig (Elt Ideal))

/-- The concatenated rows `[edge | pos]`, at `(e, k)`. -/
theorem r_v11 (e : Fin 16384) (k : Fin 144) :
    (fin V main_v11 : Spec.Arr 16384 144) (ix2 e k) = Spec.cat2 (aEdge V) (aPos V) e k := by
  rw [e_v11, e_arg2, e_arg3]
  exact Stage.cat2_read _ _ _ e k

/-- Their product with the column of weights, at `(e, z)`. -/
theorem r_v12 (e : Fin 16384) (z : Fin 1) :
    (fin V main_v12 : Spec.Arr 16384 1) (ix2 e z)
      = ∑ k : Fin 144, Spec.cat2 (aEdge V) (aPos V) e k * aWa V (ix2 k z) := by
  rw [e_v12, e_arg10]
  refine (Cert.MatOps.dotGeneral_plain_apply (φ₁ := .f32) (φ₂ := .f32) none _ _ e z).trans ?_
  exact Finset.sum_congr rfl fun k _ => by rw [r_v11]

/-- The bias laid as a row and copied down the rows, at `(e, z)`. -/
theorem r_v14 (e : Fin 16384) (z : Fin 1) :
    (fin V main_v14 : Spec.Arr 16384 1) (ix2 e z) = aBa V (ix1 z) := by
  rw [e_v14, e_v13, e_arg11]
  exact Stage.rowBcast_read _ _ _ e z

/-- The linear part of the attention scalar of edge `e`. -/
theorem r_v15 (e : Fin 16384) :
    (fin V main_v15 : Spec.Arr 16384 1) (ix2 e (0 : Fin 1))
      = (∑ k : Fin 144, Spec.cat2 (aEdge V) (aPos V) e k * aWa V (ix2 k (0 : Fin 1))) + aBa V (ix1 (0 : Fin 1)) := by
  rw [e_v15, addf_apply, r_v12, r_v14]

/-- The attention scalar of edge `e`. -/
theorem r_v16 (e : Fin 16384) :
    (fin V main_v16 : Spec.Arr 16384 1) (ix2 e (0 : Fin 1)) = Spec.rA (aEdge V) (aPos V) (aWa V) (aBa V) e := by
  rw [e_v16, e_call2_v1, e_call2_v3, e_call2_v0, e_call2_v2, e_call2_cst, e_call2_cst_0]
  refine (Stage.leaky_read _ (fin V main_v15) (ix2 e (0 : Fin 1))).trans ?_
  exact congrArg Spec.leaky (r_v15 V e)

/-- The scalars as one row copied down the rows, at `(n, e)`. -/
theorem r_v19 (n : Fin 8192) (e : Fin 16384) :
    (fin V main_v19 : Spec.Arr 8192 16384) (ix2 n e) = Spec.rA (aEdge V) (aPos V) (aWa V) (aBa V) e := by
  rw [e_v19, e_v18, e_v17]
  refine (Stage.rowBcast_read _ _ _ n e).trans ?_
  refine (Idealize.ShloMosaic.Column.shapeCast_a1_a_apply _ _ e).trans ?_
  exact r_v16 V e

/-- The logits, at `(n, e)`. -/
theorem r_v21 (n : Fin 8192) (e : Fin 16384) :
    (fin V main_v21 : Spec.Arr 8192 16384) (ix2 n e)
      = Spec.logit (aMat V) (aMask V) (Spec.rA (aEdge V) (aPos V) (aWa V) (aBa V)) n e := by
  rw [e_v21, addf_apply, e_v20, mulf_apply, e_arg4, e_arg5, r_v19]
  rfl

end Cert.ReferenceIdeal.RefValue

end
-- ==== Proof.LibRowReduce.lean ====
/-
  Reductions of a matrix of extended reals along its rows.  For `x` of shape [A, B], a reduction over axis 1 read at
  row `a` runs over the row's entries `x (a, b)`, `b < B`: a maximum started from minus infinity is the supremum of
  the row, a sum started from zero is the row's sum; the host's reductions start from a scalar initial value instead,
  and give the maximum of that value and the row's supremum, and that value plus the row's sum.  The order in which
  the entries are folded does not matter, since `max` and `+` on the extended reals commute and associate.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.LibRowReduce

open Idealize.ShloMosaic Idealize.ShloMosaic.ValueIdx

/-- The index of the matrix over row `a` of the reduced vector, with column `b` inserted on the reduced axis,
    is `(a, b)`. -/
theorem lift_ix1 {A B : Nat} (h : (⟨2, ![A, B]⟩ : Shape).Reduces [1] ⟨1, ![A]⟩) (a : Fin A) (b : Fin B) :
    h.lift (ix1 a) b = ix2 a b := by
  funext c
  match c with
  | ⟨0, _⟩ => rfl
  | ⟨1, _⟩ => rfl

/-- A fold of `max` from `c` over finitely many extended reals is the maximum of `c` and their supremum. -/
theorem fold_max_eq_max_sup {ι : Type*} (s : Finset ι) (f : ι → EReal) (c : EReal) :
    s.fold max c f = max c (s.sup f) := by
  classical
  induction s using Finset.induction_on with
  | empty => rw [Finset.fold_empty, Finset.sup_empty, max_bot_right]
  | insert i s hi ih => rw [Finset.fold_insert hi, ih, Finset.sup_insert]; exact max_left_comm _ _ _

/-- The single-precision word of minus infinity denotes the bottom of the extended reals. -/
theorem ofBits_neg_inf_f32 : Ideal.ofBits .f32 0xFF800000#32 = ⊥ := by
  simp [Ideal.ofBits, Ideal.ieee]

/-- A host's reduction fact into a vector is also a kernel's (the vector has an axis). -/
theorem reduces_of_reducesTo {A B : Nat} (h' : (⟨2, ![A, B]⟩ : Shape).ReducesTo [1] ⟨1, ![A]⟩) :
    (⟨2, ![A, B]⟩ : Shape).Reduces [1] ⟨1, ![A]⟩ := by
  obtain ⟨h1, h2⟩ := h'
  exact ⟨h1, Nat.one_pos, h2⟩

/-- (1) The kernel's row maximum: a `maximumf` reduction along axis 1 from minus infinity, read at row `a`, is the
    supremum of that row. -/
theorem multiReduction_maximumf_row {A B : Nat} (x : FVec Ideal ⟨2, ![A, B]⟩ .f32)
    (h : (⟨2, ![A, B]⟩ : Shape).Reduces [1] ⟨1, ![A]⟩) (hφ : FKind.Formats .f32)
    (hacc : (0xFF800000#32 : BitVec 32) = 0xFF800000#32) (a : Fin A) :
    multiReduction .maximumf [1] ⟨1, ![A]⟩ x 0xFF800000#32 h hφ hacc (ix1 a)
      = Finset.univ.sup fun b : Fin B => x (ix2 a b) := by
  refine (Ideal.multiReduction_maximumf_single x _ h hφ hacc (ix1 a)).trans ?_
  refine (fold_max_eq_max_sup _ _ _).trans ?_
  rw [show FloatOps.ofBits (F := Ideal) .f32 0xFF800000#32 = (⊥ : EReal) from ofBits_neg_inf_f32, max_bot_left]
  exact congrArg (Finset.univ.sup) (funext fun b : Fin B => congrArg x (lift_ix1 h a b))

/-- (2) The kernel's row sum: an `add` reduction along axis 1, read at row `a`, is the sum of that row. -/
theorem multiReduction_add_row {A B : Nat} (x : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ x 0x00000000#32 h hφ hacc (ix1 a) = ∑ b : Fin B, x (ix2 a b) := by
  refine (Ideal.multiReduction_add_single x _ h hφ hacc (ix1 a)).trans ?_
  exact Finset.sum_congr rfl fun b _ => congrArg x (lift_ix1 h a b)

/-- (3) The host's row maximum: a one-operand reduction by `maximumf` along axis 1 from the scalar `v`, read at row
    `a`, is the maximum of `v` and the supremum of that row. -/
theorem hostReduce_maximumf_row {A B : Nat} (x : (⟨2, ![A, B]⟩ : Shape).Idx → EReal)
    (v : (⟨0, ![]⟩ : Shape).Idx → EReal) (h' : (⟨2, ![A, B]⟩ : Shape).ReducesTo [1] ⟨1, ![A]⟩)
    (hu : 0 < (⟨0, ![]⟩ : Shape).numel) (a : Fin A) :
    Host.reduce (FloatOps.maximumf (F := Ideal) (φ := .f32)) x v h' hu (ix1 a)
      = max (v ix0) (Finset.univ.sup fun b : Fin B => x (ix2 a b)) := by
  have h := reduces_of_reducesTo h'
  refine (Host.reduce_eq_fold_single (FloatOps.maximumf (F := Ideal) (φ := .f32)) x v h' h hu (ix1 a)).trans ?_
  refine (fold_max_eq_max_sup _ _ _).trans ?_
  rw [eq_ix0 (Shape.Idx.first hu)]
  exact congrArg (fun f => max (v ix0) (Finset.univ.sup f)) (funext fun b : Fin B => congrArg x (lift_ix1 h a b))

/-- (4) The host's row sum: a one-operand reduction by addition along axis 1 from the scalar `v`, read at row `a`,
    is `v` plus the sum of that row. -/
theorem hostReduceAdd_row {A B : Nat} (x : FVec Ideal ⟨2, ![A, B]⟩ .f32)
    (v : (⟨0, ![]⟩ : Shape).Idx → EReal) (h' : (⟨2, ![A, B]⟩ : Shape).ReducesTo [1] ⟨1, ![A]⟩)
    (hu : 0 < (⟨0, ![]⟩ : Shape).numel) (a : Fin A) :
    Host.reduceAdd (F := Ideal) (φ := .f32) x v h' hu (ix1 a) = v ix0 + ∑ b : Fin B, x (ix2 a b) := by
  have h := reduces_of_reducesTo h'
  refine (Ideal.hostReduceAdd_single h' h x (v (Shape.Idx.first hu)) (ix1 a)).trans ?_
  rw [eq_ix0 (Shape.Idx.first hu)]
  exact congrArg (fun r => v ix0 + r) (Finset.sum_congr rfl fun b _ => congrArg x (lift_ix1 h a b))

end Cert.LibRowReduce

end
-- ==== Proof.RefReadSoft.lean ====
/-
  The node layer of the reference read at an index: the row maximum of the logits (a maximum from minus infinity,
  taken once more against minus infinity), the exponentials of the logits less the maximum, their row sum (from
  zero), the quotients, the product of the quotients with the neighbour features as a sum over the 16384 edges, and
  the exponential-linear unit: the specification's context features, the program's first result.
-/
import proofs.«124032_j64046552318003_2_alg».proof.Proof.RefReadAtt
import proofs.«124032_j64046552318003_2_alg».proof.Proof.LibRowReduce

noncomputable section

open scoped BigOperators

namespace Cert.ReferenceIdeal.RefValue

open Cert.ReferenceIdeal Idealize.ShloMosaic Idealize.ShloMosaic.TcCoe Idealize.SL.Sem Idealize.ShloMosaic.StableHlo
open Idealize.ShloMosaic.ValueIdx Cert.ReferenceIdeal.Facts₀

variable (V : Valuation τ sig (Elt Ideal))

/-- The host's exponential of an array, at an index, is the exponential of the entry. -/
theorem hostExp_apply {s : Shape} (x : FVec Ideal s .f32) (i : s.Idx) : Host.exp x i = Ideal.exp (x i) := rfl

/-- The logits of node `n`, as a function of the edge. -/
abbrev sRow (n : Fin 8192) : Fin 16384 → EReal :=
  Spec.logit (aMat V) (aMask V) (Spec.rA (aEdge V) (aPos V) (aWa V) (aBa V)) n

/-- The row maximum. -/
theorem r_v22 (n : Fin 8192) : (fin V main_v22 : Spec.Arr1 8192) (ix1 n) = Spec.rowMax (sRow V n) := by
  rw [e_v22, e_cst]
  refine (Cert.LibRowReduce.hostReduce_maximumf_row _ _ _ _ n).trans ?_
  rw [constant_apply, Cert.LibRowReduce.ofBits_neg_inf_f32, max_bot_left]
  exact congrArg Finset.univ.sup (funext fun e => r_v21 V n e)

/-- The row maximum taken once more against minus infinity. -/
theorem r_v24 (n : Fin 8192) : (fin V main_v24 : Spec.Arr1 8192) (ix1 n) = Spec.rowMax (sRow V n) := by
  rw [e_v24, maximumf_apply, e_v23, e_cst_0, broadcastInDim_scalar_apply, constant_apply,
    Cert.LibRowReduce.ofBits_neg_inf_f32, max_bot_left, r_v22]

/-- The row maximum laid as a column and copied along the rows, at `(n, e)`. -/
theorem r_v26 (n : Fin 8192) (e : Fin 16384) :
    (fin V main_v26 : Spec.Arr 8192 16384) (ix2 n e) = Spec.rowMax (sRow V n) := by
  rw [e_v26, e_v25]
  refine (Stage.colBcast_read _ _ _ n e).trans ?_
  exact r_v24 V n

/-- The exponential of a logit less its row's maximum, at `(n, e)`. -/
theorem r_v28 (n : Fin 8192) (e : Fin 16384) :
    (fin V main_v28 : Spec.Arr 8192 16384) (ix2 n e) = Ideal.exp (sRow V n e - Spec.rowMax (sRow V n)) := by
  rw [e_v28, hostExp_apply, e_v27, subf_apply, r_v21, r_v26]

/-- The row sum of the exponentials. -/
theorem r_v29 (n : Fin 8192) :
    (fin V main_v29 : Spec.Arr1 8192) (ix1 n)
      = ∑ e' : Fin 16384, Ideal.exp (sRow V n e' - Spec.rowMax (sRow V n)) := by
  rw [e_v29, e_cst_1]
  refine (Cert.LibRowReduce.hostReduceAdd_row _ _ _ _ n).trans ?_
  rw [constant_apply, Ideal.ofBits_zero_f32, zero_add]
  exact Finset.sum_congr rfl fun e _ => r_v28 V n e

/-- The row sum laid as a column and copied along the rows, at `(n, e)`. -/
theorem r_v31 (n : Fin 8192) (e : Fin 16384) :
    (fin V main_v31 : Spec.Arr 8192 16384) (ix2 n e)
      = ∑ e' : Fin 16384, Ideal.exp (sRow V n e' - Spec.rowMax (sRow V n)) := by
  rw [e_v31, e_v30]
  refine (Stage.colBcast_read _ _ _ n e).trans ?_
  exact r_v29 V n

/-- The softmax weight of edge `e` at node `n`. -/
theorem r_v32 (n : Fin 8192) (e : Fin 16384) :
    (fin V main_v32 : Spec.Arr 8192 16384) (ix2 n e) = Spec.softW (sRow V n) e := by
  rw [e_v32, hostDivf_apply, r_v28, r_v31]
  rfl

/-- The weighted sum of the neighbour features, at `(n, d)`. -/
theorem r_v33 (n : Fin 8192) (d : Fin 128) :
    (fin V main_v33 : Spec.Arr 8192 128) (ix2 n d)
      = Spec.rCtx (sRow V n) (fun e => Spec.leaky (Spec.rLin (aU V) (aPos V) (aV V) (aWl V) (aBl V) e d)) := by
  rw [e_v33]
  refine (Cert.MatOps.dotGeneral_plain_apply (φ₁ := .f32) (φ₂ := .f32) none _ _ n d).trans ?_
  exact Finset.sum_congr rfl fun e _ => by rw [r_v32, r_v10]

/-- The exponential-linear unit of the weighted sum, at `(n, d)`. -/
theorem r_v34 (n : Fin 8192) (d : Fin 128) :
    (fin V main_v34 : Spec.Arr 8192 128) (ix2 n d)
      = Spec.rElu (Spec.rCtx (sRow V n) (fun e => Spec.leaky (Spec.rLin (aU V) (aPos V) (aV V) (aWl V) (aBl V) e d))) := by
  rw [e_v34, e_call3_v1, e_call3_v7, e_call3_v0, e_call3_v6, e_call3_v5, e_call3_cst, e_call3_cst_2, e_call3_v4,
    e_call3_v3, e_call3_call0_v1, e_call3_v2, e_call3_call0_v0, e_call3_cst_0, e_call3_cst_1]
  refine (Stage.elu_read _ (fin V main_v33) (ix2 n d)).trans ?_
  rw [r_v33]

/-- The program's first result: the context features of the specification. -/
theorem out_eq :
    (fin V main_v34 : Spec.Arr 8192 128)
      = Spec.rOut (aU V) (aV V) (aEdge V) (aPos V) (aMat V) (aMask V) (aWl V) (aBl V) (aWa V) (aBa V) := by
  funext j
  obtain ⟨n, d, rfl⟩ : ∃ (n : Fin 8192) (d : Fin 128), j = ix2 n d := ⟨j 0, j 1, eq_ix2 j⟩
  exact r_v34 V n d

end Cert.ReferenceIdeal.RefValue

end
-- ==== Proof.RefValue.lean ====
/-
  The reference program's run: every weakly fair execution of @main terminates; the first result holds the
  specification's context features of the arguments, the second its new edge features, and the twelve arguments are
  as they were.
-/
import proofs.«124032_j64046552318003_2_alg».proof.Proof.RefReadSoft

noncomputable section

namespace Cert.ReferenceIdeal.RefValue

open Cert.ReferenceIdeal Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_v34) = Cert.Spec.rOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11))
      ∧ r.2.mem ((c.tc : Thread nD τ).loc main_v5) = Cert.Spec.rEdge (m ((c.tc : Thread nD τ).loc main_arg0)) (m ((c.tc : Thread nD τ).loc main_arg1)) (m ((c.tc : Thread nD τ).loc main_arg3)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v34).trans (out_eq (launchContents m c)),
      (h c main_v5).trans (edge_eq (launchContents m c)),
      (h c main_arg0).trans (e_arg0 (launchContents m c)),
      (h c main_arg1).trans (e_arg1 (launchContents m c)),
      (h c main_arg2).trans (e_arg2 (launchContents m c)),
      (h c main_arg3).trans (e_arg3 (launchContents m c)),
      (h c main_arg4).trans (e_arg4 (launchContents m c)),
      (h c main_arg5).trans (e_arg5 (launchContents m c)),
      (h c main_arg6).trans (e_arg6 (launchContents m c)),
      (h c main_arg7).trans (e_arg7 (launchContents m c)),
      (h c main_arg8).trans (e_arg8 (launchContents m c)),
      (h c main_arg9).trans (e_arg9 (launchContents m c)),
      (h c main_arg10).trans (e_arg10 (launchContents m c)),
      (h c main_arg11).trans (e_arg11 (launchContents m c))⟩)
    (run_main m ρ)

end Cert.ReferenceIdeal.RefValue

end
-- ==== Proof.MathLin.lean ====
/-
  The edge layers: a sum over the 272 rows of a weight matrix is the sum over its three row bands (128, 16 and 128
  rows), and a sum over 144 rows the sum over two bands (128 and 16).  The sums live in an additive commutative monoid,
  so no finiteness of the terms is needed.  Hence the product with the concatenated row equals the three (or two)
  band products added left to right.
-/
import proofs.«124032_j64046552318003_2_alg».proof.Proof.Spec

noncomputable section

open scoped BigOperators

namespace Cert.Spec

open Idealize.ShloMosaic Idealize.ShloMosaic.ValueIdx

/-- A sum over 272 rows splits into its three bands. -/
theorem sum_bands3 {M : Type*} [AddCommMonoid M] (f : Fin 272 → M) :
    ∑ k : Fin 272, f k
      = ((∑ k : Fin 128, f (rowU k)) + ∑ k : Fin 16, f (rowP k)) + ∑ k : Fin 128, f (rowV k) := by
  have h1 : ∑ k : Fin 272, f k
      = (∑ i : Fin 144, f (Fin.castAdd 128 i)) + ∑ i : Fin 128, f (Fin.natAdd 144 i) :=
    Fin.sum_univ_add (fun i : Fin (144 + 128) => f i)
  have h2 : ∑ i : Fin 144, f (Fin.castAdd 128 i)
      = (∑ k : Fin 128, f (Fin.castAdd 128 (Fin.castAdd 16 k)))
        + ∑ k : Fin 16, f (Fin.castAdd 128 (Fin.natAdd 128 k)) :=
    Fin.sum_univ_add (fun i : Fin (128 + 16) => f (Fin.castAdd 128 i))
  rw [h1, h2]; rfl

/-- A sum over 144 rows splits into its two bands. -/
theorem sum_bands2 {M : Type*} [AddCommMonoid M] (f : Fin 144 → M) :
    ∑ k : Fin 144, f k = (∑ k : Fin 128, f (rowE k)) + ∑ k : Fin 16, f (rowQ k) := by
  have h1 : ∑ k : Fin 144, f k
      = (∑ i : Fin 128, f (Fin.castAdd 16 i)) + ∑ i : Fin 16, f (Fin.natAdd 128 i) :=
    Fin.sum_univ_add (fun i : Fin (128 + 16) => f i)
  rw [h1]; rfl

/-- The concatenated row on its three bands. -/
theorem cat3_rowU (u : Arr 16384 128) (pos : Arr 16384 16) (v : Arr 16384 128) (e : Fin 16384) (k : Fin 128) :
    cat3 u pos v e (rowU k) = u (ix2 e k) := by
  have h : (rowU k).val < 128 := k.isLt
  rw [cat3, dif_pos h]; rfl
theorem cat3_rowP (u : Arr 16384 128) (pos : Arr 16384 16) (v : Arr 16384 128) (e : Fin 16384) (k : Fin 16) :
    cat3 u pos v e (rowP k) = pos (ix2 e k) := by
  have h1 : ¬ (rowP k).val < 128 := by show ¬ 128 + k.val < 128; omega
  have h2 : (rowP k).val < 144 := by show 128 + k.val < 144; have := k.isLt; omega
  rw [cat3, dif_neg h1, dif_pos h2]
  congr 2; apply Fin.ext; show 128 + k.val - 128 = k.val; omega
theorem cat3_rowV (u : Arr 16384 128) (pos : Arr 16384 16) (v : Arr 16384 128) (e : Fin 16384) (k : Fin 128) :
    cat3 u pos v e (rowV k) = v (ix2 e k) := by
  have h1 : ¬ (rowV k).val < 128 := by show ¬ 144 + k.val < 128; omega
  have h2 : ¬ (rowV k).val < 144 := by show ¬ 144 + k.val < 144; omega
  rw [cat3, dif_neg h1, dif_neg h2]
  congr 2; apply Fin.ext; show 144 + k.val - 144 = k.val; omega

/-- The concatenated row on its two bands. -/
theorem cat2_rowE (edge : Arr 16384 128) (pos : Arr 16384 16) (e : Fin 16384) (k : Fin 128) :
    cat2 edge pos e (rowE k) = edge (ix2 e k) := by
  have h : (rowE k).val < 128 := k.isLt
  rw [cat2, dif_pos h]; rfl
theorem cat2_rowQ (edge : Arr 16384 128) (pos : Arr 16384 16) (e : Fin 16384) (k : Fin 16) :
    cat2 edge pos e (rowQ k) = pos (ix2 e k) := by
  have h1 : ¬ (rowQ k).val < 128 := by show ¬ 128 + k.val < 128; omega
  rw [cat2, dif_neg h1]
  congr 2; apply Fin.ext; show 128 + k.val - 128 = k.val; omega

/-- Three band products added left to right are the one product with the concatenated row. -/
theorem kLin_eq_rLin (u : Arr 16384 128) (pos : Arr 16384 16) (v : Arr 16384 128) (W : Arr 272 128) (b : Arr1 128)
    (e : Fin 16384) (d : Fin 128) : kLin u pos v W b e d = rLin u pos v W b e d := by
  rw [kLin, rLin, sum_bands3 (fun k => cat3 u pos v e k * W (ix2 k d))]
  simp only [cat3_rowU, cat3_rowP, cat3_rowV]

/-- The attention scalar: two band products are the one product with the concatenated row. -/
theorem kA_eq_rA (edge : Arr 16384 128) (pos : Arr 16384 16) (Wa : Arr 144 1) (ba : Arr1 1) (e : Fin 16384) :
    kA edge pos Wa ba e = rA edge pos Wa ba e := by
  rw [kA, rA, sum_bands2 (fun k => cat2 edge pos e k * Wa (ix2 k (0 : Fin 1)))]
  simp only [cat2_rowE, cat2_rowQ]

/-- The new edge features agree. -/
theorem kEdge_eq_rEdge (u v : Arr 16384 128) (pos : Arr 16384 16) (We : Arr 272 128) (be : Arr1 128) :
    kEdge u v pos We be = rEdge u v pos We be := by
  funext j
  exact congrArg leaky (kLin_eq_rLin u pos v We be (j 0) (j 1))

end Cert.Spec

end
-- ==== Proof.MathTile.lean ====
/-
  Sums tile by tile.  The 16384 edges are eight tiles of 2048; the sum of a function over the first `k` tiles grows by
  one tile's sum at each step, and over all eight tiles it is the sum over every edge.  Over the reals the tile sums
  commute with a constant factor, and the softmax-weighted sum does not depend on the shift subtracted in the exponents.
-/
import proofs.«124032_j64046552318003_2_alg».proof.Proof.Spec

noncomputable section

open scoped BigOperators

namespace Cert.Spec

/-- Edge `i` of tile `j`, for every natural `j` (tile 0's edge beyond the eighth tile: never used there). -/
def tIdx (j : ℕ) (i : Fin 2048) : Fin 16384 :=
  if h : j < 8 then tileIdx ⟨j, h⟩ i else tileIdx 0 i

theorem tIdx_of_lt {j : ℕ} (h : j < 8) (i : Fin 2048) : tIdx j i = tileIdx ⟨j, h⟩ i := dif_pos h

/-- The sum of `g` over the first `k` tiles. -/
def tsum {M : Type*} [AddCommMonoid M] (g : Fin 16384 → M) (k : ℕ) : M :=
  ∑ j ∈ Finset.range k, ∑ i : Fin 2048, g (tIdx j i)

theorem tsum_zero {M : Type*} [AddCommMonoid M] (g : Fin 16384 → M) : tsum g 0 = 0 := by
  rw [tsum, Finset.range_zero, Finset.sum_empty]

/-- One more tile. -/
theorem tsum_succ {M : Type*} [AddCommMonoid M] (g : Fin 16384 → M) {k : ℕ} (h : k < 8) :
    tsum g (k + 1) = tsum g k + ∑ i : Fin 2048, g (tileIdx ⟨k, h⟩ i) := by
  rw [tsum, Finset.sum_range_succ]
  simp only [tIdx_of_lt h]
  rfl

/-- All eight tiles are every edge. -/
theorem tsum_eight {M : Type*} [AddCommMonoid M] (g : Fin 16384 → M) : tsum g 8 = ∑ e : Fin 16384, g e := by
  have h1 : tsum g 8 = ∑ j : Fin 8, ∑ i : Fin 2048, g (tileIdx j i) := by
    refine (Fin.sum_univ_eq_sum_range (fun j => ∑ i : Fin 2048, g (tIdx j i)) 8).symm.trans ?_
    refine Finset.sum_congr rfl fun j _ => ?_
    refine Finset.sum_congr rfl fun i _ => ?_
    rw [tIdx_of_lt j.isLt]
  have h2 : ∑ e : Fin 16384, g e = ∑ x : Fin 8 × Fin 2048, g (tileIdx x.1 x.2) := by
    have h := (Equiv.sum_comp (finProdFinEquiv (m := 8) (n := 2048)) (fun e : Fin (8 * 2048) => g e)).symm
    refine h.trans (Finset.sum_congr rfl fun x _ => ?_)
    exact congrArg g (Fin.ext (Nat.add_comm x.2.val (2048 * x.1.val)))
  rw [h1, h2, Fintype.sum_prod_type]

/-- A constant factor passes through a tile sum of reals. -/
theorem mul_tsum (c : ℝ) (g : Fin 16384 → ℝ) (k : ℕ) : c * tsum g k = tsum (fun e => c * g e) k := by
  simp only [tsum, Finset.mul_sum]

/-- The softmax-weighted sum does not depend on the shift: whatever `m` and `M` are subtracted in the exponents,
    the quotient of the weighted sum by the normaliser is the sum against the normalised weights. -/
theorem softmax_shift {ι : Type*} [Fintype ι] (s nb : ι → ℝ) (m M : ℝ) :
    (∑ e, Real.exp (s e - m) * nb e) / (∑ e, Real.exp (s e - m))
      = ∑ e, Real.exp (s e - M) / (∑ e', Real.exp (s e' - M)) * nb e := by
  have hc : ∀ e, Real.exp (s e - m) = Real.exp (M - m) * Real.exp (s e - M) := by
    intro e; rw [← Real.exp_add]; congr 1; ring
  simp only [hc, mul_assoc, ← Finset.mul_sum]
  rw [mul_div_mul_left _ _ (Real.exp_pos _).ne', Finset.sum_div]
  refine Finset.sum_congr rfl fun e _ => ?_
  ring

/-- The coercion of the reals into the extended reals commutes with finite sums. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

end Cert.Spec

end
-- ==== Proof.MathReal.lean ====
/-
  Real numbers among the extended reals.  The four float words are real (zero and one exactly 0 and 1; the slope and
  the finite stand-in for minus infinity some real numbers: only that is used of them), and sums, products, the leaky
  rectifier, the linear layers and the logits of real arrays are real.
-/
import proofs.«124032_j64046552318003_2_alg».proof.Proof.Spec
import Idealize.ShloMosaic.PureOps.Ideal.Laws
import Idealize.ShloMosaic.Lib.IdealHost

noncomputable section

open scoped BigOperators

namespace Cert.Spec

open Idealize.ShloMosaic Idealize.ShloMosaic.ValueIdx

/-- An extended real that is a real number. -/
def IsR (x : EReal) : Prop := ∃ r : ℝ, x = (r : EReal)

theorem isR_coe (r : ℝ) : IsR (r : EReal) := ⟨r, rfl⟩
theorem isR_zero : IsR 0 := ⟨0, rfl⟩

theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩

theorem isR_sum {ι : Type*} (t : Finset ι) (f : ι → EReal) (h : ∀ i ∈ t, IsR (f i)) : IsR (∑ i ∈ t, f i) := by
  classical
  induction t using Finset.induction_on with
  | empty => rw [Finset.sum_empty]; exact isR_zero
  | insert a t ha ih =>
    rw [Finset.sum_insert ha]
    exact (h a (Finset.mem_insert_self a t)).add (ih fun i hi => h i (Finset.mem_insert_of_mem hi))

/-! ## The float words -/

theorem zero32_eq : zero32 = 0 := Ideal.ofBits_zero_f32
theorem one32_eq : one32 = 1 := Ideal.ofBits_one_f32

/-- A single-precision word whose exponent field is not all ones denotes a real number. -/
theorem isR_ieee_f32 (b : BitVec 32) (h : (b.extractLsb' 23 8).toNat ≠ 2 ^ 8 - 1) : IsR (Ideal.ieee 8 23 b) := by
  unfold Ideal.ieee
  simp only []
  rw [if_neg h]
  split_ifs <;> exact ⟨_, rfl⟩

theorem slope_real : IsR slope := by
  show IsR (Ideal.ieee 8 23 (0x3C23D70A#32 : BitVec 32))
  exact isR_ieee_f32 _ (by decide)
theorem negBig_real : IsR negBig := by
  show IsR (Ideal.ieee 8 23 (0xFF333332#32 : BitVec 32))
  exact isR_ieee_f32 _ (by decide)

/-! ## The rectifier and the layers -/

theorem leaky_real {x : EReal} (hx : IsR x) : IsR (leaky x) := by
  unfold leaky Scalar.select
  split_ifs
  · exact hx
  · exact slope_real.mul hx

theorem kLin_real {u v : Arr 16384 128} {pos : Arr 16384 16} {W : Arr 272 128} {b : Arr1 128}
    (hu : IsRealArr u) (hpos : IsRealArr pos) (hv : IsRealArr v) (hW : IsRealArr W) (hb : IsRealArr b)
    (e : Fin 16384) (d : Fin 128) : IsR (kLin u pos v W b e d) := by
  unfold kLin
  exact (((isR_sum _ _ fun k _ => IsR.mul (hu _) (hW _)).add (isR_sum _ _ fun k _ => IsR.mul (hpos _) (hW _))).add
    (isR_sum _ _ fun k _ => IsR.mul (hv _) (hW _))).add (hb _)

theorem kA_real {edge : Arr 16384 128} {pos : Arr 16384 16} {Wa : Arr 144 1} {ba : Arr1 1}
    (hedge : IsRealArr edge) (hpos : IsRealArr pos) (hWa : IsRealArr Wa) (hba : IsRealArr ba) (e : Fin 16384) :
    IsR (kA edge pos Wa ba e) := by
  unfold kA
  exact leaky_real (((isR_sum _ _ fun k _ => IsR.mul (hedge _) (hWa _)).add
    (isR_sum _ _ fun k _ => IsR.mul (hpos _) (hWa _))).add (hba _))

theorem logit_real {mat mask : Arr 8192 16384} {a : Fin 16384 → EReal} (hmat : IsRealArr mat) (hmask : IsRealArr mask)
    (ha : ∀ e, IsR (a e)) (n : Fin 8192) (e : Fin 16384) : IsR (logit mat mask a n e) := by
  unfold logit
  exact (IsR.mul (hmat _) (ha e)).add (hmask _)

end Cert.Spec

end
-- ==== Proof.MathSoftmax.lean ====
/-
  The streaming softmax.  For real logits `s` and real features `nb`, after `k` tiles the streaming state is
  `(m, Σ exp (s e - m), Σ exp (s e - m) * nb e)` — both sums over the first `k` tiles — for SOME real `m` (the running
  maximum; which real it is does not matter).  One step: the new maximum `m'` is real, and
  `exp (m - m') * Σ exp (s e - m) = Σ exp (s e - m')`.  After eight tiles the quotient of the two sums is the
  softmax-weighted sum, because that quotient does not depend on the shift `m`.
-/
import proofs.«124032_j64046552318003_2_alg».proof.Proof.MathTile
import proofs.«124032_j64046552318003_2_alg».proof.Proof.MathReal

noncomputable section

open scoped BigOperators

namespace Cert.Spec

open Idealize.ShloMosaic Idealize.ShloMosaic.ValueIdx

/-- The supremum of finitely many (at least one) real numbers is real. -/
theorem sup_coe_real {ι : Type*} [Fintype ι] [Nonempty ι] (f : ι → ℝ) :
    ∃ r : ℝ, (Finset.univ.sup fun i => (f i : EReal)) = (r : EReal) := by
  obtain ⟨i, _, hi⟩ := Finset.exists_mem_eq_sup Finset.univ Finset.univ_nonempty (fun i => (f i : EReal))
  exact ⟨f i, hi⟩

theorem coe_max (a b : ℝ) : max (a : EReal) (b : EReal) = ((max a b : ℝ) : EReal) :=
  (EReal.coe_strictMono.monotone.map_max).symm

/-- One tile from a real state: the new maximum is some real `m'`, and the two sums are the real expressions. -/
theorem osStep_coe (s nb : Fin 16384 → ℝ) (j : Fin 8) (m A B : ℝ) :
    ∃ m' : ℝ, osStep (fun e => (s e : EReal)) (fun e => (nb e : EReal)) j ((m : EReal), (A : EReal), (B : EReal))
      = ((m' : EReal),
         ((Real.exp (m - m') * A + ∑ e : Fin 2048, Real.exp (s (tileIdx j e) - m') : ℝ) : EReal),
         ((Real.exp (m - m') * B + ∑ e : Fin 2048, Real.exp (s (tileIdx j e) - m') * nb (tileIdx j e) : ℝ) : EReal)) := by
  obtain ⟨r, hr⟩ := sup_coe_real (fun e : Fin 2048 => s (tileIdx j e))
  refine ⟨max m r, ?_⟩
  have hmax : max (m : EReal) (Finset.univ.sup fun e : Fin 2048 => ((s (tileIdx j e) : ℝ) : EReal))
      = ((max m r : ℝ) : EReal) := by rw [hr]; exact coe_max m r
  unfold osStep
  dsimp only
  rw [hmax]
  refine Prod.ext rfl (Prod.ext ?_ ?_)
  · show Ideal.exp ((m : EReal) - ((max m r : ℝ) : EReal)) * (A : EReal)
        + ∑ e : Fin 2048, Ideal.exp ((s (tileIdx j e) : EReal) - ((max m r : ℝ) : EReal)) = _
    simp only [← EReal.coe_sub, Ideal.exp_coe, ← EReal.coe_mul, ← coe_finset_sum, ← EReal.coe_add]
  · show Ideal.exp ((m : EReal) - ((max m r : ℝ) : EReal)) * (B : EReal)
        + ∑ e : Fin 2048, Ideal.exp ((s (tileIdx j e) : EReal) - ((max m r : ℝ) : EReal)) * (nb (tileIdx j e) : EReal) = _
    simp only [← EReal.coe_sub, Ideal.exp_coe, ← EReal.coe_mul, ← coe_finset_sum, ← EReal.coe_add]

/-- The state after `k` tiles. -/
theorem osRun_inv (s nb : Fin 16384 → ℝ) : ∀ (k : ℕ) (h : k ≤ 8), ∃ m : ℝ,
    osRun (fun e => (s e : EReal)) (fun e => (nb e : EReal)) k h
      = ((m : EReal), ((tsum (fun e => Real.exp (s e - m)) k : ℝ) : EReal),
          ((tsum (fun e => Real.exp (s e - m) * nb e) k : ℝ) : EReal)) := by
  intro k
  induction k with
  | zero =>
    intro _
    obtain ⟨r0, h0⟩ := negBig_real
    refine ⟨r0, ?_⟩
    show osInit = _
    rw [osInit, h0, zero32_eq, tsum_zero, tsum_zero, EReal.coe_zero]
  | succ k ih =>
    intro h
    have hk : k < 8 := by omega
    obtain ⟨m, hm⟩ := ih (by omega)
    obtain ⟨m', hm'⟩ := osStep_coe s nb ⟨k, hk⟩ m (tsum (fun e => Real.exp (s e - m)) k)
      (tsum (fun e => Real.exp (s e - m) * nb e) k)
    refine ⟨m', ?_⟩
    show osStep _ _ ⟨k, _⟩ (osRun _ _ k _) = _
    rw [hm, hm']
    have hc : ∀ e, Real.exp (m - m') * Real.exp (s e - m) = Real.exp (s e - m') := by
      intro e; rw [← Real.exp_add]; congr 1; ring
    rw [tsum_succ _ hk, tsum_succ _ hk, mul_tsum, mul_tsum]
    simp only [← mul_assoc, hc]

/-- Streamed and by quotients, the softmax-weighted sum of real features under real logits is the same real number. -/
theorem kCtx_eq_rCtx_coe (s nb : Fin 16384 → ℝ) :
    kCtx (fun e => (s e : EReal)) (fun e => (nb e : EReal)) = rCtx (fun e => (s e : EReal)) (fun e => (nb e : EReal)) := by
  obtain ⟨m, hm⟩ := osRun_inv s nb 8 le_rfl
  obtain ⟨M, hM⟩ := sup_coe_real s
  have hA : 0 < ∑ e : Fin 16384, Real.exp (s e - m) :=
    Finset.sum_pos (fun e _ => Real.exp_pos _) Finset.univ_nonempty
  have hZ : 0 < ∑ e : Fin 16384, Real.exp (s e - M) :=
    Finset.sum_pos (fun e _ => Real.exp_pos _) Finset.univ_nonempty
  have hk : kCtx (fun e => (s e : EReal)) (fun e => (nb e : EReal))
      = (((∑ e : Fin 16384, Real.exp (s e - m) * nb e) / (∑ e : Fin 16384, Real.exp (s e - m)) : ℝ) : EReal) := by
    unfold kCtx
    rw [hm]
    dsimp only
    rw [tsum_eight, tsum_eight, Ideal.div_coe hA.ne', ← EReal.coe_mul, mul_one_div]
  have hr : rCtx (fun e => (s e : EReal)) (fun e => (nb e : EReal))
      = ((∑ e : Fin 16384, Real.exp (s e - M) / (∑ e' : Fin 16384, Real.exp (s e' - M)) * nb e : ℝ) : EReal) := by
    unfold rCtx softW
    rw [show rowMax (fun e => (s e : EReal)) = (M : EReal) from hM]
    simp only [← EReal.coe_sub, Ideal.exp_coe, ← coe_finset_sum, Ideal.div_coe hZ.ne', ← EReal.coe_mul, mul_one_div]
  rw [hk, hr, softmax_shift s nb m M]

/-- The same for extended-real logits and features every one of which is a real number. -/
theorem kCtx_eq_rCtx {s nb : Fin 16384 → EReal} (hs : ∀ e, IsR (s e)) (hnb : ∀ e, IsR (nb e)) :
    kCtx s nb = rCtx s nb := by
  choose s' hs' using hs
  choose nb' hnb' using hnb
  obtain rfl : s = fun e => (s' e : EReal) := funext hs'
  obtain rfl : nb = fun e => (nb' e : EReal) := funext hnb'
  exact kCtx_eq_rCtx_coe s' nb'

/-- The two spellings of the exponential-linear unit agree at every extended real: where `x > 0` both are `x`;
    elsewhere the inner selection returns `x` and the factor is 1. -/
theorem kElu_eq_rElu (x : EReal) : kElu x = rElu x := by
  unfold kElu rElu
  rw [one32_eq]
  unfold Scalar.select
  split_ifs
  · rfl
  · exact (one_mul _).symm

end Cert.Spec

end
-- ==== Proof.MathOut.lean ====
/-
  The node layer's result.  The attention scalars and the neighbour features are the same in both programs (the band
  sums), they are real for real inputs, hence so are the logits; the streamed softmax-weighted sum then equals the one
  by quotients, and the two spellings of the exponential-linear unit agree everywhere.
-/
import proofs.«124032_j64046552318003_2_alg».proof.Proof.MathLin
import proofs.«124032_j64046552318003_2_alg».proof.Proof.MathSoftmax

noncomputable section

open scoped BigOperators

namespace Cert.Spec

open Idealize.ShloMosaic Idealize.ShloMosaic.ValueIdx

theorem kOut_eq_rOut (u v edge : Arr 16384 128) (pos : Arr 16384 16) (mat mask : Arr 8192 16384) (Wl : Arr 272 128)
    (bl : Arr1 128) (Wa : Arr 144 1) (ba : Arr1 1)
    (hu : IsRealArr u) (hv : IsRealArr v) (hedge : IsRealArr edge) (hpos : IsRealArr pos) (hmat : IsRealArr mat)
    (hmask : IsRealArr mask) (hWl : IsRealArr Wl) (hbl : IsRealArr bl) (hWa : IsRealArr Wa) (hba : IsRealArr ba) :
    kOut u v edge pos mat mask Wl bl Wa ba = rOut u v edge pos mat mask Wl bl Wa ba := by
  funext j
  have hA : kA edge pos Wa ba = rA edge pos Wa ba := funext (kA_eq_rA edge pos Wa ba)
  have hS : logit mat mask (kA edge pos Wa ba) (j 0) = logit mat mask (rA edge pos Wa ba) (j 0) :=
    congrArg (fun a => logit mat mask a (j 0)) hA
  have hL : (fun e => leaky (kLin u pos v Wl bl e (j 1))) = fun e => leaky (rLin u pos v Wl bl e (j 1)) :=
    funext fun e => congrArg leaky (kLin_eq_rLin u pos v Wl bl e (j 1))
  have hsR : ∀ e, IsR (logit mat mask (kA edge pos Wa ba) (j 0) e) :=
    fun e => logit_real hmat hmask (kA_real hedge hpos hWa hba) (j 0) e
  have hnR : ∀ e, IsR (leaky (kLin u pos v Wl bl e (j 1))) :=
    fun e => leaky_real (kLin_real hu hpos hv hWl hbl e (j 1))
  exact ((congrArg kElu (kCtx_eq_rCtx hsR hnR)).trans (kElu_eq_rElu _)).trans
    (congrArg₂ (fun a b => rElu (rCtx a b)) hS hL)

end Cert.Spec

end
-- ==== Proof.Finite.lean ====
/-
  What the precondition says: every entry of every argument array is a real number.  The printed predicate is the
  conjunction, over the twelve arrays, of "every entry's absolute value is below plus infinity"; an extended real
  whose absolute value max x (-x) is below the top element is neither infinity.
-/
import proofs.«124032_j64046552318003_2_alg».proof.Pre_finite_inputs
import proofs.«124032_j64046552318003_2_alg».proof.Proof.Spec
import Idealize.ShloMosaic.Lib.ReduceAll
import Idealize.ShloMosaic.Lib.Affine
import Idealize.ShloMosaic.PureOps.Ideal

noncomputable section

namespace Cert.Finite

open Idealize.ShloMosaic Cert.Pre_finite_inputs Cert.Spec

/-- The word 0x7F800000 denotes plus infinity. -/
theorem inf_word : Ideal.ofBits .f32 0x7F800000#32 = (⊤ : EReal) := by
  simp [Ideal.ofBits, Ideal.ieee]

/-- An extended real whose absolute value is below plus infinity is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => exfalso; revert h; simp [Ideal.cmp]
  | coe r => exact ⟨r, rfl⟩
  | top => exfalso; revert h; simp [Ideal.cmp]

instance : Subsingleton S_.Idx := ⟨fun a b => funext fun d => d.elim0⟩

variable [Facts]
open Facts

/-- One conjunct of the predicate: a `jnp.all` of "absolute value below plus infinity" that holds says every entry is real. -/
theorem all_real {s : Shape} (x : s.Idx → EReal) (hb : S_.BroadcastsInDim s (![] : Fin 0 → Fin s.rank)) {axes : List (Fin s.rank)} (hr : s.ReducesTo axes S_)
    (e : Host.reduce IntOp.andi (cmpf (F := Ideal) (φ := .f32) .olt (Host.absf (F := Ideal) (φ := .f32) x) (broadcastInDim s ![] hb (constant (F := Ideal) S_ .f32 0x7F800000#32))) (constantI S_ 1 1#1) hr h_S_ ValueIdx.ix0 = 1#1) :
    IsRealArr x := fun i =>
  real_of_abs_lt (x i) (Host.reduce_andi_all _ _ hr h_S_ ValueIdx.ix0 e i)

/-- The precondition, decoded: all twelve arrays are real. -/
theorem reals_of_pre (a0 a1 a2 : FVec Ideal S16384x128 .f32) (a3 : FVec Ideal S16384x16 .f32) (a4 a5 : FVec Ideal S8192x16384 .f32)
    (a6 : FVec Ideal S272x128 .f32) (a7 : FVec Ideal S128 .f32) (a8 : FVec Ideal S272x128 .f32) (a9 : FVec Ideal S128 .f32)
    (a10 : FVec Ideal S144x1 .f32) (a11 : FVec Ideal S1 .f32)
    (h : fn (F := Ideal) a0 a1 a2 a3 a4 a5 a6 a7 a8 a9 a10 a11 = fun _ => 1#1) :
    IsRealArr a0 ∧ IsRealArr a1 ∧ IsRealArr a2 ∧ IsRealArr a3 ∧ IsRealArr a4 ∧ IsRealArr a5 ∧ IsRealArr a6 ∧ IsRealArr a7
      ∧ IsRealArr a8 ∧ IsRealArr a9 ∧ IsRealArr a10 ∧ IsRealArr a11 := by
  have h0 := congrFun h ValueIdx.ix0
  dsimp only [fn, fn_part1, fn_part2, fn_part3, andi] at h0
  simp only [IntOp.andi_eq_one] at h0
  obtain ⟨⟨⟨⟨⟨⟨⟨⟨⟨⟨⟨e0, e1⟩, e2⟩, e3⟩, e4⟩, e5⟩, e6⟩, e7⟩, e8⟩, e9⟩, e10⟩, e11⟩ := h0
  exact ⟨all_real a0 _ _ e0, all_real a1 _ _ e1, all_real a2 _ _ e2, all_real a3 _ _ e3, all_real a4 _ _ e4, all_real a5 _ _ e5,
    all_real a6 _ _ e6, all_real a7 _ _ e7, all_real a8 _ _ e8, all_real a9 _ _ e9, all_real a10 _ _ e10, all_real a11 _ _ e11⟩

end Cert.Finite

end
-- ==== Proof.lean ====
/-
  The certificate: the kernel program — a per-edge layer (three linear maps of the concatenated edge inputs, each
  computed band by band, with leaky rectifiers) feeding a node layer (a softmax over each node's 16384 edge logits,
  streamed over eight tiles with a running maximum, normaliser and weighted sum, then an exponential-linear unit) — and
  the plain reference compute the same two arrays on the extended reals whenever every input is a real number.
  * The three frames: the word-level and the idealized kernel programs run through their two regions (one text,
    at any float instance); the reference's run is its list of host operations.
  * The idealization rewrote nothing, so `preserves` is trivial.
  * `algebraic`: the kernel program's results are `Spec.kOut` / `Spec.kEdge` of the launch memory, the reference's
    `Spec.rOut` / `Spec.rEdge`; a sum over 272 (or 144) columns splits into its bands in any commutative monoid, and
    on real logits the streamed softmax equals the quotient form because rescaling by `exp (old max - new max)`
    is exact on the reals and the softmax is invariant under a shift of the maximum.
-/
import proofs.«124032_j64046552318003_2_alg».proof.Defs
import proofs.«124032_j64046552318003_2_alg».proof.Proof.Gen.Kernel
import proofs.«124032_j64046552318003_2_alg».proof.Proof.Gen.KernelIdeal
import proofs.«124032_j64046552318003_2_alg».proof.Proof.Gen.ReferenceIdeal
import proofs.«124032_j64046552318003_2_alg».proof.Proof.Gen.Pre_finite_inputs
import proofs.«124032_j64046552318003_2_alg».proof.Proof.BKRun
import proofs.«124032_j64046552318003_2_alg».proof.Proof.KValue
import proofs.«124032_j64046552318003_2_alg».proof.Proof.RefValue
import proofs.«124032_j64046552318003_2_alg».proof.Proof.MathOut
import proofs.«124032_j64046552318003_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2) (Cert.ReferenceIdeal.RefValue.run m ρ)

theorem preserves : Cert.preserves_Kernel_KernelIdeal := trivial

open Cert.KernelIdeal.Hand in
/-- Both programs end with the same two arrays: the kernel program's are the specification's band-by-band and
    streamed forms of the launch memory, the reference's its concatenated and quotient forms of an agreeing memory,
    and the forms agree on real inputs. -/
theorem algebraic : Cert.algebraic_KernelIdeal_ReferenceIdeal := by
  intro m ρ m' ρ' hpre hagree
  refine ⟨fun c => Cert.Spec.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Spec.kEdge (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun _ h c =>
      ⟨(h c _ (mem_uc Cert.KernelIdeal.main_v2 (by decide))).trans (out_v2 m ρ c),
       (h c _ (mem_uc Cert.KernelIdeal.main_v0_0 (by decide))).trans (out_v0_0 m ρ c),
       (h c _ (mem_uc Cert.KernelIdeal.main_arg0 (by decide))).trans (W4_main_arg0 m ρ c),
       (h c _ (mem_uc Cert.KernelIdeal.main_arg1 (by decide))).trans (W4_main_arg1 m ρ c),
       (h c _ (mem_uc Cert.KernelIdeal.main_arg2 (by decide))).trans (W4_main_arg2 m ρ c),
       (h c _ (mem_uc Cert.KernelIdeal.main_arg3 (by decide))).trans (W4_main_arg3 m ρ c),
       (h c _ (mem_uc Cert.KernelIdeal.main_arg4 (by decide))).trans (W4_main_arg4 m ρ c),
       (h c _ (mem_uc Cert.KernelIdeal.main_arg5 (by decide))).trans (W4_main_arg5 m ρ c),
       (h c _ (mem_uc Cert.KernelIdeal.main_arg6 (by decide))).trans (W4_main_arg6 m ρ c),
       (h c _ (mem_uc Cert.KernelIdeal.main_arg7 (by decide))).trans (W4_main_arg7 m ρ c),
       (h c _ (mem_uc Cert.KernelIdeal.main_arg8 (by decide))).trans (W4_main_arg8 m ρ c),
       (h c _ (mem_uc Cert.KernelIdeal.main_arg9 (by decide))).trans (W4_main_arg9 m ρ c),
       (h c _ (mem_uc Cert.KernelIdeal.main_arg10 (by decide))).trans (W4_main_arg10 m ρ c),
       (h c _ (mem_uc Cert.KernelIdeal.main_arg11 (by decide))).trans (W4_main_arg11 m ρ c)⟩)
      (run_all m ρ)
  · refine (θ_run Cert.ReferenceIdeal.defs _ _).mono (fun _ h c => ?_) (Cert.ReferenceIdeal.RefValue.run m' ρ')
    obtain ⟨h1, h2, hargs⟩ := h c
    obtain ⟨a0, a1, a2, a3, a4, a5, a6, a7, a8, a9, a10, a11⟩ := hagree c
    obtain ⟨r0, r1, r2, r3, r4, r5, r6, r7, r8, r9, r10, r11⟩ := Cert.Finite.reals_of_pre _ _ _ _ _ _ _ _ _ _ _ _ (hpre c)
    refine ⟨?_, ?_, hargs⟩
    · rw [h1, a0, a1, a2, a3, a4, a5, a6, a7, a10, a11]
      exact (Cert.Spec.kOut_eq_rOut _ _ _ _ _ _ _ _ _ _ r0 r1 r2 r3 r4 r5 r6 r7 r10 r11).symm
    · rw [h2, a0, a1, a3, a8, a9]
      exact (Cert.Spec.kEdge_eq_rEdge _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
